-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S512 : Shape := ⟨1, ![512]⟩
abbrev S128x512 : Shape := ⟨2, ![128, 512]⟩
abbrev S512x512 : Shape := ⟨2, ![512, 512]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_arg14 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  main_v73

def fn_part3 {F : FTy → Type} [FloatOps F] (main_arg11 : FVec F S512x512 .f32) (main_arg12 : FVec F S512 .f32) (main_arg13 : FVec F S512 .f32) (main_arg14 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S128x512 .f32) (main_arg8 : FVec F S512x512 .f32) (main_arg9 : FVec F S512x512 .f32) (main_arg10 : FVec F S512x512 .f32) (main_arg11 : FVec F S512x512 .f32) (main_arg12 : FVec F S512 .f32) (main_arg13 : FVec F S512 .f32) (main_arg14 : FVec F S512 .f32) (main_v33 : IVec S_ 1) : IVec S_ 1 :=
  let main_v34 : FVec F S128x512 .f32 := Host.absf main_arg7
  let main_cst_12 : FVec F S_ .f32 := constant S_ .f32 0x7F800000#32
  let main_v35 : FVec F S128x512 .f32 := broadcastInDim S128x512 ![] bcast_S_S128x512 main_cst_12
  let main_v36 : IVec S128x512 1 := cmpf .olt main_v34 main_v35
  let main_c_13 : IVec S_ 1 := constantI S_ 1 1#1
  let main_v37 : IVec S_ 1 := (fun x v => Host.reduce IntOp.andi x v reducesTo_S128x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_v48 main_v49 main_v50

def fn_part1 {F : FTy → Type} [FloatOps F] (main_arg4 : FVec F S128x512 .f32) (main_arg5 : FVec F S128x512 .f32) (main_arg6 : FVec F S128x512 .f32) (main_arg7 : FVec F S128x512 .f32) (main_arg8 : FVec F S512x512 .f32) (main_arg9 : FVec F S512x512 .f32) (main_arg10 : FVec F S512x512 .f32) (main_arg11 : FVec F S512x512 .f32) (main_arg12 : FVec F S512 .f32) (main_arg13 : FVec F S512 .f32) (main_arg14 : FVec F S512 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S128x128 .f32) (main_arg1 : FVec F S512 .f32) (main_arg2 : FVec F S128x128 .f32) (main_arg3 : FVec F S128x128 .f32) (main_arg4 : FVec F S128x512 .f32) (main_arg5 : FVec F S128x512 .f32) (main_arg6 : FVec F S128x512 .f32) (main_arg7 : FVec F S128x512 .f32) (main_arg8 : FVec F S512x512 .f32) (main_arg9 : FVec F S512x512 .f32) (main_arg10 : FVec F S512x512 .f32) (main_arg11 : FVec F S512x512 .f32) (main_arg12 : FVec F S512 .f32) (main_arg13 : FVec F S512 .f32) (main_arg14 : FVec F S512 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S128x128 : Shape := ⟨2, ![128, 128]⟩
abbrev S512 : Shape := ⟨1, ![512]⟩
abbrev S128x512 : Shape := ⟨2, ![128, 512]⟩
abbrev S512x512 : Shape := ⟨2, ![512, 512]⟩
abbrev S16x128 : Shape := ⟨2, ![16, 128]⟩
abbrev S16x512 : Shape := ⟨2, ![16, 512]⟩
abbrev S16x128x1 : Shape := ⟨3, ![16, 128, 1]⟩
abbrev S1x128x128 : Shape := ⟨3, ![1, 128, 128]⟩
abbrev S16x128x128 : Shape := ⟨3, ![16, 128, 128]⟩
abbrev S1x512 : Shape := ⟨2, ![1, 512]⟩
abbrev S512x128 : Shape := ⟨2, ![512, 128]⟩
abbrev S16x512x1 : Shape := ⟨3, ![16, 512, 1]⟩
abbrev S1x512x128 : Shape := ⟨3, ![1, 512, 128]⟩
abbrev S16x512x128 : Shape := ⟨3, ![16, 512, 128]⟩
abbrev S128 : Shape := ⟨1, ![128]⟩
abbrev S1x128 : Shape := ⟨2, ![1, 128]⟩

abbrev nBuf : Space → Nat
  | .hbm => 16
  | .vmem => 24
  | .smem => 0
  | _ => 0

abbrev bufTy : (tb : Table) → Fin (tcTables nBuf tb) → BufTy
  | .hbm, ⟨0, _⟩ => ⟨S128x128, .f32⟩
  | .hbm, ⟨1, _⟩ => ⟨S512, .f32⟩
  | .hbm, ⟨2, _⟩ => ⟨S128x128, .f32⟩
  | .hbm, ⟨3, _⟩ => ⟨S128x128, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S128x512, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S16x512, .f32⟩
  | .local _ .vmem, ⟨19, _⟩ => ⟨S16x512, .f32⟩
  | .local _ .vmem, ⟨20, _⟩ => ⟨S16x512, .f32⟩
  | .local _ .vmem, ⟨21, _⟩ => ⟨S16x512, .f32⟩
  | .local _ .vmem, ⟨22, _⟩ => ⟨S16x512, .f32⟩
  | .local _ .vmem, ⟨23, _⟩ => ⟨S16x512, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  inb_S16x128_S16x128_0_0 : ∀ a, (![0, 0] : Fin 2 → Nat) a + S16x128.size a ≤ S16x128.size a
  h_S16x128 : 0 < S16x128.numel
  inb_S128x512_S128x128_0_0 : ∀ a, (![0, 0] : Fin 2 → Nat) a + S128x128.size a ≤ S128x512.size a
  h_S128x128 : 0 < S128x128.numel
  shapeCasts_S16x128_S16x128x1 : S16x128.ShapeCasts S16x128x1
  shapeCasts_S128x128_S1x128x128 : S128x128.ShapeCasts S1x128x128
  broadcasts_S16x128x1_S16x128x128 : S16x128x1.Broadcasts S16x128x128
  broadcasts_S1x128x128_S16x128x128 : S1x128x128.Broadcasts S16x128x128
  reduces_S16x128x128_S16x128 : S16x128x128.Reduces [1] S16x128
  inb_S16x512_S16x128_0_0 : ∀ a, (![0, 0] : Fin 2 → Nat) a + S16x128.size a ≤ S16x512.size a
  shapeCasts_S16x128_S16x128 : S16x128.ShapeCasts S16x128
  inb_S128x512_S128x128_0_128 : ∀ a, (![0, 128] : Fin 2 → Nat) a + S128x128.size a ≤ S128x512.size a
  inb_S16x512_S16x128_0_128 : ∀ a, (![0, 128] : Fin 2 → Nat) a + S16x128.size a ≤ S16x512.size a
  inb_S128x512_S128x128_0_256 : ∀ a, (![0, 256] : Fin 2 → Nat) a + S128x128.size a ≤ S128x512.size a
  inb_S16x512_S16x128_0_256 : ∀ a, (![0, 256] : Fin 2 → Nat) a + S16x128.size a ≤ S16x512.size a
  inb_S128x512_S128x128_0_384 : ∀ a, (![0, 384] : Fin 2 → Nat) a + S128x128.size a ≤ S128x512.size a
  inb_S16x512_S16x128_0_384 : ∀ a, (![0, 384] : Fin 2 → Nat) a + S16x128.size a ≤ S16x512.size a
  inb_S512_S512_0 : ∀ a, (![0] : Fin 1 → Nat) a + S512.size a ≤ S512.size a
  h_S512 : 0 < S512.numel
  shapeCasts_S512_S1x512 : S512.ShapeCasts S1x512
  broadcasts_S1x512_S16x512 : S1x512.Broadcasts S16x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S512x512_S512x128_0_0 : ∀ a, (![0, 0] : Fin 2 → Nat) a + S512x128.size a ≤ S512x512.size a
  h_S512x128 : 0 < S512x128.numel
  shapeCasts_S16x512_S16x512x1 : S16x512.ShapeCasts S16x512x1
  shapeCasts_S512x128_S1x512x128 : S512x128.ShapeCasts S1x512x128
  broadcasts_S16x512x1_S16x512x128 : S16x512x1.Broadcasts S16x512x128
  broadcasts_S1x512x128_S16x512x128 : S1x512x128.Broadcasts S16x512x128
  reduces_S16x512x128_S16x128 : S16x512x128.Reduces [1] S16x128
  inb_S512_S128_0 : ∀ a, (![0] : Fin 1 → Nat) a + S128.size a ≤ S512.size a
  h_S128 : 0 < S128.numel
  slices_S16x512_o0_0_S16x128 : S16x512.Slices ![0, 0] S16x128
  shapeCasts_S128_S1x128 : S128.ShapeCasts S1x128
  broadcasts_S1x128_S16x128 : S1x128.Broadcasts S16x128
  inb_S512x512_S512x128_0_128 : ∀ a, (![0, 128] : Fin 2 → Nat) a + S512x128.size a ≤ S512x512.size a
  inb_S512_S128_128 : ∀ a, (![128] : Fin 1 → Nat) a + S128.size a ≤ S512.size a
  slices_S16x512_o0_128_S16x128 : S16x512.Slices ![0, 128] S16x128
  inb_S512x512_S512x128_0_256 : ∀ a, (![0, 256] : Fin 2 → Nat) a + S512x128.size a ≤ S512x512.size a
  inb_S512_S128_256 : ∀ a, (![256] : Fin 1 → Nat) a + S128.size a ≤ S512.size a
  slices_S16x512_o0_256_S16x128 : S16x512.Slices ![0, 256] S16x128
  inb_S512x512_S512x128_0_384 : ∀ a, (![0, 384] : Fin 2 → Nat) a + S512x128.size a ≤ S512x512.size a
  inb_S512_S128_384 : ∀ a, (![384] : Fin 1 → Nat) a + S128.size a ≤ S512.size a
  slices_S16x512_o0_384_S16x128 : S16x512.Slices ![0, 384] S16x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S128x128.size a
  hwx0_0 : ∀ i : grid0.Coords, EltTy.bits .f32 = 32 ∨ (Rect.block (s := S128x128) S16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S128x128.size a
  hwx0_1 : ∀ i : grid0.Coords, EltTy.bits .f32 = 32 ∨ (Rect.block (s := S128x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S128x128.size a
  hwx0_2 : ∀ i : grid0.Coords, EltTy.bits .f32 = 32 ∨ (Rect.block (s := S128x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .f32 = 32 ∨ (Rect.block (s := S128x512) S128x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S16x512.size a ≤ S128x512.size a
  hwx0_15 : ∀ i : grid0.Coords, EltTy.bits .f32 = 32 ∨ (Rect.block (s := S128x512) S16x512.size (cc0_transform_15 i) (hinb0_15 i)).WholeWords (EltTy.packing .f32)

variable [Facts₀]

abbrev win0_0 : Pipeline.Window sig grid0 :=
  Pipeline.Window.ofSpec (Memref.whole main_arg0) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S16x512.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S128x128 : Shape := ⟨2, ![128, 128]⟩
abbrev S512 : Shape := ⟨1, ![512]⟩
abbrev S128x512 : Shape := ⟨2, ![128, 512]⟩
abbrev S512x512 : Shape := ⟨2, ![512, 512]⟩
abbrev S128x128x1 : Shape := ⟨3, ![128, 128, 1]⟩
abbrev S1x128x512 : Shape := ⟨3, ![1, 128, 512]⟩
abbrev S128x128x512 : Shape := ⟨3, ![128, 128, 512]⟩
abbrev S_ : Shape := ⟨0, ![]⟩
abbrev S128x512x1 : Shape := ⟨3, ![128, 512, 1]⟩
abbrev S1x512x512 : Shape := ⟨3, ![1, 512, 512]⟩
abbrev S128x512x512 : Shape := ⟨3, ![128, 512, 512]⟩
abbrev S1x512 : Shape := ⟨2, ![1, 512]⟩

abbrev nBuf : Space → Nat
  | .hbm => 290
  | .vmem => 0
  | .smem => 0
  | _ => 0

abbrev hbmTy0_0 (i : Nat) : BufTy := match i % 128 with
  | 0 => ⟨S128x128, .f32⟩
  | 1 => ⟨S512, .f32⟩
  | 2 => ⟨S128x128, .f32⟩
  | 3 => ⟨S128x128, .f32⟩
  | 4 => ⟨S128x512, .f32⟩
  | 5 => ⟨S128x512, .f32⟩
  | 6 => ⟨S128x512, .f32⟩
  | 7 => ⟨S128x512, .f32⟩
  | 8 => ⟨S512x512, .f32⟩
  | 9 => ⟨S512x512, .f32⟩
  | 10 => ⟨S512x512, .f32⟩
  | 11 => ⟨S512x512, .f32⟩
  | 12 => ⟨S512, .f32⟩
  | 13 => ⟨S512, .f32⟩
  | 14 => ⟨S512, .f32⟩
  | 15 => ⟨S128x128, .f32⟩
  | 16 => ⟨S128x128, .f32⟩
  | 17 => ⟨S128x128x1, .f32⟩
  | 18 => ⟨S1x128x512, .f32⟩
  | 19 => ⟨S128x128x512, .f32⟩
  | 20 => ⟨S128x128x512, .f32⟩
  | 21 => ⟨S128x128x512, .f32⟩
  | 22 => ⟨S1x128x512, .f32⟩
  | 23 => ⟨S128x128x512, .f32⟩
  | 24 => ⟨S128x128x512, .f32⟩
  | 25 => ⟨S128x128x512, .f32⟩
  | 26 => ⟨S128x128x512, .f32⟩
  | 27 => ⟨S_, .f32⟩
  | 28 => ⟨S128x128x512, .f32⟩
  | 29 => ⟨S128x128x512, .f32⟩
  | 30 => ⟨S_, .f32⟩
  | 31 => ⟨S128x128x512, .f32⟩
  | 32 => ⟨S128x128x512, .f32⟩
  | 33 => ⟨S1x128x512, .f32⟩
  | 34 => ⟨S128x128x512, .f32⟩
  | 35 => ⟨S128x128x512, .f32⟩
  | 36 => ⟨S1x128x512, .f32⟩
  | 37 => ⟨S128x128x512, .f32⟩
  | 38 => ⟨S128x128x512, .f32⟩
  | 39 => ⟨S_, .f32⟩
  | 40 => ⟨S128x512, .f32⟩
  | 41 => ⟨S_, .f32⟩
  | 42 => ⟨S128x512, .f32⟩
  | 43 => ⟨S128x512, .f32⟩
  | 44 => ⟨S128x512x1, .f32⟩
  | 45 => ⟨S1x512x512, .f32⟩
  | 46 => ⟨S128x512x512, .f32⟩
  | 47 => ⟨S128x512x512, .f32⟩
  | 48 => ⟨S128x512x512, .f32⟩
  | 49 => ⟨S1x512x512, .f32⟩
  | 50 => ⟨S128x512x512, .f32⟩
  | 51 => ⟨S128x512x512, .f32⟩
  | 52 => ⟨S128x512x512, .f32⟩
  | 53 => ⟨S128x512x512, .f32⟩
  | 54 => ⟨S_, .f32⟩
  | 55 => ⟨S128x512x512, .f32⟩
  | 56 => ⟨S128x512x512, .f32⟩
  | 57 => ⟨S_, .f32⟩
  | 58 => ⟨S128x512x512, .f32⟩
  | 59 => ⟨S128x512x512, .f32⟩
  | 60 => ⟨S1x512x512, .f32⟩
  | 61 => ⟨S128x512x512, .f32⟩
  | 62 => ⟨S128x512x512, .f32⟩
  | 63 => ⟨S1x512x512, .f32⟩
  | 64 => ⟨S128x512x512, .f32⟩
  | 65 => ⟨S128x512x512, .f32⟩
  | 66 => ⟨S_, .f32⟩
  | 67 => ⟨S128x512, .f32⟩
  | 68 => ⟨S128x512, .f32⟩
  | 69 => ⟨S_, .f32⟩
  | 70 => ⟨S128x512, .f32⟩
  | 71 => ⟨S128x512, .f32⟩
  | 72 => ⟨S1x512, .f32⟩
  | 73 => ⟨S128x512, .f32⟩
  | 74 => ⟨S128x512, .f32⟩
  | 75 => ⟨S512, .f32⟩
  | 76 => ⟨S1x512, .f32⟩
  | 77 => ⟨S128x512, .f32⟩
  | 78 => ⟨S128x512, .f32⟩
  | 79 => ⟨S128x512, .f32⟩
  | 80 => ⟨S512, .f32⟩
  | 81 => ⟨S1x512, .f32⟩
  | 82 => ⟨S128x512, .f32⟩
  | 83 => ⟨S128x512, .f32⟩
  | 84 => ⟨S128x512, .f32⟩
  | 85 => ⟨S128x512x1, .f32⟩
  | 86 => ⟨S1x512x512, .f32⟩
  | 87 => ⟨S128x512x512, .f32⟩
  | 88 => ⟨S128x512x512, .f32⟩
  | 89 => ⟨S128x512x512, .f32⟩
  | 90 => ⟨S1x512x512, .f32⟩
  | 91 => ⟨S128x512x512, .f32⟩
  | 92 => ⟨S128x512x512, .f32⟩
  | 93 => ⟨S128x512x512, .f32⟩
  | 94 => ⟨S128x512x512, .f32⟩
  | 95 => ⟨S_, .f32⟩
  | 96 => ⟨S128x512x512, .f32⟩
  | 97 => ⟨S128x512x512, .f32⟩
  | 98 => ⟨S_, .f32⟩
  | 99 => ⟨S128x512x512, .f32⟩
  | 100 => ⟨S128x512x512, .f32⟩
  | 101 => ⟨S1x512x512, .f32⟩
  | 102 => ⟨S128x512x512, .f32⟩
  | 103 => ⟨S128x512x512, .f32⟩
  | 104 => ⟨S1x512x512, .f32⟩
  | 105 => ⟨S128x512x512, .f32⟩
  | 106 => ⟨S128x512x512, .f32⟩
  | 107 => ⟨S_, .f32⟩
  | 108 => ⟨S128x512, .f32⟩
  | 109 => ⟨S128x512, .f32⟩
  | 110 => ⟨S_, .f32⟩
  | 111 => ⟨S128x512, .f32⟩
  | 112 => ⟨S128x512, .f32⟩
  | 113 => ⟨S1x512, .f32⟩
  | 114 => ⟨S128x512, .f32⟩
  | 115 => ⟨S128x512, .f32⟩
  | 116 => ⟨S512, .f32⟩
  | 117 => ⟨S1x512, .f32⟩
  | 118 => ⟨S128x512, .f32⟩
  | 119 => ⟨S128x512, .f32⟩
  | 120 => ⟨S128x512, .f32⟩
  | 121 => ⟨S512, .f32⟩
  | 122 => ⟨S1x512, .f32⟩
  | 123 => ⟨S128x512, .f32⟩
  | 124 => ⟨S128x512, .f32⟩
  | 125 => ⟨S128x512, .f32⟩
  | 126 => ⟨S128x512x1, .f32⟩
  | 127 => ⟨S1x512x512, .f32⟩
  | _ => ⟨S128x128, .f32⟩

abbrev hbmTy0_1 (i : Nat) : BufTy := match i % 128 with
  | 0 => ⟨S128x512x512, .f32⟩
  | 1 => ⟨S128x512x512, .f32⟩
  | 2 => ⟨S128x512x512, .f32⟩
  | 3 => ⟨S1x512x512, .f32⟩
  | 4 => ⟨S128x512x512, .f32⟩
  | 5 => ⟨S128x512x512, .f32⟩
  | 6 => ⟨S128x512x512, .f32⟩
  | 7 => ⟨S128x512x512, .f32⟩
  | 8 => ⟨S_, .f32⟩
  | 9 => ⟨S128x512x512, .f32⟩
  | 10 => ⟨S128x512x512, .f32⟩
  | 11 => ⟨S_, .f32⟩
  | 12 => ⟨S128x512x512, .f32⟩
  | 13 => ⟨S128x512x512, .f32⟩
  | 14 => ⟨S1x512x512, .f32⟩
  | 15 => ⟨S128x512x512, .f32⟩
  | 16 => ⟨S128x512x512, .f32⟩
  | 17 => ⟨S1x512x512, .f32⟩
  | 18 => ⟨S128x512x512, .f32⟩
  | 19 => ⟨S128x512x512, .f32⟩
  | 20 => ⟨S_, .f32⟩
  | 21 => ⟨S128x512, .f32⟩
  | 22 => ⟨S128x512, .f32⟩
  | 23 => ⟨S_, .f32⟩
  | 24 => ⟨S128x512, .f32⟩
  | 25 => ⟨S128x512, .f32⟩
  | 26 => ⟨S1x512, .f32⟩
  | 27 => ⟨S128x512, .f32⟩
  | 28 => ⟨S128x512, .f32⟩
  | 29 => ⟨S512, .f32⟩
  | 30 => ⟨S1x512, .f32⟩
  | 31 => ⟨S128x512, .f32⟩
  | 32 => ⟨S128x512, .f32⟩
  | 33 => ⟨S128x512, .f32⟩
  | 34 => ⟨S512, .f32⟩
  | 35 => ⟨S1x512, .f32⟩
  | 36 => ⟨S128x512, .f32⟩
  | 37 => ⟨S128x512, .f32⟩
  | 38 => ⟨S128x512, .f32⟩
  | 39 => ⟨S128x512x1, .f32⟩
  | 40 => ⟨S1x512x512, .f32⟩
  | 41 => ⟨S128x512x512, .f32⟩
  | 42 => ⟨S128x512x512, .f32⟩
  | 43 => ⟨S128x512x512, .f32⟩
  | 44 => ⟨S1x512x512, .f32⟩
  | 45 => ⟨S128x512x512, .f32⟩
  | 46 => ⟨S128x512x512, .f32⟩
  | 47 => ⟨S128x512x512, .f32⟩
  | 48 => ⟨S128x512x512, .f32⟩
  | 49 => ⟨S_, .f32⟩
  | 50 => ⟨S128x512x512, .f32⟩
  | 51 => ⟨S128x512x512, .f32⟩
  | 52 => ⟨S_, .f32⟩
  | 53 => ⟨S128x512x512, .f32⟩
  | 54 => ⟨S128x512x512, .f32⟩
  | 55 => ⟨S1x512x512, .f32⟩
  | 56 => ⟨S128x512x512, .f32⟩
  | 57 => ⟨S128x512x512, .f32⟩
  | 58 => ⟨S1x512x512, .f32⟩
  | 59 => ⟨S128x512x512, .f32⟩
  | 60 => ⟨S128x512x512, .f32⟩
  | 61 => ⟨S_, .f32⟩
  | 62 => ⟨S128x512, .f32⟩
  | 63 => ⟨S128x512, .f32⟩
  | 64 => ⟨S_, .f32⟩
  | 65 => ⟨S128x512, .f32⟩
  | 66 => ⟨S128x512, .f32⟩
  | 67 => ⟨S1x512, .f32⟩
  | 68 => ⟨S128x512, .f32⟩
  | 69 => ⟨S128x512, .f32⟩
  | 70 => ⟨S512, .f32⟩
  | 71 => ⟨S1x512, .f32⟩
  | 72 => ⟨S128x512, .f32⟩
  | 73 => ⟨S128x512, .f32⟩
  | 74 => ⟨S128x512, .f32⟩
  | 75 => ⟨S512, .f32⟩
  | 76 => ⟨S1x512, .f32⟩
  | 77 => ⟨S128x512, .f32⟩
  | 78 => ⟨S128x512, .f32⟩
  | 79 => ⟨S128x512, .f32⟩
  | 80 => ⟨S128x512x1, .f32⟩
  | 81 => ⟨S1x512x512, .f32⟩
  | 82 => ⟨S128x512x512, .f32⟩
  | 83 => ⟨S128x512x512, .f32⟩
  | 84 => ⟨S128x512x512, .f32⟩
  | 85 => ⟨S1x512x512, .f32⟩
  | 86 => ⟨S128x512x512, .f32⟩
  | 87 => ⟨S128x512x512, .f32⟩
  | 88 => ⟨S128x512x512, .f32⟩
  | 89 => ⟨S128x512x512, .f32⟩
  | 90 => ⟨S_, .f32⟩
  | 91 => ⟨S128x512x512, .f32⟩
  | 92 => ⟨S128x512x512, .f32⟩
  | 93 => ⟨S_, .f32⟩
  | 94 => ⟨S128x512x512, .f32⟩
  | 95 => ⟨S128x512x512, .f32⟩
  | 96 => ⟨S1x512x512, .f32⟩
  | 97 => ⟨S128x512x512, .f32⟩
  | 98 => ⟨S128x512x512, .f32⟩
  | 99 => ⟨S1x512x512, .f32⟩
  | 100 => ⟨S128x512x512, .f32⟩
  | 101 => ⟨S128x512x512, .f32⟩
  | 102 => ⟨S_, .f32⟩
  | 103 => ⟨S128x512, .f32⟩
  | 104 => ⟨S128x512, .f32⟩
  | 105 => ⟨S_, .f32⟩
  | 106 => ⟨S128x512, .f32⟩
  | 107 => ⟨S128x512, .f32⟩
  | 108 => ⟨S1x512, .f32⟩
  | 109 => ⟨S128x512, .f32⟩
  | 110 => ⟨S128x512, .f32⟩
  | 111 => ⟨S512, .f32⟩
  | 112 => ⟨S1x512, .f32⟩
  | 113 => ⟨S128x512, .f32⟩
  | 114 => ⟨S128x512, .f32⟩
  | 115 => ⟨S128x512, .f32⟩
  | 116 => ⟨S512, .f32⟩
  | 117 => ⟨S1x512, .f32⟩
  | 118 => ⟨S128x512, .f32⟩
  | 119 => ⟨S128x512, .f32⟩
  | 120 => ⟨S128x512, .f32⟩
  | 121 => ⟨S128x512x1, .f32⟩
  | 122 => ⟨S1x512x512, .f32⟩
  | 123 => ⟨S128x512x512, .f32⟩
  | 124 => ⟨S128x512x512, .f32⟩
  | 125 => ⟨S128x512x512, .f32⟩
  | 126 => ⟨S1x512x512, .f32⟩
  | 127 => ⟨S128x512x512, .f32⟩
  | _ => ⟨S128x128, .f32⟩

abbrev hbmTy0_2 (i : Nat) : BufTy := match i % 128 with
  | 0 => ⟨S128x512x512, .f32⟩
  | 1 => ⟨S128x512x512, .f32⟩
  | 2 => ⟨S128x512x512, .f32⟩
  | 3 => ⟨S_, .f32⟩
  | 4 => ⟨S128x512x512, .f32⟩
  | 5 => ⟨S128x512x512, .f32⟩
  | 6 => ⟨S_, .f32⟩
  | 7 => ⟨S128x512x512, .f32⟩
  | 8 => ⟨S128x512x512, .f32⟩
  | 9 => ⟨S1x512x512, .f32⟩
  | 10 => ⟨S128x512x512, .f32⟩
  | 11 => ⟨S128x512x512, .f32⟩
  | 12 => ⟨S1x512x512, .f32⟩
  | 13 => ⟨S128x512x512, .f32⟩
  | 14 => ⟨S128x512x512, .f32⟩
  | 15 => ⟨S_, .f32⟩
  | 16 => ⟨S128x512, .f32⟩
  | 17 => ⟨S128x512, .f32⟩
  | 18 => ⟨S_, .f32⟩
  | 19 => ⟨S128x512, .f32⟩
  | 20 => ⟨S128x512, .f32⟩
  | 21 => ⟨S1x512, .f32⟩
  | 22 => ⟨S128x512, .f32⟩
  | 23 => ⟨S128x512, .f32⟩
  | 24 => ⟨S512, .f32⟩
  | 25 => ⟨S1x512, .f32⟩
  | 26 => ⟨S128x512, .f32⟩
  | 27 => ⟨S128x512, .f32⟩
  | 28 => ⟨S128x512, .f32⟩
  | 29 => ⟨S512, .f32⟩
  | 30 => ⟨S1x512, .f32⟩
  | 31 => ⟨S128x512, .f32⟩
  | 32 => ⟨S128x512, .f32⟩
  | 33 => ⟨S128x512, .f32⟩
  | _ => ⟨S128x128, .f32⟩

abbrev hbmTy (i : Nat) : BufTy := match i / 128 with
  | 0 => hbmTy0_0 i
  | 1 => hbmTy0_1 i
  | 2 => hbmTy0_2 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_7 : Ref sig .tc := ⟨.hbm, 95, rfl⟩
abbrev main_v72 : Ref sig .tc := ⟨.hbm, 96, rfl⟩
abbrev main_v73 : Ref sig .tc := ⟨.hbm, 97, rfl⟩
abbrev main_cst_8 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_9 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_11 : Ref sig .tc := ⟨.hbm, 136, rfl⟩
abbrev main_v109 : Ref sig .tc := ⟨.hbm, 137, rfl⟩
abbrev main_v110 : Ref sig .tc := ⟨.hbm, 138, rfl⟩
abbrev main_cst_12 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_13 : Ref sig .tc := ⟨.hbm, 148, rfl⟩
abbrev main_v119 : Ref sig .tc := ⟨.hbm, 149, rfl⟩
abbrev main_v120 : Ref sig .tc := ⟨.hbm, 150, rfl⟩
abbrev main_cst_14 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_15 : Ref sig .tc := ⟨.hbm, 177, rfl⟩
abbrev main_v146 : Ref sig .tc := ⟨.hbm, 178, rfl⟩
abbrev main_v147 : Ref sig .tc := ⟨.hbm, 179, rfl⟩
abbrev main_cst_16 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_17 : Ref sig .tc := ⟨.hbm, 189, rfl⟩
abbrev main_v156 : Ref sig .tc := ⟨.hbm, 190, rfl⟩
abbrev main_v157 : Ref sig .tc := ⟨.hbm, 191, rfl⟩
abbrev main_cst_18 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_cst_19 : Ref sig .tc := ⟨.hbm, 218, rfl⟩
abbrev main_v183 : Ref sig .tc := ⟨.hbm, 219, rfl⟩
abbrev main_v184 : Ref sig .tc := ⟨.hbm, 220, rfl⟩
abbrev main_cst_20 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_cst_21 : Ref sig .tc := ⟨.hbm, 230, rfl⟩
abbrev main_v193 : Ref sig .tc := ⟨.hbm, 231, rfl⟩
abbrev main_v194 : Ref sig .tc := ⟨.hbm, 232, rfl⟩
abbrev main_cst_22 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_cst_23 : Ref sig .tc := ⟨.hbm, 259, rfl⟩
abbrev main_v220 : Ref sig .tc := ⟨.hbm, 260, rfl⟩
abbrev main_v221 : Ref sig .tc := ⟨.hbm, 261, rfl⟩
abbrev main_cst_24 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_cst_25 : Ref sig .tc := ⟨.hbm, 271, rfl⟩
abbrev main_v230 : Ref sig .tc := ⟨.hbm, 272, rfl⟩
abbrev main_v231 : Ref sig .tc := ⟨.hbm, 273, rfl⟩
abbrev main_cst_26 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩

abbrev nD : Nat := 1
abbrev τ : Topo := Topo.v7x

variable {F : FTy → Type} [FloatOps F]

class Facts₀ : Prop where
  bcast_S128x128_S128x128x1_0_1 : S128x128.BroadcastsInDim S128x128x1 (![0, 1] : Fin 2 → Fin S128x128x1.rank)
  bcast_S128x512_S1x128x512_1_2 : S128x512.BroadcastsInDim S1x128x512 (![1, 2] : Fin 2 → Fin S1x128x512.rank)
  bcast_S128x128x1_S128x128x512_0_1_2 : S128x128x1.BroadcastsInDim S128x128x512 (![0, 1, 2] : Fin 3 → Fin S128x128x512.rank)
  bcast_S1x128x512_S128x128x512_0_1_2 : S1x128x512.BroadcastsInDim S128x128x512 (![0, 1, 2] : Fin 3 → Fin S128x128x512.rank)
  bcast_S_S128x128x512 : S_.BroadcastsInDim S128x128x512 (![] : Fin 0 → Fin S128x128x512.rank)
  reducesTo_S128x128x512_S128x512_d1 : S128x128x512.ReducesTo [1] S128x512
  h_S_ : 0 < S_.numel
  bcast_S512_S128x512_1 : S512.BroadcastsInDim S128x512 (![1] : Fin 1 → Fin S128x512.rank)
  bcast_S128x512_S128x512x1_0_1 : S128x512.BroadcastsInDim S128x512x1 (![0, 1] : Fin 2 → Fin S128x512x1.rank)
  bcast_S512x512_S1x512x512_1_2 : S512x512.BroadcastsInDim S1x512x512 (![1, 2] : Fin 2 → Fin S1x512x512.rank)
  bcast_S128x512x1_S128x512x512_0_1_2 : S128x512x1.BroadcastsInDim S128x512x512 (![0, 1, 2] : Fin 3 → Fin S128x512x512.rank)
  bcast_S1x512x512_S128x512x512_0_1_2 : S1x512x512.BroadcastsInDim S128x512x512 (![0, 1, 2] : Fin 3 → Fin S128x512x512.rank)
  bcast_S_S128x512x512 : S_.BroadcastsInDim S128x512x512 (![] : Fin 0 → Fin S128x512x512.rank)
  reducesTo_S128x512x512_S128x512_d1 : S128x512x512.ReducesTo [1] S128x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)

variable [Facts₀]

class Facts : Prop extends Facts₀ where

variable [Facts]
-- ==== Proof.Spec.lean ====
/-
  The liquid time-constant cell, one batch row at a time.

  A batch row carries an input vector `x ∈ ℝ̄^128` (already mapped affinely, `x_i = in_i · w_i + b_i`) and a state vector `v ∈ ℝ̄^512`;
  every quantity is an extended real and every operation the exact one.  A synapse from a source value `s` with
  parameters `(W, σ, μ)` contributes the activation `W · logistic (σ · (s - μ))`.

  * Sensory synapses (source `i < 128`, target `u < 512`), computed once from `x`:
      `sensNum u = Σ_i a_iu · E_iu`,  `sensDen u = Σ_i a_iu`,  `a_iu = W_iu · logistic (σ_iu · (x_i - μ_iu))`.
  * One semi-implicit step of the state (source `j < 512`, target `u < 512`):
      `v'_u = (cm_u · v_u + gleak_u · vleak_u + (Σ_j a_ju · E_ju + sensNum u)) / (cm_u + gleak_u + (Σ_j a_ju + sensDen u))`,
      `a_ju = W_ju · logistic (σ_ju · (v_j - μ_ju))`.
  * The cell applies the step six times to the initial state.

  Rows do not interact: the result at row `r`, target `u` depends on row `r` of the inputs only.  So the result
  over ANY family of rows — the sixteen rows one grid point holds, or all 128 at once — is the same row function, and a
  tiling of the target axis `u` into four runs of 128 only names `u` as `128 · tile + offset`.  The sums over the source
  axis are finite sums in the commutative monoid of extended reals: their order and grouping do not matter, and no
  distributivity is used anywhere, so nothing is assumed finite.
-/
import Idealize.ShloMosaic.PureOps.Ideal

noncomputable section

namespace Cert.Ltc

open Idealize.ShloMosaic

/-- A synapse's activation: `W · logistic (σ · (s - μ))`. -/
def syn (W σ μ s : EReal) : EReal := W * Ideal.logistic (σ * (s - μ))

/-- The sensory synapses' parameters, source `i < 128` by target `u < 512`. -/
structure Sensory where
  μ : Fin 128 → Fin 512 → EReal
  σ : Fin 128 → Fin 512 → EReal
  W : Fin 128 → Fin 512 → EReal
  E : Fin 128 → Fin 512 → EReal

/-- The recurrent synapses' parameters, source `j < 512` by target `u < 512`, and the three per-neuron vectors. -/
structure Recurrent where
  μ : Fin 512 → Fin 512 → EReal
  σ : Fin 512 → Fin 512 → EReal
  W : Fin 512 → Fin 512 → EReal
  E : Fin 512 → Fin 512 → EReal
  vleak : Fin 512 → EReal
  gleak : Fin 512 → EReal
  cm : Fin 512 → EReal

/-- The affinely mapped input of a row: `x_i = in_i · w_i + b_i`. -/
def affine (inp w b : Fin 128 → EReal) (i : Fin 128) : EReal := inp i * w i + b i

/-- The sensory numerator at target `u`: `Σ_i a_iu · E_iu`. -/
def sensNum (S : Sensory) (x : Fin 128 → EReal) (u : Fin 512) : EReal :=
  ∑ i : Fin 128, syn (S.W i u) (S.σ i u) (S.μ i u) (x i) * S.E i u

/-- The sensory denominator at target `u`: `Σ_i a_iu`. -/
def sensDen (S : Sensory) (x : Fin 128 → EReal) (u : Fin 512) : EReal :=
  ∑ i : Fin 128, syn (S.W i u) (S.σ i u) (S.μ i u) (x i)

/-- One semi-implicit step of a row's state, given the row's sensory numerator and denominator. -/
def step (P : Recurrent) (ns ds : Fin 512 → EReal) (v : Fin 512 → EReal) (u : Fin 512) : EReal :=
  Ideal.div
    (P.cm u * v u + P.gleak u * P.vleak u
      + ((∑ j : Fin 512, syn (P.W j u) (P.σ j u) (P.μ j u) (v j) * P.E j u) + ns u))
    (P.cm u + P.gleak u + ((∑ j : Fin 512, syn (P.W j u) (P.σ j u) (P.μ j u) (v j)) + ds u))

/-- The cell on one row: six steps from the initial state. -/
def cell (S : Sensory) (P : Recurrent) (x : Fin 128 → EReal) (state : Fin 512 → EReal) : Fin 512 → EReal :=
  let st := step P (sensNum S x) (sensDen S x)
  st (st (st (st (st (st state)))))

end Cert.Ltc

end
-- ==== Proof.Sigmoid.lean ====
/-
  The logistic function on the extended reals.

  One side of this certificate applies the logistic function as a single operation, the other spells it out as four
  operations: negate, exponential, add one, divide one by the result.  On the extended reals these are one function,
  `σ(x) = 1 / (1 + e^(-x))`, at every point: at a real `x` it is the usual sigmoid, at `-∞` both read `1 / (1 + e^(+∞)) = 1 / +∞ = 0`
  and at `+∞` both read `1 / (1 + e^(-∞)) = 1 / 1 = 1`.  Nothing about finiteness is used: the single operation is, by its
  definition, the quotient `1 / (1 + e^(-x))` taken with the same division and the same exponential the spelled-out form uses.
  The only constant involved is the number one, whose single-precision pattern denotes the extended real `1`.
-/
import Idealize.ShloMosaic.PureOps.Ideal
import Idealize.ShloMosaic.PureOps.Vector

noncomputable section

namespace Cert.Ltc

open Idealize.ShloMosaic

/-- The single-precision pattern of `1.0` denotes the extended real `1`. -/
theorem ofBits_one : Ideal.ofBits .f32 0x3F800000#32 = (1 : EReal) := by
  simp [Ideal.ofBits, Ideal.ieee, -EReal.coe_mul]; norm_num

/-- `σ(x) = 1 / (1 + e^(-x))`: the logistic function as one operation is the quotient of one by one plus the
    exponential of the negated argument, the sum taken in the order `1 + e^(-x)`. -/
theorem logistic_eq (x : EReal) : Ideal.logistic x = Ideal.div 1 (1 + Ideal.exp (-x)) := rfl

/-- The same law between the two spellings of the operations: the one-operation logistic of `x` is the division of
    one by the sum of one and the exponential of the negation of `x`. -/
theorem logistic_spelled (x : Ideal .f32) :
    FloatOps.logistic x
      = FloatOps.hostDivf (1 : Ideal .f32) (FloatOps.addf 1 (FloatOps.hostUnary .exp (FloatOps.hostNegf x))) := rfl

end Cert.Ltc

end
-- ==== Proof.Layout.lean ====
/-
  Arrays re-laid and summed, read at an entry.

  Both programs bring a matrix and a vector to a common three-axis shape before combining them entry by entry, and then
  sum along the middle axis:

  * a matrix `x : [a, b]` given a trailing unit axis and repeated along it reads, at `(i, j, k)`, `x (i, j)` — the value
    of source `j` in row `i`, whatever the target `k`;
  * a matrix `p : [b, c]` given a leading unit axis and repeated along it reads, at `(i, j, k)`, `p (j, k)` — the
    parameter of the pair (source `j`, target `k`), whatever the row `i`;
  * a vector `q : [c]` laid as one row and repeated over `a` rows reads, at `(i, k)`, `q k`;
  * the sum along the middle axis of `y : [a, b, c]` reads, at `(i, k)`, `Σ_j y (i, j, k)` (with the initial value added in
    front where the operation takes one).

  Each statement below is one of these facts for one spelling of the operation; the extents are arbitrary.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Ltc

open Idealize.ShloMosaic Idealize.ShloMosaic.ValueIdx

variable {α : Type}

/-! ## A trailing unit axis, and repeating along it -/

/-- `[a, b]` cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` repeated to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[1, b, c]` repeated to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A matrix `x : [a, b]` given a trailing unit axis and repeated along it: `(i, j, k) ↦ x (i, j)`. -/
theorem col_repeat_apply {a b c : ℕ} (x : (⟨2, ![a, b]⟩ : Shape).Idx → α)
    (h₁ : (⟨2, ![a, b]⟩ : Shape).ShapeCasts ⟨3, ![a, b, 1]⟩) (h₂ : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h₁) h₂ (ix3 i j k) = x (ix2 i j) :=
  (broadcastTo_ab1_abc_apply _ h₂ i j k).trans (shapeCast_ab_ab1_apply x h₁ i j 0)

/-- A matrix `p : [b, c]` given a leading unit axis and repeated along it: `(i, j, k) ↦ p (j, k)`. -/
theorem mat_repeat_apply {a b c : ℕ} (p : (⟨2, ![b, c]⟩ : Shape).Idx → α)
    (h₁ : (⟨2, ![b, c]⟩ : Shape).ShapeCasts ⟨3, ![1, b, c]⟩) (h₂ : (⟨3, ![1, b, c]⟩ : Shape).Broadcasts ⟨3, ![a, b, c]⟩)
    (i : Fin a) (j : Fin b) (k : Fin c) :
    broadcastTo ⟨3, ![a, b, c]⟩ (shapeCast ⟨3, ![1, b, c]⟩ p h₁) h₂ (ix3 i j k) = p (ix2 j k) :=
  (broadcastTo_1bc_abc_apply _ h₂ i j k).trans (shapeCast_ab_1ab_apply p h₁ 0 j k)

/-- A vector `q : [c]` laid as one row and repeated over `a` rows: `(i, k) ↦ q k`. -/
theorem row_repeat_apply {a c : ℕ} (q : (⟨1, ![c]⟩ : Shape).Idx → α)
    (h₁ : (⟨1, ![c]⟩ : Shape).ShapeCasts ⟨2, ![1, c]⟩) (h₂ : (⟨2, ![1, c]⟩ : Shape).Broadcasts ⟨2, ![a, c]⟩)
    (i : Fin a) (k : Fin c) :
    broadcastTo ⟨2, ![a, c]⟩ (shapeCast ⟨2, ![1, c]⟩ q h₁) h₂ (ix2 i k) = q (ix1 k) :=
  (broadcastTo_1b_ab_apply _ h₂ i k).trans (shapeCast_a_1a_apply q h₁ 0 k)

/-! ## The sum along the middle axis -/

/-- The index of `[a, b, c]` over `(i, k)` with `j` on the summed middle axis is `(i, j, k)`. -/
theorem lift_mid {a b c : ℕ} (h : (⟨3, ![a, b, c]⟩ : Shape).Reduces [1] ⟨2, ![a, c]⟩) (i : Fin a) (k : Fin c) (j : Fin b) :
    h.lift (ix2 i k) j = ix3 i j k := by
  funext ax
  match ax with
  | ⟨0, _⟩ => exact Fin.ext rfl
  | ⟨1, _⟩ => exact Fin.ext rfl
  | ⟨2, _⟩ => exact Fin.ext rfl

/-- A vector sum along the middle axis of `y : [a, b, c]` reads, at `(i, k)`, `Σ_j y (i, j, k)`. -/
theorem sum_mid_apply {a b c : ℕ} {φ : FTy} (y : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ y acc h hφ hacc (ix2 i k) = ∑ j : Fin b, y (ix3 i j k) := by
  rw [Ideal.multiReduction_add_single]
  exact Finset.sum_congr rfl fun j _ => congrArg y (lift_mid h i k j)

/-- A host sum along the middle axis of `y : [a, b, c]` from the initial value `init` reads, at `(i, k)`,
    `init + Σ_j y (i, j, k)`. -/
theorem host_sum_mid_apply {a b c : ℕ} (y : (⟨3, ![a, b, c]⟩ : Shape).Idx → EReal) (init : EReal)
    (h' : (⟨3, ![a, b, c]⟩ : Shape).ReducesTo [1] ⟨2, ![a, c]⟩) (h : (⟨3, ![a, b, c]⟩ : Shape).Reduces [1] ⟨2, ![a, c]⟩)
    (i : Fin a) (k : Fin c) :
    Ideal.hostReduceAdd h' y init (ix2 i k) = init + ∑ j : Fin b, y (ix3 i j k) := by
  rw [Ideal.hostReduceAdd_single h' h]
  exact congrArg (init + ·) (Finset.sum_congr rfl fun j _ => congrArg y (lift_mid h i k j))

/-! ## The host's re-layings, one `broadcast_in_dim` at a time -/

/-- `[a, b] → [a, b, 1]` on axes `(0, 1)`: `(i, j, u) ↦ x (i, j)`. -/
theorem bid_ab_ab1_apply {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- `[a, b, 1] → [a, b, c]` on axes `(0, 1, 2)`: `(i, j, k) ↦ x (i, j, 0)`. -/
theorem bid_ab1_abc_apply {a b c : ℕ} (x : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[b, c] → [1, b, c]` on axes `(1, 2)`: `(u, j, k) ↦ p (j, k)`. -/
theorem bid_bc_1bc_apply {b c : ℕ} (p : (⟨2, ![b, c]⟩ : Shape).Idx → α)
    (h : (⟨2, ![b, c]⟩ : Shape).BroadcastsInDim ⟨3, ![1, b, c]⟩ ![1, 2]) (u : Fin 1) (j : Fin b) (k : Fin c) :
    broadcastInDim ⟨3, ![1, b, c]⟩ ![1, 2] h p (ix3 u j k) = p (ix2 j k) := by
  refine broadcastInDim_apply _ h p (ix3 u j k) (ix2 j k) fun ax => ?_
  match ax with
  | ⟨0, _⟩ =>
    show j.val = if b = 1 then 0 else j.val
    split
    · have := j.isLt; omega
    · rfl
  | ⟨1, _⟩ =>
    show k.val = if c = 1 then 0 else k.val
    split
    · have := k.isLt; omega
    · rfl

/-- `[1, b, c] → [a, b, c]` on axes `(0, 1, 2)`: `(i, j, k) ↦ p (0, j, k)`. -/
theorem bid_1bc_abc_apply {a b c : ℕ} (p : (⟨3, ![1, b, c]⟩ : Shape).Idx → α)
    (h : (⟨3, ![1, b, c]⟩ : Shape).BroadcastsInDim ⟨3, ![a, b, c]⟩ ![0, 1, 2]) (i : Fin a) (j : Fin b) (k : Fin c) :
    broadcastInDim ⟨3, ![a, b, c]⟩ ![0, 1, 2] h p (ix3 i j k) = p (ix3 (0 : Fin 1) j k) := by
  refine broadcastInDim_apply _ h p (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A scalar repeated to any shape reads the scalar everywhere. -/
theorem bid_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- `[c] → [a, c]` on axis `1`: `(i, k) ↦ q k`. -/
theorem bid_c_ac_apply {a c : ℕ} (q : (⟨1, ![c]⟩ : Shape).Idx → α)
    (h : (⟨1, ![c]⟩ : Shape).BroadcastsInDim ⟨2, ![a, c]⟩ ![1]) (i : Fin a) (k : Fin c) :
    broadcastInDim ⟨2, ![a, c]⟩ ![1] h q (ix2 i k) = q (ix1 k) := by
  refine broadcastInDim_apply _ h q (ix2 i k) (ix1 k) fun ax => ?_
  match ax with
  | ⟨0, _⟩ =>
    show k.val = if c = 1 then 0 else k.val
    split
    · have := k.isLt; omega
    · rfl

/-- `[c] → [1, c]` on axis `1`: `(u, k) ↦ q k`. -/
theorem bid_c_1c_apply {c : ℕ} (q : (⟨1, ![c]⟩ : Shape).Idx → α)
    (h : (⟨1, ![c]⟩ : Shape).BroadcastsInDim ⟨2, ![1, c]⟩ ![1]) (u : Fin 1) (k : Fin c) :
    broadcastInDim ⟨2, ![1, c]⟩ ![1] h q (ix2 u k) = q (ix1 k) :=
  bid_c_ac_apply q h u k

/-- `[1, c] → [a, c]` on axes `(0, 1)`: `(i, k) ↦ q (0, k)`. -/
theorem bid_1c_ac_apply {a c : ℕ} (q : (⟨2, ![1, c]⟩ : Shape).Idx → α)
    (h : (⟨2, ![1, c]⟩ : Shape).BroadcastsInDim ⟨2, ![a, c]⟩ ![0, 1]) (i : Fin a) (k : Fin c) :
    broadcastInDim ⟨2, ![a, c]⟩ ![0, 1] h q (ix2 i k) = q (ix2 (0 : Fin 1) k) := by
  refine broadcastInDim_apply _ h q (ix2 i k) (ix2 (0 : Fin 1) k) fun ax => ?_
  match ax with
  | ⟨0, _⟩ => rfl
  | ⟨1, _⟩ =>
    show k.val = if c = 1 then 0 else k.val
    split
    · have := k.isLt; omega
    · rfl

end Cert.Ltc

end
-- ==== Proof.KTile.lean ====
/-
  One tile of one step, in the kernel's vector operations, read at an entry.

  A grid point holds sixteen batch rows.  For a run of 128 targets starting at column `lo` the kernel forms, from the
  rows' current state `v : [16, 512]` and the tile's columns of the parameters (`[512, 128]` each), the activation
  `a (r, j, u) = W_ju · logistic (σ_ju · (v_rj - μ_ju))` over `[16, 512, 128]`, sums `a · E` and `a` along the source axis `j`,
  adds the sensory numerator and denominator of the tile, and divides:
  `new (r, u) = (cm_u · v (r, lo + u) + gleak_u · vleak_u + (Σ_j a_rju · E_ju + ns_ru)) / (cm_u + gleak_u + (Σ_j a_rju + ds_ru))`.
  This is the specification's step of row `r` at target `lo + u`, once the tile's columns are read as columns `lo + u` of the
  whole parameter arrays.  The sensory tile is the same with the rows' mapped input in place of the state and the 128
  sensory sources in place of the 512 neurons.
-/
import proofs.«157048_j60730837565793_1_alg».proof.Proof.Gen.KernelIdeal
import proofs.«157048_j60730837565793_1_alg».proof.Proof.Spec
import proofs.«157048_j60730837565793_1_alg».proof.Proof.Sigmoid
import proofs.«157048_j60730837565793_1_alg».proof.Proof.Layout

noncomputable section

namespace Cert.KernelIdeal.KValue

open Cert.KernelIdeal Cert.KernelIdeal.Gen Idealize.ShloMosaic Idealize.ShloMosaic.ValueIdx Cert.Ltc

/-! ## The recurrent tile -/

/-- The activation of one tile: `a (r, j, u) = W_ju · logistic (σ_ju · (v_rj - μ_ju))`. -/
def actT (v : FVec Ideal S16x512 .f32) (mu sg w : FVec Ideal S512x128 .f32) : FVec Ideal S16x512x128 .f32 :=
  mulf (broadcastTo S16x512x128 (shapeCast S1x512x128 w shapeCasts_S512x128_S1x512x128) broadcasts_S1x512x128_S16x512x128)
    (logistic (mulf (broadcastTo S16x512x128 (shapeCast S1x512x128 sg shapeCasts_S512x128_S1x512x128) broadcasts_S1x512x128_S16x512x128)
      (subf (broadcastTo S16x512x128 (shapeCast S16x512x1 v shapeCasts_S16x512_S16x512x1) broadcasts_S16x512x1_S16x512x128)
        (broadcastTo S16x512x128 (shapeCast S1x512x128 mu shapeCasts_S512x128_S1x512x128) broadcasts_S1x512x128_S16x512x128))))

theorem actT_apply (v : FVec Ideal S16x512 .f32) (mu sg w : FVec Ideal S512x128 .f32) (r : Fin 16) (j : Fin 512) (u : Fin 128) :
    actT v mu sg w (ix3 r j u) = syn (w (ix2 j u)) (sg (ix2 j u)) (mu (ix2 j u)) (v (ix2 r j)) := by
  unfold actT
  simp only [mulf_apply, subf_apply, logistic, Ideal.logistic_def, syn]
  rw [mat_repeat_apply w, mat_repeat_apply sg, mat_repeat_apply mu, col_repeat_apply v]

/-- The sum along the 512 sources of a recurrent tile, at (row `r`, target `u`). -/
theorem sumT_apply (y : FVec Ideal S16x512x128 .f32) (hφ : FKind.Formats .f32)
    (hacc : (0x00000000#32 : BitVec 32) = 0x00000000#32) (r : Fin 16) (u : Fin 128) :
    multiReduction .add [1] S16x128 y 0x00000000#32 reduces_S16x512x128_S16x128 hφ hacc (ix2 r u)
      = ∑ j : Fin 512, y (ix3 r j u) :=
  sum_mid_apply y _ _ hφ hacc r u

/-- One tile of one step: the new state of the sixteen rows at the tile's 128 targets. -/
def tileStep (off : Fin 2 → ℕ) (hs : S16x512.Slices off S16x128) (v : FVec Ideal S16x512 .f32)
    (mu sg w er : FVec Ideal S512x128 .f32) (ns ds : FVec Ideal S16x128 .f32) (cm gl vl : FVec Ideal S128 .f32) :
    FVec Ideal S16x128 .f32 :=
  shapeCast S16x128
    (divf
      (addf
        (addf (mulf (broadcastTo S16x128 (shapeCast S1x128 cm shapeCasts_S128_S1x128) broadcasts_S1x128_S16x128) (extractStridedSlice S16x128 off v hs))
          (broadcastTo S16x128 (mulf (shapeCast S1x128 gl shapeCasts_S128_S1x128) (shapeCast S1x128 vl shapeCasts_S128_S1x128)) broadcasts_S1x128_S16x128))
        (addf (multiReduction .add [1] S16x128 (mulf (actT v mu sg w) (broadcastTo S16x512x128 (shapeCast S1x512x128 er shapeCasts_S512x128_S1x512x128) broadcasts_S1x512x128_S16x512x128)) 0x00000000#32 reduces_S16x512x128_S16x128 (.inl rfl) rfl) ns))
      (addf (broadcastTo S16x128 (addf (shapeCast S1x128 cm shapeCasts_S128_S1x128) (shapeCast S1x128 gl shapeCasts_S128_S1x128)) broadcasts_S1x128_S16x128)
        (addf (multiReduction .add [1] S16x128 (actT v mu sg w) 0x00000000#32 reduces_S16x512x128_S16x128 (.inl rfl) rfl) ds)))
    shapeCasts_S16x128_S16x128

theorem tileStep_apply (lo : ℕ) (hs : S16x512.Slices ![0, lo] S16x128) (v : FVec Ideal S16x512 .f32)
    (mu sg w er : FVec Ideal S512x128 .f32) (ns ds : FVec Ideal S16x128 .f32) (cm gl vl : FVec Ideal S128 .f32)
    (r : Fin 16) (u : Fin 128) (k : Fin 512) (hk : k.val = lo + u.val) :
    tileStep ![0, lo] hs v mu sg w er ns ds cm gl vl (ix2 r u)
      = Ideal.div
          (cm (ix1 u) * v (ix2 r k) + gl (ix1 u) * vl (ix1 u)
            + ((∑ j : Fin 512, syn (w (ix2 j u)) (sg (ix2 j u)) (mu (ix2 j u)) (v (ix2 r j)) * er (ix2 j u)) + ns (ix2 r u)))
          (cm (ix1 u) + gl (ix1 u)
            + ((∑ j : Fin 512, syn (w (ix2 j u)) (sg (ix2 j u)) (mu (ix2 j u)) (v (ix2 r j))) + ds (ix2 r u))) := by
  unfold tileStep
  rw [shapeCast_self]
  simp only [divf_apply, addf_apply, mulf_apply]
  rw [sumT_apply, sumT_apply, row_repeat_apply cm, broadcastTo_1b_ab_apply, broadcastTo_1b_ab_apply,
    slice2_axis1_apply lo v hs r u k hk]
  simp only [mulf_apply, addf_apply, actT_apply]
  rw [shapeCast_a_1a_apply gl, shapeCast_a_1a_apply vl, shapeCast_a_1a_apply cm]
  congr 3
  refine Finset.sum_congr rfl fun j _ => ?_
  rw [mat_repeat_apply er]

/-! ## The sensory tile -/

/-- The affinely mapped input of the sixteen rows: `x = in · w + b`. -/
def mapIn (x0 x1 x2 : FVec Ideal S16x128 .f32) : FVec Ideal S16x128 .f32 := addf (mulf x0 x1) x2

theorem mapIn_apply (x0 x1 x2 : FVec Ideal S16x128 .f32) (r : Fin 16) (i : Fin 128) :
    mapIn x0 x1 x2 (ix2 r i) = affine (fun i => x0 (ix2 r i)) (fun i => x1 (ix2 r i)) (fun i => x2 (ix2 r i)) i := rfl

/-- The sensory activation of one tile: `a (r, i, u) = W_iu · logistic (σ_iu · (x_ri - μ_iu))`. -/
def actS (x : FVec Ideal S16x128 .f32) (mu sg w : FVec Ideal S128x128 .f32) : FVec Ideal S16x128x128 .f32 :=
  mulf (broadcastTo S16x128x128 (shapeCast S1x128x128 w shapeCasts_S128x128_S1x128x128) broadcasts_S1x128x128_S16x128x128)
    (logistic (mulf (broadcastTo S16x128x128 (shapeCast S1x128x128 sg shapeCasts_S128x128_S1x128x128) broadcasts_S1x128x128_S16x128x128)
      (subf (broadcastTo S16x128x128 (shapeCast S16x128x1 x shapeCasts_S16x128_S16x128x1) broadcasts_S16x128x1_S16x128x128)
        (broadcastTo S16x128x128 (shapeCast S1x128x128 mu shapeCasts_S128x128_S1x128x128) broadcasts_S1x128x128_S16x128x128))))

theorem actS_apply (x : FVec Ideal S16x128 .f32) (mu sg w : FVec Ideal S128x128 .f32) (r : Fin 16) (i u : Fin 128) :
    actS x mu sg w (ix3 r i u) = syn (w (ix2 i u)) (sg (ix2 i u)) (mu (ix2 i u)) (x (ix2 r i)) := by
  unfold actS
  simp only [mulf_apply, subf_apply, logistic, Ideal.logistic_def, syn]
  rw [mat_repeat_apply w, mat_repeat_apply sg, mat_repeat_apply mu, col_repeat_apply x]

/-- The sum along the 128 sources of a sensory tile, at (row `r`, target `u`). -/
theorem sumS_apply (y : FVec Ideal S16x128x128 .f32) (hφ : FKind.Formats .f32)
    (hacc : (0x00000000#32 : BitVec 32) = 0x00000000#32) (r : Fin 16) (u : Fin 128) :
    multiReduction .add [1] S16x128 y 0x00000000#32 reduces_S16x128x128_S16x128 hφ hacc (ix2 r u)
      = ∑ i : Fin 128, y (ix3 r i u) :=
  sum_mid_apply y _ _ hφ hacc r u

/-- The sensory numerator of one tile. -/
def sensNumT (x : FVec Ideal S16x128 .f32) (mu sg w er : FVec Ideal S128x128 .f32) : FVec Ideal S16x128 .f32 :=
  shapeCast S16x128
    (multiReduction .add [1] S16x128 (mulf (actS x mu sg w) (broadcastTo S16x128x128 (shapeCast S1x128x128 er shapeCasts_S128x128_S1x128x128) broadcasts_S1x128x128_S16x128x128)) 0x00000000#32 reduces_S16x128x128_S16x128 (.inl rfl) rfl)
    shapeCasts_S16x128_S16x128

/-- The sensory denominator of one tile. -/
def sensDenT (x : FVec Ideal S16x128 .f32) (mu sg w : FVec Ideal S128x128 .f32) : FVec Ideal S16x128 .f32 :=
  shapeCast S16x128
    (multiReduction .add [1] S16x128 (actS x mu sg w) 0x00000000#32 reduces_S16x128x128_S16x128 (.inl rfl) rfl)
    shapeCasts_S16x128_S16x128

theorem sensNumT_apply (x : FVec Ideal S16x128 .f32) (mu sg w er : FVec Ideal S128x128 .f32) (r : Fin 16) (u : Fin 128) :
    sensNumT x mu sg w er (ix2 r u)
      = ∑ i : Fin 128, syn (w (ix2 i u)) (sg (ix2 i u)) (mu (ix2 i u)) (x (ix2 r i)) * er (ix2 i u) := by
  unfold sensNumT
  rw [shapeCast_self, sumS_apply]
  refine Finset.sum_congr rfl fun i _ => ?_
  rw [mulf_apply, actS_apply, mat_repeat_apply er]

theorem sensDenT_apply (x : FVec Ideal S16x128 .f32) (mu sg w : FVec Ideal S128x128 .f32) (r : Fin 16) (u : Fin 128) :
    sensDenT x mu sg w (ix2 r u) = ∑ i : Fin 128, syn (w (ix2 i u)) (sg (ix2 i u)) (mu (ix2 i u)) (x (ix2 r i)) := by
  unfold sensDenT
  rw [shapeCast_self, sumS_apply]
  exact Finset.sum_congr rfl fun i _ => actS_apply x mu sg w r i u

/-- The initial state repeated over the sixteen rows. -/
def stateRows (s : FVec Ideal S512 .f32) : FVec Ideal S16x512 .f32 :=
  shapeCast S16x512 (broadcastTo S16x512 (shapeCast S1x512 s shapeCasts_S512_S1x512) broadcasts_S1x512_S16x512) shapeCasts_S16x512_S16x512

theorem stateRows_apply (s : FVec Ideal S512 .f32) (r : Fin 16) (q : Fin 512) : stateRows s (ix2 r q) = s (ix1 q) := by
  unfold stateRows
  rw [shapeCast_self, row_repeat_apply s]

end Cert.KernelIdeal.KValue

end
-- ==== Proof.KLoads.lean ====
/-
  Loads and stores of a grid point's buffers, read at an entry.

  * An input buffer holds its block unchanged, so a load of the columns `lo … lo + q - 1` of a block `X` reads, at
    `(a, b)`, the entry `X (a, lo + b)` (and of a vector, at `b`, the entry `X (lo + b)`).
  * A `[16, 512]` buffer written by four stores of `[16, 128]` tiles at columns `0, 128, 256, 384` (the last store first in
    the list) reads, at column `q = lo + u` of the tile that starts at `lo`, that tile's payload at `u`: the tiles written
    later start further right and do not contain column `q`; whatever was written before does not matter.
-/
import proofs.«157048_j60730837565793_1_alg».proof.Proof.Gen.KernelIdeal
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.ValueIdx

/-! ## Loads of an input block -/

/-- A load of a whole input buffer through a rectangle reads the block at the rectangle's indices. -/
theorem load_block {sp : Space} {s : Shape} (M : Memref sig .tc sp s .f32) (hM : M.IsWhole) (X : Vec Ideal s .f32) (r : Rect s)
    (y : r.shape.Idx) : View.readAt (Elt Ideal) M.view r.toLoadRect (hM.unread X) y = X (r.idx y) := by
  rw [View.readAt_eq_ld, hM.read_unread]

/-- Columns `o1 …` (rows `o0 …`) of a matrix block: at `(a, b)` the block at `(o0 + a, o1 + b)`. -/
theorem load2_apply {m n p q : ℕ} {sp : Space} (M : Memref sig .tc sp ⟨2, ![m, n]⟩ .f32) (hM : M.IsWhole)
    (X : Vec Ideal ⟨2, ![m, n]⟩ .f32) (o0 o1 : ℕ) (inb : ∀ a, (![o0, o1] : Fin 2 → ℕ) a + (![p, q] : Fin 2 → ℕ) a ≤ (⟨2, ![m, n]⟩ : Shape).size a)
    (a : Fin p) (b : Fin q) (a' : Fin m) (b' : Fin n) (ha : a'.val = o0 + a.val) (hb : b'.val = o1 + b.val) :
    View.readAt (Elt Ideal) M.view (Rect.unit (s := ⟨2, ![m, n]⟩) ![o0, o1] ![p, q] inb).toLoadRect (hM.unread X) (ix2 a b)
      = X (ix2 a' b') := by
  rw [load_block]
  refine congrArg X (funext fun ax => Fin.ext ?_)
  match ax with
  | ⟨0, _⟩ => show o0 + 1 * a.val = a'.val; omega
  | ⟨1, _⟩ => show o1 + 1 * b.val = b'.val; omega

/-- Entries `o …` of a vector block: at `b` the block at `o + b`. -/
theorem load1_apply {n q : ℕ} {sp : Space} (M : Memref sig .tc sp ⟨1, ![n]⟩ .f32) (hM : M.IsWhole)
    (X : Vec Ideal ⟨1, ![n]⟩ .f32) (o : ℕ) (inb : ∀ a, (![o] : Fin 1 → ℕ) a + (![q] : Fin 1 → ℕ) a ≤ (⟨1, ![n]⟩ : Shape).size a)
    (b : Fin q) (b' : Fin n) (hb : b'.val = o + b.val) :
    View.readAt (Elt Ideal) M.view (Rect.unit (s := ⟨1, ![n]⟩) ![o] ![q] inb).toLoadRect (hM.unread X) (ix1 b) = X (ix1 b') := by
  rw [load_block]
  refine congrArg X (funext fun ax => Fin.ext ?_)
  match ax with
  | ⟨0, _⟩ => show o + 1 * b.val = b'.val; omega

/-! ## A buffer written tile by tile -/

section Tiles

variable {m n : ℕ} (o : ℕ) (inb : ∀ a, (![0, o] : Fin 2 → ℕ) a + (![m, 128] : Fin 2 → ℕ) a ≤ (⟨2, ![m, n]⟩ : Shape).size a)

/-- Column `q = o + u` is in the tile that starts at column `o`: it is the tile's entry `(r, u)`. -/
theorem tile_emb (r : Fin m) (u : Fin 128) (q : Fin n) (hq : q.val = o + u.val) :
    (Rect.unit (s := ⟨2, ![m, n]⟩) ![0, o] ![m, 128] inb).emb (ix2 r u) = ix2 r q := by
  funext ax
  refine Fin.ext ?_
  match ax with
  | ⟨0, _⟩ => show 0 + 1 * r.val = r.val; omega
  | ⟨1, _⟩ => show o + 1 * u.val = q.val; omega

/-- Column `q` left of `o` is not in the tile that starts at column `o`. -/
theorem tile_not_mem (r : Fin m) (q : Fin n) (hq : q.val < o) :
    ix2 r q ∉ (Rect.unit (s := ⟨2, ![m, n]⟩) ![0, o] ![m, 128] inb).set := by
  intro h
  have h1 := (Rect.mem_set_unit.mp h) (1 : Fin 2)
  have : o ≤ q.val := h1.1
  omega

end Tiles

end Cert.KernelIdeal.KValue

end
-- ==== Proof.KRun.lean ====
/-
  What one grid point computes.

  A grid point holds sixteen batch rows.  Its body first forms the rows' mapped input and, tile by tile, the sensory
  numerator and denominator into two buffers; sets the state buffer to the initial state repeated over the rows; and then six
  times writes, tile by tile, one step of the state into a second buffer and copies it back.  Each tile of a step is the
  specification's step of each row at the tile's targets, so after each of the six rounds the state buffer holds, in row
  `r`, one more step of row `r`; the output block is the state after the sixth.
-/
import proofs.«157048_j60730837565793_1_alg».proof.Proof.Gen.KernelIdeal.Frame
import proofs.«157048_j60730837565793_1_alg».proof.Proof.KTile
import proofs.«157048_j60730837565793_1_alg».proof.Proof.KLoads

set_option maxRecDepth 16384

noncomputable section

namespace Cert.KernelIdeal.KValue

open Cert.KernelIdeal Cert.KernelIdeal.Gen Idealize.ShloMosaic Idealize.ShloMosaic.ValueIdx Cert.Ltc

/-! ## The specification's parameters, from a point's input blocks -/

/-- The sensory parameters as functions of (source, target). -/
def sensOfK (x4 x5 x6 x7 : Vec Ideal S128x512 .f32) : Sensory :=
  ⟨fun i u => x4 (ix2 i u), fun i u => x5 (ix2 i u), fun i u => x6 (ix2 i u), fun i u => x7 (ix2 i u)⟩

/-- The recurrent parameters as functions of (source, target), and the per-neuron vectors. -/
def recOfK (x8 x9 x10 x11 : Vec Ideal S512x512 .f32) (x12 x13 x14 : Vec Ideal S512 .f32) : Recurrent :=
  ⟨fun j u => x8 (ix2 j u), fun j u => x9 (ix2 j u), fun j u => x10 (ix2 j u), fun j u => x11 (ix2 j u),
   fun u => x12 (ix1 u), fun u => x13 (ix1 u), fun u => x14 (ix1 u)⟩

/-- Row `r` of the point's mapped input. -/
def rowInK (x0 x1 x2 : Vec Ideal S16x128 .f32) (r : Fin 16) : Fin 128 → EReal :=
  affine (fun i => x0 (ix2 r i)) (fun i => x1 (ix2 r i)) (fun i => x2 (ix2 r i))

/-! ## Loads of the input blocks, in this program's spelling -/

theorem ld_in (M : Memref sig .tc .vmem S16x128 .f32) (hM : M.IsWhole) (X : Vec Ideal S16x128 .f32)
    (inb : ∀ a, (![0, 0] : Fin 2 → ℕ) a + S16x128.size a ≤ S16x128.size a) (r : Fin 16) (i : Fin 128) :
    View.readAt (Elt Ideal) M.view (Rect.unit (s := S16x128) ![0, 0] S16x128.size inb).toLoadRect (hM.unread X) (ix2 r i) = X (ix2 r i) :=
  load2_apply M hM X 0 0 inb r i r i (by omega) (by omega)

theorem ld_sens (M : Memref sig .tc .vmem S128x512 .f32) (hM : M.IsWhole) (X : Vec Ideal S128x512 .f32) (lo : ℕ)
    (inb : ∀ a, (![0, lo] : Fin 2 → ℕ) a + S128x128.size a ≤ S128x512.size a) (i u : Fin 128) (q : Fin 512) (hq : q.val = lo + u.val) :
    View.readAt (Elt Ideal) M.view (Rect.unit (s := S128x512) ![0, lo] S128x128.size inb).toLoadRect (hM.unread X) (ix2 i u) = X (ix2 i q) :=
  load2_apply M hM X 0 lo inb i u i q (by omega) hq

theorem ld_rec (M : Memref sig .tc .vmem S512x512 .f32) (hM : M.IsWhole) (X : Vec Ideal S512x512 .f32) (lo : ℕ)
    (inb : ∀ a, (![0, lo] : Fin 2 → ℕ) a + S512x128.size a ≤ S512x512.size a) (j : Fin 512) (u : Fin 128) (q : Fin 512) (hq : q.val = lo + u.val) :
    View.readAt (Elt Ideal) M.view (Rect.unit (s := S512x512) ![0, lo] S512x128.size inb).toLoadRect (hM.unread X) (ix2 j u) = X (ix2 j q) :=
  load2_apply M hM X 0 lo inb j u j q (by omega) hq

theorem ld_vec (M : Memref sig .tc .vmem S512 .f32) (hM : M.IsWhole) (X : Vec Ideal S512 .f32) (lo : ℕ)
    (inb : ∀ a, (![lo] : Fin 1 → ℕ) a + S128.size a ≤ S512.size a) (u : Fin 128) (q : Fin 512) (hq : q.val = lo + u.val) :
    View.readAt (Elt Ideal) M.view (Rect.unit (s := S512) ![lo] S128.size inb).toLoadRect (hM.unread X) (ix1 u) = X (ix1 q) :=
  load1_apply M hM X lo inb u q hq

theorem ld_state (M : Memref sig .tc .vmem S512 .f32) (hM : M.IsWhole) (X : Vec Ideal S512 .f32)
    (inb : ∀ a, (![0] : Fin 1 → ℕ) a + S512.size a ≤ S512.size a) (q : Fin 512) :
    View.readAt (Elt Ideal) M.view (Rect.unit (s := S512) ![0] S512.size inb).toLoadRect (hM.unread X) (ix1 q) = X (ix1 q) :=
  load1_apply M hM X 0 inb q q (by omega)

/-! ## Reading a buffer written tile by tile -/

section Reads

/-- Column `q = lo + u` under the last-written tile that starts at `lo`: the tile's payload at `u`. -/
theorem canon_hit (lo : ℕ) (inb : ∀ a, (![0, lo] : Fin 2 → ℕ) a + S16x128.size a ≤ S16x512.size a)
    (w : Vec Ideal S16x128 .f32) (L : List (View.Piece (Elt Ideal) S16x512 .f32)) (r : Fin 16) (u : Fin 128) (q : Fin 512)
    (hq : q.val = lo + u.val) :
    View.canon (⟨Rect.unit (s := S16x512) ![0, lo] S16x128.size inb, w⟩ :: L) (ix2 r q) = w (ix2 r u) := by
  have e : (Rect.unit (s := S16x512) ![0, lo] S16x128.size inb).emb (ix2 r u) = ix2 r q := tile_emb lo inb r u q hq
  rw [← e]
  exact View.canon_cons_emb (Rect.unit (s := S16x512) ![0, lo] S16x128.size inb) w L (ix2 r u)

/-- Column `q` left of the last-written tile: what was written before. -/
theorem canon_miss (lo : ℕ) (inb : ∀ a, (![0, lo] : Fin 2 → ℕ) a + S16x128.size a ≤ S16x512.size a)
    (w : Vec Ideal S16x128 .f32) (L : List (View.Piece (Elt Ideal) S16x512 .f32)) (r : Fin 16) (q : Fin 512) (hq : q.val < lo) :
    View.canon (⟨Rect.unit (s := S16x512) ![0, lo] S16x128.size inb, w⟩ :: L) (ix2 r q) = View.canon L (ix2 r q) :=
  View.canon_cons_of_not_mem _ L (tile_not_mem lo inb r q hq)

variable (M : Memref sig .tc .vmem S16x512 .f32) (w0 w1 w2 w3 : Vec Ideal S16x128 .f32)
  (L : List (View.Piece (Elt Ideal) S16x512 .f32))

/-- At column `q`, a buffer holding four tiles reads the payload of the tile that contains `q`: if every tile's payload is
    one function `G` of (row, column), the buffer holds `G`. -/
theorem canon_tiles (G : Fin 16 → Fin 512 → EReal)
    (h0 : ∀ (r : Fin 16) (u : Fin 128) (q : Fin 512), q.val = 0 + u.val → w0 (ix2 r u) = G r q)
    (h1 : ∀ (r : Fin 16) (u : Fin 128) (q : Fin 512), q.val = 128 + u.val → w1 (ix2 r u) = G r q)
    (h2 : ∀ (r : Fin 16) (u : Fin 128) (q : Fin 512), q.val = 256 + u.val → w2 (ix2 r u) = G r q)
    (h3 : ∀ (r : Fin 16) (u : Fin 128) (q : Fin 512), q.val = 384 + u.val → w3 (ix2 r u) = G r q)
    (r : Fin 16) (q : Fin 512) :
    View.canon (⟨Rect.unit (s := S16x512) ![0, 384] S16x128.size inb_S16x512_S16x128_0_384, w3⟩ :: ⟨Rect.unit (s := S16x512) ![0, 256] S16x128.size inb_S16x512_S16x128_0_256, w2⟩ :: ⟨Rect.unit (s := S16x512) ![0, 128] S16x128.size inb_S16x512_S16x128_0_128, w1⟩ :: ⟨Rect.unit (s := S16x512) ![0, 0] S16x128.size inb_S16x512_S16x128_0_0, w0⟩ :: L) (ix2 r q) = G r q := by
  have hlt := q.isLt
  by_cases c3 : 384 ≤ q.val
  · have hq : q.val = 384 + (⟨q.val - 384, by omega⟩ : Fin 128).val := by show q.val = 384 + (q.val - 384); omega
    rw [canon_hit 384 _ w3 _ r _ q hq]
    exact h3 r _ q hq
  · rw [canon_miss 384 _ w3 _ r q (by omega)]
    by_cases c2 : 256 ≤ q.val
    · have hq : q.val = 256 + (⟨q.val - 256, by omega⟩ : Fin 128).val := by show q.val = 256 + (q.val - 256); omega
      rw [canon_hit 256 _ w2 _ r _ q hq]
      exact h2 r _ q hq
    · rw [canon_miss 256 _ w2 _ r q (by omega)]
      by_cases c1 : 128 ≤ q.val
      · have hq : q.val = 128 + (⟨q.val - 128, by omega⟩ : Fin 128).val := by show q.val = 128 + (q.val - 128); omega
        rw [canon_hit 128 _ w1 _ r _ q hq]
        exact h1 r _ q hq
      · rw [canon_miss 128 _ w1 _ r q (by omega)]
        have hq : q.val = 0 + (⟨q.val, by omega⟩ : Fin 128).val := by show q.val = 0 + q.val; omega
        rw [canon_hit 0 _ w0 _ r _ q hq]
        exact h0 r _ q hq

/-- A whole load after four tile stores is `G`. -/
theorem read_tiles (G : Fin 16 → Fin 512 → EReal)
    (h0 : ∀ (r : Fin 16) (u : Fin 128) (q : Fin 512), q.val = 0 + u.val → w0 (ix2 r u) = G r q)
    (h1 : ∀ (r : Fin 16) (u : Fin 128) (q : Fin 512), q.val = 128 + u.val → w1 (ix2 r u) = G r q)
    (h2 : ∀ (r : Fin 16) (u : Fin 128) (q : Fin 512), q.val = 256 + u.val → w2 (ix2 r u) = G r q)
    (h3 : ∀ (r : Fin 16) (u : Fin 128) (q : Fin 512), q.val = 384 + u.val → w3 (ix2 r u) = G r q)
    (r : Fin 16) (q : Fin 512) :
    M.view.readCov (⟨Rect.unit (s := S16x512) ![0, 384] S16x128.size inb_S16x512_S16x128_0_384, w3⟩ :: ⟨Rect.unit (s := S16x512) ![0, 256] S16x128.size inb_S16x512_S16x128_0_256, w2⟩ :: ⟨Rect.unit (s := S16x512) ![0, 128] S16x128.size inb_S16x512_S16x128_0_128, w1⟩ :: ⟨Rect.unit (s := S16x512) ![0, 0] S16x128.size inb_S16x512_S16x128_0_0, w0⟩ :: L)
        (Rect.unit (s := S16x512) ![0, 0] S16x512.size inb_S16x512_S16x512_0_0).toLoadRect (ix2 r q) = G r q := by
  rw [View.readCov_eq_canon']
  have e : (Rect.unit (s := S16x512) ![0, 0] S16x512.size inb_S16x512_S16x512_0_0).toLoadRect.idx (ix2 r q) = ix2 r q :=
    funext fun a => Fin.ext (by
      match a with
      | ⟨0, _⟩ => show 0 + 1 * r.val = r.val; omega
      | ⟨1, _⟩ => show 0 + 1 * q.val = q.val; omega)
  show View.canon _ ((Rect.unit (s := S16x512) ![0, 0] S16x512.size inb_S16x512_S16x512_0_0).toLoadRect.idx (ix2 r q)) = _
  rw [e]
  exact canon_tiles w0 w1 w2 w3 L G h0 h1 h2 h3 r q

/-- A load of the 128 columns from `lo` after four tile stores is `G` at column `lo + u`. -/
theorem read_tile (lo : ℕ) (inb : ∀ a, (![0, lo] : Fin 2 → ℕ) a + S16x128.size a ≤ S16x512.size a) (G : Fin 16 → Fin 512 → EReal)
    (h0 : ∀ (r : Fin 16) (u : Fin 128) (q : Fin 512), q.val = 0 + u.val → w0 (ix2 r u) = G r q)
    (h1 : ∀ (r : Fin 16) (u : Fin 128) (q : Fin 512), q.val = 128 + u.val → w1 (ix2 r u) = G r q)
    (h2 : ∀ (r : Fin 16) (u : Fin 128) (q : Fin 512), q.val = 256 + u.val → w2 (ix2 r u) = G r q)
    (h3 : ∀ (r : Fin 16) (u : Fin 128) (q : Fin 512), q.val = 384 + u.val → w3 (ix2 r u) = G r q)
    (r : Fin 16) (u : Fin 128) (q : Fin 512) (hq : q.val = lo + u.val) :
    M.view.readCov (⟨Rect.unit (s := S16x512) ![0, 384] S16x128.size inb_S16x512_S16x128_0_384, w3⟩ :: ⟨Rect.unit (s := S16x512) ![0, 256] S16x128.size inb_S16x512_S16x128_0_256, w2⟩ :: ⟨Rect.unit (s := S16x512) ![0, 128] S16x128.size inb_S16x512_S16x128_0_128, w1⟩ :: ⟨Rect.unit (s := S16x512) ![0, 0] S16x128.size inb_S16x512_S16x128_0_0, w0⟩ :: L)
        (Rect.unit (s := S16x512) ![0, lo] S16x128.size inb).toLoadRect (ix2 r u) = G r q := by
  rw [View.readCov_eq_canon']
  have e : (Rect.unit (s := S16x512) ![0, lo] S16x128.size inb).toLoadRect.idx (ix2 r u) = ix2 r q := tile_emb lo inb r u q hq
  show View.canon _ ((Rect.unit (s := S16x512) ![0, lo] S16x128.size inb).toLoadRect.idx (ix2 r u)) = _
  rw [e]
  exact canon_tiles w0 w1 w2 w3 L G h0 h1 h2 h3 r q

end Reads

section Point

variable (c : Dev nD) (arg1 : Memref sig .tc .vmem S16x128 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S16x512 .f32) (harg16 : arg16.IsWhole) (arg17 : Memref sig .tc .vmem S16x512 .f32) (harg17 : arg17.IsWhole) (arg18 : Memref sig .tc .vmem S16x512 .f32) (harg18 : arg18.IsWhole) (arg19 : Memref sig .tc .vmem S16x512 .f32) (harg19 : arg19.IsWhole) (arg20 : Memref sig .tc .vmem S16x512 .f32) (harg20 : arg20.IsWhole)
variable (x0 : Vec Ideal S16x128 .f32) (x1 : Vec Ideal S16x128 .f32) (x2 : Vec Ideal S16x128 .f32) (x3 : Vec Ideal S512 .f32) (x4 : Vec Ideal S128x512 .f32) (x5 : Vec Ideal S128x512 .f32) (x6 : Vec Ideal S128x512 .f32) (x7 : Vec Ideal S128x512 .f32) (x8 : Vec Ideal S512x512 .f32) (x9 : Vec Ideal S512x512 .f32) (x10 : Vec Ideal S512x512 .f32) (x11 : Vec Ideal S512x512 .f32) (x12 : Vec Ideal S512 .f32) (x13 : Vec Ideal S512 .f32) (x14 : Vec Ideal S512 .f32)

/-! ## A tile is the specification at the tile's targets -/

/-- The mapped input of the sixteen rows, from the loads of the three input blocks, is the rows' mapped input. -/
theorem in_rows (r : Fin 16) (i : Fin 128) : (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (ix2 r i) = rowInK x0 x1 x2 r i := by
  unfold mapIn rowInK affine
  simp only [addf_apply, mulf_apply]
  rw [ld_in arg1 harg1 x0, ld_in arg2 harg2 x1, ld_in arg3 harg3 x2]

/-- A sensory tile's numerator at (row `r`, tile target `u`) is the row's sensory numerator at target `lo + u`. -/
theorem sens_tile_num (lo : ℕ) (inb : ∀ a, (![0, lo] : Fin 2 → ℕ) a + S128x128.size a ≤ S128x512.size a)
    (r : Fin 16) (u : Fin 128) (q : Fin 512) (hq : q.val = lo + u.val) :
    sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2)))
        (View.readAt (Elt Ideal) arg5.view (Rect.unit (s := S128x512) ![0, lo] S128x128.size inb).toLoadRect (harg5.unread x4))
        (View.readAt (Elt Ideal) arg6.view (Rect.unit (s := S128x512) ![0, lo] S128x128.size inb).toLoadRect (harg6.unread x5))
        (View.readAt (Elt Ideal) arg7.view (Rect.unit (s := S128x512) ![0, lo] S128x128.size inb).toLoadRect (harg7.unread x6))
        (View.readAt (Elt Ideal) arg8.view (Rect.unit (s := S128x512) ![0, lo] S128x128.size inb).toLoadRect (harg8.unread x7)) (ix2 r u)
      = sensNum (sensOfK x4 x5 x6 x7) (rowInK x0 x1 x2 r) q := by
  rw [sensNumT_apply]
  unfold sensNum sensOfK
  refine Finset.sum_congr rfl fun i _ => ?_
  rw [in_rows, ld_sens arg5 harg5 x4 lo inb i u q hq, ld_sens arg6 harg6 x5 lo inb i u q hq,
    ld_sens arg7 harg7 x6 lo inb i u q hq, ld_sens arg8 harg8 x7 lo inb i u q hq]

/-- A sensory tile's denominator likewise. -/
theorem sens_tile_den (lo : ℕ) (inb : ∀ a, (![0, lo] : Fin 2 → ℕ) a + S128x128.size a ≤ S128x512.size a)
    (r : Fin 16) (u : Fin 128) (q : Fin 512) (hq : q.val = lo + u.val) :
    sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2)))
        (View.readAt (Elt Ideal) arg5.view (Rect.unit (s := S128x512) ![0, lo] S128x128.size inb).toLoadRect (harg5.unread x4))
        (View.readAt (Elt Ideal) arg6.view (Rect.unit (s := S128x512) ![0, lo] S128x128.size inb).toLoadRect (harg6.unread x5))
        (View.readAt (Elt Ideal) arg7.view (Rect.unit (s := S128x512) ![0, lo] S128x128.size inb).toLoadRect (harg7.unread x6)) (ix2 r u)
      = sensDen (sensOfK x4 x5 x6 x7) (rowInK x0 x1 x2 r) q := by
  rw [sensDenT_apply]
  unfold sensDen sensOfK
  refine Finset.sum_congr rfl fun i _ => ?_
  rw [in_rows, ld_sens arg5 harg5 x4 lo inb i u q hq, ld_sens arg6 harg6 x5 lo inb i u q hq,
    ld_sens arg7 harg7 x6 lo inb i u q hq]

/-- A tile of a step at (row `r`, tile target `u`) is the specification's step of row `r` at target `lo + u`, given that the
    tile's sensory numerator and denominator are the row's at that target. -/
theorem tile_is_step (lo : ℕ) (hs : S16x512.Slices ![0, lo] S16x128)
    (inb2 : ∀ a, (![0, lo] : Fin 2 → ℕ) a + S512x128.size a ≤ S512x512.size a)
    (inb1 : ∀ a, (![lo] : Fin 1 → ℕ) a + S128.size a ≤ S512.size a)
    (v : FVec Ideal S16x512 .f32) (ns ds : FVec Ideal S16x128 .f32) (r : Fin 16) (u : Fin 128) (q : Fin 512) (hq : q.val = lo + u.val)
    (nsr dsr : Fin 512 → EReal) (hns : ns (ix2 r u) = nsr q) (hds : ds (ix2 r u) = dsr q) :
    tileStep ![0, lo] hs v
        (View.readAt (Elt Ideal) arg9.view (Rect.unit (s := S512x512) ![0, lo] S512x128.size inb2).toLoadRect (harg9.unread x8))
        (View.readAt (Elt Ideal) arg10.view (Rect.unit (s := S512x512) ![0, lo] S512x128.size inb2).toLoadRect (harg10.unread x9))
        (View.readAt (Elt Ideal) arg11.view (Rect.unit (s := S512x512) ![0, lo] S512x128.size inb2).toLoadRect (harg11.unread x10))
        (View.readAt (Elt Ideal) arg12.view (Rect.unit (s := S512x512) ![0, lo] S512x128.size inb2).toLoadRect (harg12.unread x11))
        ns ds
        (View.readAt (Elt Ideal) arg15.view (Rect.unit (s := S512) ![lo] S128.size inb1).toLoadRect (harg15.unread x14))
        (View.readAt (Elt Ideal) arg14.view (Rect.unit (s := S512) ![lo] S128.size inb1).toLoadRect (harg14.unread x13))
        (View.readAt (Elt Ideal) arg13.view (Rect.unit (s := S512) ![lo] S128.size inb1).toLoadRect (harg13.unread x12)) (ix2 r u)
      = step (recOfK x8 x9 x10 x11 x12 x13 x14) nsr dsr (fun j => v (ix2 r j)) q := by
  rw [tileStep_apply lo hs _ _ _ _ _ _ _ _ _ _ r u q hq]
  unfold step recOfK
  rw [ld_vec arg15 harg15 x14 lo inb1 u q hq, ld_vec arg14 harg14 x13 lo inb1 u q hq, ld_vec arg13 harg13 x12 lo inb1 u q hq,
    hns, hds]
  have hsum : ∀ j : Fin 512,
      syn ((View.readAt (Elt Ideal) arg11.view (Rect.unit (s := S512x512) ![0, lo] S512x128.size inb2).toLoadRect (harg11.unread x10)) (ix2 j u))
        ((View.readAt (Elt Ideal) arg10.view (Rect.unit (s := S512x512) ![0, lo] S512x128.size inb2).toLoadRect (harg10.unread x9)) (ix2 j u))
        ((View.readAt (Elt Ideal) arg9.view (Rect.unit (s := S512x512) ![0, lo] S512x128.size inb2).toLoadRect (harg9.unread x8)) (ix2 j u))
        (v (ix2 r j))
      = syn (x10 (ix2 j q)) (x9 (ix2 j q)) (x8 (ix2 j q)) (v (ix2 r j)) := fun j => by
    rw [ld_rec arg11 harg11 x10 lo inb2 j u q hq, ld_rec arg10 harg10 x9 lo inb2 j u q hq, ld_rec arg9 harg9 x8 lo inb2 j u q hq]
  congr 3
  · refine Finset.sum_congr rfl fun j _ => ?_
    rw [hsum j, ld_rec arg12 harg12 x11 lo inb2 j u q hq]
  · exact Finset.sum_congr rfl fun j _ => hsum j

/-! ## The buffers' contents, store by store -/

/-- The sensory numerator buffer after its four tile stores. -/
theorem sensNum_list : kernelRun0_A.sl.HS2_4 c arg1 harg1 arg2 harg2 arg3 harg3 arg5 harg5 arg6 harg6 arg7 harg7 arg8 harg8 x0 x1 x2 x4 x5 x6 x7
    = [⟨Rect.unit (s := S16x512) ![0, 384] S16x128.size inb_S16x512_S16x128_0_384, sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 384] S128x128.size inb_S128x512_S128x128_0_384).toLoadRect (harg5.unread x4)) (View.readAt (Elt Ideal) arg6.view (Rect.unit (s := S128x512) ![0, 384] S128x128.size inb_S128x512_S128x128_0_384).toLoadRect (harg6.unread x5)) (View.readAt (Elt Ideal) arg7.view (Rect.unit (s := S128x512) ![0, 384] S128x128.size inb_S128x512_S128x128_0_384).toLoadRect (harg7.unread x6)) (View.readAt (Elt Ideal) arg8.view (Rect.unit (s := S128x512) ![0, 384] S128x128.size inb_S128x512_S128x128_0_384).toLoadRect (harg8.unread x7))⟩,
       ⟨Rect.unit (s := S16x512) ![0, 256] S16x128.size inb_S16x512_S16x128_0_256, sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 256] S128x128.size inb_S128x512_S128x128_0_256).toLoadRect (harg5.unread x4)) (View.readAt (Elt Ideal) arg6.view (Rect.unit (s := S128x512) ![0, 256] S128x128.size inb_S128x512_S128x128_0_256).toLoadRect (harg6.unread x5)) (View.readAt (Elt Ideal) arg7.view (Rect.unit (s := S128x512) ![0, 256] S128x128.size inb_S128x512_S128x128_0_256).toLoadRect (harg7.unread x6)) (View.readAt (Elt Ideal) arg8.view (Rect.unit (s := S128x512) ![0, 256] S128x128.size inb_S128x512_S128x128_0_256).toLoadRect (harg8.unread x7))⟩,
       ⟨Rect.unit (s := S16x512) ![0, 128] S16x128.size inb_S16x512_S16x128_0_128, sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 128] S128x128.size inb_S128x512_S128x128_0_128).toLoadRect (harg5.unread x4)) (View.readAt (Elt Ideal) arg6.view (Rect.unit (s := S128x512) ![0, 128] S128x128.size inb_S128x512_S128x128_0_128).toLoadRect (harg6.unread x5)) (View.readAt (Elt Ideal) arg7.view (Rect.unit (s := S128x512) ![0, 128] S128x128.size inb_S128x512_S128x128_0_128).toLoadRect (harg7.unread x6)) (View.readAt (Elt Ideal) arg8.view (Rect.unit (s := S128x512) ![0, 128] S128x128.size inb_S128x512_S128x128_0_128).toLoadRect (harg8.unread x7))⟩,
       ⟨Rect.unit (s := S16x512) ![0, 0] S16x128.size inb_S16x512_S16x128_0_0, sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 0] S128x128.size inb_S128x512_S128x128_0_0).toLoadRect (harg5.unread x4)) (View.readAt (Elt Ideal) arg6.view (Rect.unit (s := S128x512) ![0, 0] S128x128.size inb_S128x512_S128x128_0_0).toLoadRect (harg6.unread x5)) (View.readAt (Elt Ideal) arg7.view (Rect.unit (s := S128x512) ![0, 0] S128x128.size inb_S128x512_S128x128_0_0).toLoadRect (harg7.unread x6)) (View.readAt (Elt Ideal) arg8.view (Rect.unit (s := S128x512) ![0, 0] S128x128.size inb_S128x512_S128x128_0_0).toLoadRect (harg8.unread x7))⟩] := rfl

/-- The sensory denominator buffer after its four tile stores. -/
theorem sensDen_list : kernelRun0_A.sl.HS3_4 c arg1 harg1 arg2 harg2 arg3 harg3 arg5 harg5 arg6 harg6 arg7 harg7 x0 x1 x2 x4 x5 x6
    = [⟨Rect.unit (s := S16x512) ![0, 384] S16x128.size inb_S16x512_S16x128_0_384, sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 384] S128x128.size inb_S128x512_S128x128_0_384).toLoadRect (harg5.unread x4)) (View.readAt (Elt Ideal) arg6.view (Rect.unit (s := S128x512) ![0, 384] S128x128.size inb_S128x512_S128x128_0_384).toLoadRect (harg6.unread x5)) (View.readAt (Elt Ideal) arg7.view (Rect.unit (s := S128x512) ![0, 384] S128x128.size inb_S128x512_S128x128_0_384).toLoadRect (harg7.unread x6))⟩,
       ⟨Rect.unit (s := S16x512) ![0, 256] S16x128.size inb_S16x512_S16x128_0_256, sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 256] S128x128.size inb_S128x512_S128x128_0_256).toLoadRect (harg5.unread x4)) (View.readAt (Elt Ideal) arg6.view (Rect.unit (s := S128x512) ![0, 256] S128x128.size inb_S128x512_S128x128_0_256).toLoadRect (harg6.unread x5)) (View.readAt (Elt Ideal) arg7.view (Rect.unit (s := S128x512) ![0, 256] S128x128.size inb_S128x512_S128x128_0_256).toLoadRect (harg7.unread x6))⟩,
       ⟨Rect.unit (s := S16x512) ![0, 128] S16x128.size inb_S16x512_S16x128_0_128, sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 128] S128x128.size inb_S128x512_S128x128_0_128).toLoadRect (harg5.unread x4)) (View.readAt (Elt Ideal) arg6.view (Rect.unit (s := S128x512) ![0, 128] S128x128.size inb_S128x512_S128x128_0_128).toLoadRect (harg6.unread x5)) (View.readAt (Elt Ideal) arg7.view (Rect.unit (s := S128x512) ![0, 128] S128x128.size inb_S128x512_S128x128_0_128).toLoadRect (harg7.unread x6))⟩,
       ⟨Rect.unit (s := S16x512) ![0, 0] S16x128.size inb_S16x512_S16x128_0_0, sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 0] S128x128.size inb_S128x512_S128x128_0_0).toLoadRect (harg5.unread x4)) (View.readAt (Elt Ideal) arg6.view (Rect.unit (s := S128x512) ![0, 0] S128x128.size inb_S128x512_S128x128_0_0).toLoadRect (harg6.unread x5)) (View.readAt (Elt Ideal) arg7.view (Rect.unit (s := S128x512) ![0, 0] S128x128.size inb_S128x512_S128x128_0_0).toLoadRect (harg7.unread x6))⟩] := rfl

/-- The second state buffer after the four tile stores of the first step. -/
theorem step1_list : kernelRun0_A.sl.HS1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg19 arg20 x0 x1 x2 x3 x4 x5 x6 x7 x8 x9 x10 x11 x12 x13 x14
    = [⟨Rect.unit (s := S16x512) ![0, 384] S16x128.size inb_S16x512_S16x128_0_384, tileStep ![0, 384] slices_S16x512_o0_384_S16x128 (kernelRun0_A.sl.v119 c arg4 harg4 arg17 x3) (View.readAt (Elt Ideal) arg9.view (Rect.unit (s := S512x512) ![0, 384] S512x128.size inb_S512x512_S512x128_0_384).toLoadRect (harg9.unread x8)) (View.readAt (Elt Ideal) arg10.view (Rect.unit (s := S512x512) ![0, 384] S512x128.size inb_S512x512_S512x128_0_384).toLoadRect (harg10.unread x9)) (View.readAt (Elt Ideal) arg11.view (Rect.unit (s := S512x512) ![0, 384] S512x128.size inb_S512x512_S512x128_0_384).toLoadRect (harg11.unread x10)) (View.readAt (Elt Ideal) arg12.view (Rect.unit (s := S512x512) ![0, 384] S512x128.size inb_S512x512_S512x128_0_384).toLoadRect (harg12.unread x11)) (kernelRun0_A.sl.v281 c arg1 harg1 arg2 harg2 arg3 harg3 arg5 harg5 arg6 harg6 arg7 harg7 arg8 harg8 arg19 x0 x1 x2 x4 x5 x6 x7) (kernelRun0_A.sl.v284 c arg1 harg1 arg2 harg2 arg3 harg3 arg5 harg5 arg6 harg6 arg7 harg7 arg20 x0 x1 x2 x4 x5 x6) (View.readAt (Elt Ideal) arg15.view (Rect.unit (s := S512) ![384] S128.size inb_S512_S128_384).toLoadRect (harg15.unread x14)) (View.readAt (Elt Ideal) arg14.view (Rect.unit (s := S512) ![384] S128.size inb_S512_S128_384).toLoadRect (harg14.unread x13)) (View.readAt (Elt Ideal) arg13.view (Rect.unit (s := S512) ![384] S128.size inb_S512_S128_384).toLoadRect (harg13.unread x12))⟩,
       ⟨Rect.unit (s := S16x512) ![0, 256] S16x128.size inb_S16x512_S16x128_0_256, tileStep ![0, 256] slices_S16x512_o0_256_S16x128 (kernelRun0_A.sl.v119 c arg4 harg4 arg17 x3) (View.readAt (Elt Ideal) arg9.view (Rect.unit (s := S512x512) ![0, 256] S512x128.size inb_S512x512_S512x128_0_256).toLoadRect (harg9.unread x8)) (View.readAt (Elt Ideal) arg10.view (Rect.unit (s := S512x512) ![0, 256] S512x128.size inb_S512x512_S512x128_0_256).toLoadRect (harg10.unread x9)) (View.readAt (Elt Ideal) arg11.view (Rect.unit (s := S512x512) ![0, 256] S512x128.size inb_S512x512_S512x128_0_256).toLoadRect (harg11.unread x10)) (View.readAt (Elt Ideal) arg12.view (Rect.unit (s := S512x512) ![0, 256] S512x128.size inb_S512x512_S512x128_0_256).toLoadRect (harg12.unread x11)) (kernelRun0_A.sl.v234 c arg1 harg1 arg2 harg2 arg3 harg3 arg5 harg5 arg6 harg6 arg7 harg7 arg8 harg8 arg19 x0 x1 x2 x4 x5 x6 x7) (kernelRun0_A.sl.v237 c arg1 harg1 arg2 harg2 arg3 harg3 arg5 harg5 arg6 harg6 arg7 harg7 arg20 x0 x1 x2 x4 x5 x6) (View.readAt (Elt Ideal) arg15.view (Rect.unit (s := S512) ![256] S128.size inb_S512_S128_256).toLoadRect (harg15.unread x14)) (View.readAt (Elt Ideal) arg14.view (Rect.unit (s := S512) ![256] S128.size inb_S512_S128_256).toLoadRect (harg14.unread x13)) (View.readAt (Elt Ideal) arg13.view (Rect.unit (s := S512) ![256] S128.size inb_S512_S128_256).toLoadRect (harg13.unread x12))⟩,
       ⟨Rect.unit (s := S16x512) ![0, 128] S16x128.size inb_S16x512_S16x128_0_128, tileStep ![0, 128] slices_S16x512_o0_128_S16x128 (kernelRun0_A.sl.v119 c arg4 harg4 arg17 x3) (View.readAt (Elt Ideal) arg9.view (Rect.unit (s := S512x512) ![0, 128] S512x128.size inb_S512x512_S512x128_0_128).toLoadRect (harg9.unread x8)) (View.readAt (Elt Ideal) arg10.view (Rect.unit (s := S512x512) ![0, 128] S512x128.size inb_S512x512_S512x128_0_128).toLoadRect (harg10.unread x9)) (View.readAt (Elt Ideal) arg11.view (Rect.unit (s := S512x512) ![0, 128] S512x128.size inb_S512x512_S512x128_0_128).toLoadRect (harg11.unread x10)) (View.readAt (Elt Ideal) arg12.view (Rect.unit (s := S512x512) ![0, 128] S512x128.size inb_S512x512_S512x128_0_128).toLoadRect (harg12.unread x11)) (kernelRun0_A.sl.v187 c arg1 harg1 arg2 harg2 arg3 harg3 arg5 harg5 arg6 harg6 arg7 harg7 arg8 harg8 arg19 x0 x1 x2 x4 x5 x6 x7) (kernelRun0_A.sl.v190 c arg1 harg1 arg2 harg2 arg3 harg3 arg5 harg5 arg6 harg6 arg7 harg7 arg20 x0 x1 x2 x4 x5 x6) (View.readAt (Elt Ideal) arg15.view (Rect.unit (s := S512) ![128] S128.size inb_S512_S128_128).toLoadRect (harg15.unread x14)) (View.readAt (Elt Ideal) arg14.view (Rect.unit (s := S512) ![128] S128.size inb_S512_S128_128).toLoadRect (harg14.unread x13)) (View.readAt (Elt Ideal) arg13.view (Rect.unit (s := S512) ![128] S128.size inb_S512_S128_128).toLoadRect (harg13.unread x12))⟩,
       ⟨Rect.unit (s := S16x512) ![0, 0] S16x128.size inb_S16x512_S16x128_0_0, tileStep ![0, 0] slices_S16x512_o0_0_S16x128 (kernelRun0_A.sl.v119 c arg4 harg4 arg17 x3) (View.readAt (Elt Ideal) arg9.view (Rect.unit (s := S512x512) ![0, 0] S512x128.size inb_S512x512_S512x128_0_0).toLoadRect (harg9.unread x8)) (View.readAt (Elt Ideal) arg10.view (Rect.unit (s := S512x512) ![0, 0] S512x128.size inb_S512x512_S512x128_0_0).toLoadRect (harg10.unread x9)) (View.readAt (Elt Ideal) arg11.view (Rect.unit (s := S512x512) ![0, 0] S512x128.size inb_S512x512_S512x128_0_0).toLoadRect (harg11.unread x10)) (View.readAt (Elt Ideal) arg12.view (Rect.unit (s := S512x512) ![0, 0] S512x128.size inb_S512x512_S512x128_0_0).toLoadRect (harg12.unread x11)) (kernelRun0_A.sl.v140 c arg1 harg1 arg2 harg2 arg3 harg3 arg5 harg5 arg6 harg6 arg7 harg7 arg8 harg8 arg19 x0 x1 x2 x4 x5 x6 x7) (kernelRun0_A.sl.v143 c arg1 harg1 arg2 harg2 arg3 harg3 arg5 harg5 arg6 harg6 arg7 harg7 arg20 x0 x1 x2 x4 x5 x6) (View.readAt (Elt Ideal) arg15.view (Rect.unit (s := S512) ![0] S128.size inb_S512_S128_0).toLoadRect (harg15.unread x14)) (View.readAt (Elt Ideal) arg14.view (Rect.unit (s := S512) ![0] S128.size inb_S512_S128_0).toLoadRect (harg14.unread x13)) (View.readAt (Elt Ideal) arg13.view (Rect.unit (s := S512) ![0] S128.size inb_S512_S128_0).toLoadRect (harg13.unread x12))⟩] := rfl

/-! ## The sensory buffers, read back -/

/-- The sensory numerator buffer read through a tile's rectangle: the rows' sensory numerators at the tile's targets. -/
theorem ns_read (M : Memref sig .tc .vmem S16x512 .f32) (lo : ℕ)
    (inb : ∀ a, (![0, lo] : Fin 2 → ℕ) a + S16x128.size a ≤ S16x512.size a) (r : Fin 16) (u : Fin 128) (q : Fin 512) (hq : q.val = lo + u.val) :
    M.view.readCov ([⟨Rect.unit (s := S16x512) ![0, 384] S16x128.size inb_S16x512_S16x128_0_384, sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 384] S128x128.size inb_S128x512_S128x128_0_384).toLoadRect (harg5.unread x4)) (View.readAt (Elt Ideal) arg6.view (Rect.unit (s := S128x512) ![0, 384] S128x128.size inb_S128x512_S128x128_0_384).toLoadRect (harg6.unread x5)) (View.readAt (Elt Ideal) arg7.view (Rect.unit (s := S128x512) ![0, 384] S128x128.size inb_S128x512_S128x128_0_384).toLoadRect (harg7.unread x6)) (View.readAt (Elt Ideal) arg8.view (Rect.unit (s := S128x512) ![0, 384] S128x128.size inb_S128x512_S128x128_0_384).toLoadRect (harg8.unread x7))⟩,
        ⟨Rect.unit (s := S16x512) ![0, 256] S16x128.size inb_S16x512_S16x128_0_256, sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 256] S128x128.size inb_S128x512_S128x128_0_256).toLoadRect (harg5.unread x4)) (View.readAt (Elt Ideal) arg6.view (Rect.unit (s := S128x512) ![0, 256] S128x128.size inb_S128x512_S128x128_0_256).toLoadRect (harg6.unread x5)) (View.readAt (Elt Ideal) arg7.view (Rect.unit (s := S128x512) ![0, 256] S128x128.size inb_S128x512_S128x128_0_256).toLoadRect (harg7.unread x6)) (View.readAt (Elt Ideal) arg8.view (Rect.unit (s := S128x512) ![0, 256] S128x128.size inb_S128x512_S128x128_0_256).toLoadRect (harg8.unread x7))⟩,
        ⟨Rect.unit (s := S16x512) ![0, 128] S16x128.size inb_S16x512_S16x128_0_128, sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 128] S128x128.size inb_S128x512_S128x128_0_128).toLoadRect (harg5.unread x4)) (View.readAt (Elt Ideal) arg6.view (Rect.unit (s := S128x512) ![0, 128] S128x128.size inb_S128x512_S128x128_0_128).toLoadRect (harg6.unread x5)) (View.readAt (Elt Ideal) arg7.view (Rect.unit (s := S128x512) ![0, 128] S128x128.size inb_S128x512_S128x128_0_128).toLoadRect (harg7.unread x6)) (View.readAt (Elt Ideal) arg8.view (Rect.unit (s := S128x512) ![0, 128] S128x128.size inb_S128x512_S128x128_0_128).toLoadRect (harg8.unread x7))⟩,
        ⟨Rect.unit (s := S16x512) ![0, 0] S16x128.size inb_S16x512_S16x128_0_0, sensNumT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 0] S128x128.size inb_S128x512_S128x128_0_0).toLoadRect (harg5.unread x4)) (View.readAt (Elt Ideal) arg6.view (Rect.unit (s := S128x512) ![0, 0] S128x128.size inb_S128x512_S128x128_0_0).toLoadRect (harg6.unread x5)) (View.readAt (Elt Ideal) arg7.view (Rect.unit (s := S128x512) ![0, 0] S128x128.size inb_S128x512_S128x128_0_0).toLoadRect (harg7.unread x6)) (View.readAt (Elt Ideal) arg8.view (Rect.unit (s := S128x512) ![0, 0] S128x128.size inb_S128x512_S128x128_0_0).toLoadRect (harg8.unread x7))⟩] : List (View.Piece (Elt Ideal) S16x512 .f32))
        (Rect.unit (s := S16x512) ![0, lo] S16x128.size inb).toLoadRect (ix2 r u)
      = sensNum (sensOfK x4 x5 x6 x7) (rowInK x0 x1 x2 r) q :=
  read_tile M _ _ _ _ [] lo inb (fun r q => sensNum (sensOfK x4 x5 x6 x7) (rowInK x0 x1 x2 r) q)
    (fun r u q hq => sens_tile_num arg1 harg1 arg2 harg2 arg3 harg3 arg5 harg5 arg6 harg6 arg7 harg7 arg8 harg8 x0 x1 x2 x4 x5 x6 x7 0 inb_S128x512_S128x128_0_0 r u q hq)
    (fun r u q hq => sens_tile_num arg1 harg1 arg2 harg2 arg3 harg3 arg5 harg5 arg6 harg6 arg7 harg7 arg8 harg8 x0 x1 x2 x4 x5 x6 x7 128 inb_S128x512_S128x128_0_128 r u q hq)
    (fun r u q hq => sens_tile_num arg1 harg1 arg2 harg2 arg3 harg3 arg5 harg5 arg6 harg6 arg7 harg7 arg8 harg8 x0 x1 x2 x4 x5 x6 x7 256 inb_S128x512_S128x128_0_256 r u q hq)
    (fun r u q hq => sens_tile_num arg1 harg1 arg2 harg2 arg3 harg3 arg5 harg5 arg6 harg6 arg7 harg7 arg8 harg8 x0 x1 x2 x4 x5 x6 x7 384 inb_S128x512_S128x128_0_384 r u q hq) r u q hq

/-- The sensory denominator buffer likewise. -/
theorem ds_read (M : Memref sig .tc .vmem S16x512 .f32) (lo : ℕ)
    (inb : ∀ a, (![0, lo] : Fin 2 → ℕ) a + S16x128.size a ≤ S16x512.size a) (r : Fin 16) (u : Fin 128) (q : Fin 512) (hq : q.val = lo + u.val) :
    M.view.readCov ([⟨Rect.unit (s := S16x512) ![0, 384] S16x128.size inb_S16x512_S16x128_0_384, sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 384] S128x128.size inb_S128x512_S128x128_0_384).toLoadRect (harg5.unread x4)) (View.readAt (Elt Ideal) arg6.view (Rect.unit (s := S128x512) ![0, 384] S128x128.size inb_S128x512_S128x128_0_384).toLoadRect (harg6.unread x5)) (View.readAt (Elt Ideal) arg7.view (Rect.unit (s := S128x512) ![0, 384] S128x128.size inb_S128x512_S128x128_0_384).toLoadRect (harg7.unread x6))⟩,
        ⟨Rect.unit (s := S16x512) ![0, 256] S16x128.size inb_S16x512_S16x128_0_256, sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 256] S128x128.size inb_S128x512_S128x128_0_256).toLoadRect (harg5.unread x4)) (View.readAt (Elt Ideal) arg6.view (Rect.unit (s := S128x512) ![0, 256] S128x128.size inb_S128x512_S128x128_0_256).toLoadRect (harg6.unread x5)) (View.readAt (Elt Ideal) arg7.view (Rect.unit (s := S128x512) ![0, 256] S128x128.size inb_S128x512_S128x128_0_256).toLoadRect (harg7.unread x6))⟩,
        ⟨Rect.unit (s := S16x512) ![0, 128] S16x128.size inb_S16x512_S16x128_0_128, sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 128] S128x128.size inb_S128x512_S128x128_0_128).toLoadRect (harg5.unread x4)) (View.readAt (Elt Ideal) arg6.view (Rect.unit (s := S128x512) ![0, 128] S128x128.size inb_S128x512_S128x128_0_128).toLoadRect (harg6.unread x5)) (View.readAt (Elt Ideal) arg7.view (Rect.unit (s := S128x512) ![0, 128] S128x128.size inb_S128x512_S128x128_0_128).toLoadRect (harg7.unread x6))⟩,
        ⟨Rect.unit (s := S16x512) ![0, 0] S16x128.size inb_S16x512_S16x128_0_0, sensDenT (mapIn (View.readAt (Elt Ideal) arg1.view (Rect.unit (s := S16x128) ![0, 0] S16x128.size inb_S16x128_S16x128_0_0).toLoadRect (harg1.unread x0)) (View.readAt (Elt Ideal) arg2.view (Rect.unit (s := S16x128) ![0, 0] S16x128.size inb_S16x128_S16x128_0_0).toLoadRect (harg2.unread x1)) (View.readAt (Elt Ideal) arg3.view (Rect.unit (s := S16x128) ![0, 0] S16x128.size inb_S16x128_S16x128_0_0).toLoadRect (harg3.unread x2))) (View.readAt (Elt Ideal) arg5.view (Rect.unit (s := S128x512) ![0, 0] S128x128.size inb_S128x512_S128x128_0_0).toLoadRect (harg5.unread x4)) (View.readAt (Elt Ideal) arg6.view (Rect.unit (s := S128x512) ![0, 0] S128x128.size inb_S128x512_S128x128_0_0).toLoadRect (harg6.unread x5)) (View.readAt (Elt Ideal) arg7.view (Rect.unit (s := S128x512) ![0, 0] S128x128.size inb_S128x512_S128x128_0_0).toLoadRect (harg7.unread x6))⟩] : List (View.Piece (Elt Ideal) S16x512 .f32))
        (Rect.unit (s := S16x512) ![0, lo] S16x128.size inb).toLoadRect (ix2 r u)
      = sensDen (sensOfK x4 x5 x6 x7) (rowInK x0 x1 x2 r) q :=
  read_tile M _ _ _ _ [] lo inb (fun r q => sensDen (sensOfK x4 x5 x6 x7) (rowInK x0 x1 x2 r) q)
    (fun r u q hq => sens_tile_den arg1 harg1 arg2 harg2 arg3 harg3 arg5 harg5 arg6 harg6 arg7 harg7 x0 x1 x2 x4 x5 x6 x7 0 inb_S128x512_S128x128_0_0 r u q hq)
    (fun r u q hq => sens_tile_den arg1 harg1 arg2 harg2 arg3 harg3 arg5 harg5 arg6 harg6 arg7 harg7 x0 x1 x2 x4 x5 x6 x7 128 inb_S128x512_S128x128_0_128 r u q hq)
    (fun r u q hq => sens_tile_den arg1 harg1 arg2 harg2 arg3 harg3 arg5 harg5 arg6 harg6 arg7 harg7 x0 x1 x2 x4 x5 x6 x7 256 inb_S128x512_S128x128_0_256 r u q hq)
    (fun r u q hq => sens_tile_den arg1 harg1 arg2 harg2 arg3 harg3 arg5 harg5 arg6 harg6 arg7 harg7 x0 x1 x2 x4 x5 x6 x7 384 inb_S128x512_S128x128_0_384 r u q hq) r u q hq

theorem ns_at_0 (r : Fin 16) (u : Fin 128) (q : Fin 512) (hq : q.val = 0 + u.val) :
    (kernelRun0_A.sl.v140 c arg1 harg1 arg2 harg2 arg3 harg3 arg5 harg5 arg6 harg6 arg7 harg7 arg8 harg8 arg19 x0 x1 x2 x4 x5 x6 x7) (ix2 r u) = sensNum (sensOfK x4 x5 x6 x7) (rowInK x0 x1 x2 r) q := by
  unfold kernelRun0_A.sl.v140
  rw [sensNum_list]
  exact ns_read arg1 harg1 arg2 harg2 arg3 harg3 arg5 harg5 arg6 harg6 arg7 harg7 arg8 harg8 x0 x1 x2 x4 x5 x6 x7 arg19 0 inb_S16x512_S16x128_0_0 r u q hq

theorem ds_at_0 (r : Fin 16) (u : Fin 128) (q : Fin 512) (hq : q.val = 0 + u.val) :
    (kernelRun0_A.sl.v143 c arg1 harg1 arg2 harg2 arg3 harg3 arg5 harg5 arg6 harg6 arg7 harg7 arg20 x0 x1 x2 x4 x5 x6) (ix2 r u) = sensDen (sensOfK x4 x5 x6 x7) (rowInK x0 x1 x2 r) q := by
  unfold kernelRun0_A.sl.v143
  rw [sensDen_list]
  exact ds_read arg1 harg1 arg2 harg2 arg3 harg3 arg5 harg5 arg6 harg6 arg7 harg7 x0 x1 x2 x4 x5 x6 x7 arg20 0 inb_S16x512_S16x128_0_0 r u q hq

theorem ns_at_128 (r : Fin 16) (u : Fin 128) (q : Fin 512) (hq : q.val = 128 + u.val) :
    (kernelRun0_A.sl.v187 c arg1 harg1 arg2 harg2 arg3 harg3 arg5 harg5 arg6 harg6 arg7 harg7 arg8 harg8 arg19 x0 x1 x2 x4 x5 x6 x7) (ix2 r u) = sensNum (sensOfK x4 x5 x6 x7) (rowInK x0 x1 x2 r) q := by
  unfold kernelRun0_A.sl.v187
  rw [sensNum_list]
  exact ns_read arg1 harg1 arg2 harg2 arg3 harg3 arg5 harg5 arg6 harg6 arg7 harg7 arg8 harg8 x0 x1 x2 x4 x5 x6 x7 arg19 128 inb_S16x512_S16x128_0_128 r u q hq

theorem ds_at_128 (r : Fin 16) (u : Fin 128) (q : Fin 512) (hq : q.val = 128 + u.val) :
    (kernelRun0_A.sl.v190 c arg1 harg1 arg2 harg2 arg3 harg3 arg5 harg5 arg6 harg6 arg7 harg7 arg20 x0 x1 x2 x4 x5 x6) (ix2 r u) = sensDen (sensOfK x4 x5 x6 x7) (rowInK x0 x1 x2 r) q := by
  unfold kernelRun0_A.sl.v190
  rw [sensDen_list]
  exact ds_read arg1 harg1 arg2 harg2 arg3 harg3 arg5 harg5 arg6 harg6 arg7 harg7 x0 x1 x2 x4 x5 x6 x7 arg20 128 inb_S16x512_S16x128_0_128 r u q hq

theorem ns_at_256 (r : Fin 16) (u : Fin 128) (q : Fin 512) (hq : q.val = 256 + u.val) :
    (kernelRun0_A.sl.v234 c arg1 harg1 arg2 harg2 arg3 harg3 arg5 harg5 arg6 harg6 arg7 harg7 arg8 harg8 arg19 x0 x1 x2 x4 x5 x6 x7) (ix2 r u) = sensNum (sensOfK x4 x5 x6 x7) (rowInK x0 x1 x2 r) q := by
  unfold kernelRun0_A.sl.v234
  rw [sensNum_list]
  exact ns_read arg1 harg1 arg2 harg2 arg3 harg3 arg5 harg5 arg6 harg6 arg7 harg7 arg8 harg8 x0 x1 x2 x4 x5 x6 x7 arg19 256 inb_S16x512_S16x128_0_256 r u q hq

theorem ds_at_256 (r : Fin 16) (u : Fin 128) (q : Fin 512) (hq : q.val = 256 + u.val) :
    (kernelRun0_A.sl.v237 c arg1 harg1 arg2 harg2 arg3 harg3 arg5 harg5 arg6 harg6 arg7 harg7 arg20 x0 x1 x2 x4 x5 x6) (ix2 r u) = sensDen (sensOfK x4 x5 x6 x7) (rowInK x0 x1 x2 r) q := by
  unfold kernelRun0_A.sl.v237
  rw [sensDen_list]
  exact ds_read arg1 harg1 arg2 harg2 arg3 harg3 arg5 harg5 arg6 harg6 arg7 harg7 x0 x1 x2 x4 x5 x6 x7 arg20 256 inb_S16x512_S16x128_0_256 r u q hq

theorem ns_at_384 (r : Fin 16) (u : Fin 128) (q : Fin 512) (hq : q.val = 384 + u.val) :
    (kernelRun0_A.sl.v281 c arg1 harg1 arg2 harg2 arg3 harg3 arg5 harg5 arg6 harg6 arg7 harg7 arg8 harg8 arg19 x0 x1 x2 x4 x5 x6 x7) (ix2 r u) = sensNum (sensOfK x4 x5 x6 x7) (rowInK x0 x1 x2 r) q := by
  unfold kernelRun0_A.sl.v281
  rw [sensNum_list]
  exact ns_read arg1 harg1 arg2 harg2 arg3 harg3 arg5 harg5 arg6 harg6 arg7 harg7 arg8 harg8 x0 x1 x2 x4 x5 x6 x7 arg19 384 inb_S16x512_S16x128_0_384 r u q hq

theorem ds_at_384 (r : Fin 16) (u : Fin 128) (q : Fin 512) (hq : q.val = 384 + u.val) :
    (kernelRun0_A.sl.v284 c arg1 harg1 arg2 harg2 arg3 harg3 arg5 harg5 arg6 harg6 arg7 harg7 arg20 x0 x1 x2 x4 x5 x6) (ix2 r u) = sensDen (sensOfK x4 x5 x6 x7) (rowInK x0 x1 x2 r) q := by
  unfold kernelRun0_A.sl.v284
  rw [sensDen_list]
  exact ds_read arg1 harg1 arg2 harg2 arg3 harg3 arg5 harg5 arg6 harg6 arg7 harg7 x0 x1 x2 x4 x5 x6 x7 arg20 384 inb_S16x512_S16x128_0_384 r u q hq

/-! ## One round: the second state buffer after its four tile stores, read whole -/

/-- After the four tile stores of a step from the state `vprev`, the buffer read whole holds, in row `r`, the specification's
    step of row `r` of `vprev` — whatever the buffer held before. -/
theorem step_read (M : Memref sig .tc .vmem S16x512 .f32) (vprev : FVec Ideal S16x512 .f32)
    (L : List (View.Piece (Elt Ideal) S16x512 .f32)) (r : Fin 16) (q : Fin 512) :
    M.view.readCov (⟨Rect.unit (s := S16x512) ![0, 384] S16x128.size inb_S16x512_S16x128_0_384, tileStep ![0, 384] slices_S16x512_o0_384_S16x128 vprev (View.readAt (Elt Ideal) arg9.view (Rect.unit (s := S512x512) ![0, 384] S512x128.size inb_S512x512_S512x128_0_384).toLoadRect (harg9.unread x8)) (View.readAt (Elt Ideal) arg10.view (Rect.unit (s := S512x512) ![0, 384] S512x128.size inb_S512x512_S512x128_0_384).toLoadRect (harg10.unread x9)) (View.readAt (Elt Ideal) arg11.view (Rect.unit (s := S512x512) ![0, 384] S512x128.size inb_S512x512_S512x128_0_384).toLoadRect (harg11.unread x10)) (View.readAt (Elt Ideal) arg12.view (Rect.unit (s := S512x512) ![0, 384] S512x128.size inb_S512x512_S512x128_0_384).toLoadRect (harg12.unread x11)) (kernelRun0_A.sl.v281 c arg1 harg1 arg2 harg2 arg3 harg3 arg5 harg5 arg6 harg6 arg7 harg7 arg8 harg8 arg19 x0 x1 x2 x4 x5 x6 x7) (kernelRun0_A.sl.v284 c arg1 harg1 arg2 harg2 arg3 harg3 arg5 harg5 arg6 harg6 arg7 harg7 arg20 x0 x1 x2 x4 x5 x6) (View.readAt (Elt Ideal) arg15.view (Rect.unit (s := S512) ![384] S128.size inb_S512_S128_384).toLoadRect (harg15.unread x14)) (View.readAt (Elt Ideal) arg14.view (Rect.unit (s := S512) ![384] S128.size inb_S512_S128_384).toLoadRect (harg14.unread x13)) (View.readAt (Elt Ideal) arg13.view (Rect.unit (s := S512) ![384] S128.size inb_S512_S128_384).toLoadRect (harg13.unread x12))⟩ ::
        ⟨Rect.unit (s := S16x512) ![0, 256] S16x128.size inb_S16x512_S16x128_0_256, tileStep ![0, 256] slices_S16x512_o0_256_S16x128 vprev (View.readAt (Elt Ideal) arg9.view (Rect.unit (s := S512x512) ![0, 256] S512x128.size inb_S512x512_S512x128_0_256).toLoadRect (harg9.unread x8)) (View.readAt (Elt Ideal) arg10.view (Rect.unit (s := S512x512) ![0, 256] S512x128.size inb_S512x512_S512x128_0_256).toLoadRect (harg10.unread x9)) (View.readAt (Elt Ideal) arg11.view (Rect.unit (s := S512x512) ![0, 256] S512x128.size inb_S512x512_S512x128_0_256).toLoadRect (harg11.unread x10)) (View.readAt (Elt Ideal) arg12.view (Rect.unit (s := S512x512) ![0, 256] S512x128.size inb_S512x512_S512x128_0_256).toLoadRect (harg12.unread x11)) (kernelRun0_A.sl.v234 c arg1 harg1 arg2 harg2 arg3 harg3 arg5 harg5 arg6 harg6 arg7 harg7 arg8 harg8 arg19 x0 x1 x2 x4 x5 x6 x7) (kernelRun0_A.sl.v237 c arg1 harg1 arg2 harg2 arg3 harg3 arg5 harg5 arg6 harg6 arg7 harg7 arg20 x0 x1 x2 x4 x5 x6) (View.readAt (Elt Ideal) arg15.view (Rect.unit (s := S512) ![256] S128.size inb_S512_S128_256).toLoadRect (harg15.unread x14)) (View.readAt (Elt Ideal) arg14.view (Rect.unit (s := S512) ![256] S128.size inb_S512_S128_256).toLoadRect (harg14.unread x13)) (View.readAt (Elt Ideal) arg13.view (Rect.unit (s := S512) ![256] S128.size inb_S512_S128_256).toLoadRect (harg13.unread x12))⟩ ::
        ⟨Rect.unit (s := S16x512) ![0, 128] S16x128.size inb_S16x512_S16x128_0_128, tileStep ![0, 128] slices_S16x512_o0_128_S16x128 vprev (View.readAt (Elt Ideal) arg9.view (Rect.unit (s := S512x512) ![0, 128] S512x128.size inb_S512x512_S512x128_0_128).toLoadRect (harg9.unread x8)) (View.readAt (Elt Ideal) arg10.view (Rect.unit (s := S512x512) ![0, 128] S512x128.size inb_S512x512_S512x128_0_128).toLoadRect (harg10.unread x9)) (View.readAt (Elt Ideal) arg11.view (Rect.unit (s := S512x512) ![0, 128] S512x128.size inb_S512x512_S512x128_0_128).toLoadRect (harg11.unread x10)) (View.readAt (Elt Ideal) arg12.view (Rect.unit (s := S512x512) ![0, 128] S512x128.size inb_S512x512_S512x128_0_128).toLoadRect (harg12.unread x11)) (kernelRun0_A.sl.v187 c arg1 harg1 arg2 harg2 arg3 harg3 arg5 harg5 arg6 harg6 arg7 harg7 arg8 harg8 arg19 x0 x1 x2 x4 x5 x6 x7) (kernelRun0_A.sl.v190 c arg1 harg1 arg2 harg2 arg3 harg3 arg5 harg5 arg6 harg6 arg7 harg7 arg20 x0 x1 x2 x4 x5 x6) (View.readAt (Elt Ideal) arg15.view (Rect.unit (s := S512) ![128] S128.size inb_S512_S128_128).toLoadRect (harg15.unread x14)) (View.readAt (Elt Ideal) arg14.view (Rect.unit (s := S512) ![128] S128.size inb_S512_S128_128).toLoadRect (harg14.unread x13)) (View.readAt (Elt Ideal) arg13.view (Rect.unit (s := S512) ![128] S128.size inb_S512_S128_128).toLoadRect (harg13.unread x12))⟩ ::
        ⟨Rect.unit (s := S16x512) ![0, 0] S16x128.size inb_S16x512_S16x128_0_0, tileStep ![0, 0] slices_S16x512_o0_0_S16x128 vprev (View.readAt (Elt Ideal) arg9.view (Rect.unit (s := S512x512) ![0, 0] S512x128.size inb_S512x512_S512x128_0_0).toLoadRect (harg9.unread x8)) (View.readAt (Elt Ideal) arg10.view (Rect.unit (s := S512x512) ![0, 0] S512x128.size inb_S512x512_S512x128_0_0).toLoadRect (harg10.unread x9)) (View.readAt (Elt Ideal) arg11.view (Rect.unit (s := S512x512) ![0, 0] S512x128.size inb_S512x512_S512x128_0_0).toLoadRect (harg11.unread x10)) (View.readAt (Elt Ideal) arg12.view (Rect.unit (s := S512x512) ![0, 0] S512x128.size inb_S512x512_S512x128_0_0).toLoadRect (harg12.unread x11)) (kernelRun0_A.sl.v140 c arg1 harg1 arg2 harg2 arg3 harg3 arg5 harg5 arg6 harg6 arg7 harg7 arg8 harg8 arg19 x0 x1 x2 x4 x5 x6 x7) (kernelRun0_A.sl.v143 c arg1 harg1 arg2 harg2 arg3 harg3 arg5 harg5 arg6 harg6 arg7 harg7 arg20 x0 x1 x2 x4 x5 x6) (View.readAt (Elt Ideal) arg15.view (Rect.unit (s := S512) ![0] S128.size inb_S512_S128_0).toLoadRect (harg15.unread x14)) (View.readAt (Elt Ideal) arg14.view (Rect.unit (s := S512) ![0] S128.size inb_S512_S128_0).toLoadRect (harg14.unread x13)) (View.readAt (Elt Ideal) arg13.view (Rect.unit (s := S512) ![0] S128.size inb_S512_S128_0).toLoadRect (harg13.unread x12))⟩ :: L)
        (Rect.unit (s := S16x512) ![0, 0] S16x512.size inb_S16x512_S16x512_0_0).toLoadRect (ix2 r q)
      = step (recOfK x8 x9 x10 x11 x12 x13 x14) (sensNum (sensOfK x4 x5 x6 x7) (rowInK x0 x1 x2 r)) (sensDen (sensOfK x4 x5 x6 x7) (rowInK x0 x1 x2 r)) (fun j => vprev (ix2 r j)) q :=
  read_tiles M _ _ _ _ L
    (fun r q => step (recOfK x8 x9 x10 x11 x12 x13 x14) (sensNum (sensOfK x4 x5 x6 x7) (rowInK x0 x1 x2 r)) (sensDen (sensOfK x4 x5 x6 x7) (rowInK x0 x1 x2 r)) (fun j => vprev (ix2 r j)) q)
    (fun r u q hq => tile_is_step arg9 harg9 arg10 harg10 arg11 harg11 arg12 harg12 arg13 harg13 arg14 harg14 arg15 harg15 x8 x9 x10 x11 x12 x13 x14 0 slices_S16x512_o0_0_S16x128 inb_S512x512_S512x128_0_0 inb_S512_S128_0 vprev _ _ r u q hq _ _ (ns_at_0 c arg1 harg1 arg2 harg2 arg3 harg3 arg5 harg5 arg6 harg6 arg7 harg7 arg8 harg8 arg19 x0 x1 x2 x4 x5 x6 x7 r u q hq) (ds_at_0 c arg1 harg1 arg2 harg2 arg3 harg3 arg5 harg5 arg6 harg6 arg7 harg7 arg20 x0 x1 x2 x4 x5 x6 x7 r u q hq))
    (fun r u q hq => tile_is_step arg9 harg9 arg10 harg10 arg11 harg11 arg12 harg12 arg13 harg13 arg14 harg14 arg15 harg15 x8 x9 x10 x11 x12 x13 x14 128 slices_S16x512_o0_128_S16x128 inb_S512x512_S512x128_0_128 inb_S512_S128_128 vprev _ _ r u q hq _ _ (ns_at_128 c arg1 harg1 arg2 harg2 arg3 harg3 arg5 harg5 arg6 harg6 arg7 harg7 arg8 harg8 arg19 x0 x1 x2 x4 x5 x6 x7 r u q hq) (ds_at_128 c arg1 harg1 arg2 harg2 arg3 harg3 arg5 harg5 arg6 harg6 arg7 harg7 arg20 x0 x1 x2 x4 x5 x6 x7 r u q hq))
    (fun r u q hq => tile_is_step arg9 harg9 arg10 harg10 arg11 harg11 arg12 harg12 arg13 harg13 arg14 harg14 arg15 harg15 x8 x9 x10 x11 x12 x13 x14 256 slices_S16x512_o0_256_S16x128 inb_S512x512_S512x128_0_256 inb_S512_S128_256 vprev _ _ r u q hq _ _ (ns_at_256 c arg1 harg1 arg2 harg2 arg3 harg3 arg5 harg5 arg6 harg6 arg7 harg7 arg8 harg8 arg19 x0 x1 x2 x4 x5 x6 x7 r u q hq) (ds_at_256 c arg1 harg1 arg2 harg2 arg3 harg3 arg5 harg5 arg6 harg6 arg7 harg7 arg20 x0 x1 x2 x4 x5 x6 x7 r u q hq))
    (fun r u q hq => tile_is_step arg9 harg9 arg10 harg10 arg11 harg11 arg12 harg12 arg13 harg13 arg14 harg14 arg15 harg15 x8 x9 x10 x11 x12 x13 x14 384 slices_S16x512_o0_384_S16x128 inb_S512x512_S512x128_0_384 inb_S512_S128_384 vprev _ _ r u q hq _ _ (ns_at_384 c arg1 harg1 arg2 harg2 arg3 harg3 arg5 harg5 arg6 harg6 arg7 harg7 arg8 harg8 arg19 x0 x1 x2 x4 x5 x6 x7 r u q hq) (ds_at_384 c arg1 harg1 arg2 harg2 arg3 harg3 arg5 harg5 arg6 harg6 arg7 harg7 arg20 x0 x1 x2 x4 x5 x6 x7 r u q hq))
    r q

/-! ## The six rounds -/

/-- After round 1 the state buffer holds, in row `r`, one step of row `r` of what it held before the round. -/
theorem state1 (r : Fin 16) (q : Fin 512) :
    (kernelRun0_A.sl.v312 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r q)
      = step (recOfK x8 x9 x10 x11 x12 x13 x14) (sensNum (sensOfK x4 x5 x6 x7) (rowInK x0 x1 x2 r)) (sensDen (sensOfK x4 x5 x6 x7) (rowInK x0 x1 x2 r)) (fun j => (kernelRun0_A.sl.v119 c arg4 harg4 arg17 x3) (ix2 r j)) q := by
  unfold kernelRun0_A.sl.v312 kernelRun0_A.sl.HS0_2
  rw [View.readCov_cons_toLoadRect]
  refine (congrFun (shapeCast_self (kernelRun0_A.sl.v308 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) shapeCasts_S16x512_S16x512) (ix2 r q)).trans ?_
  unfold kernelRun0_A.sl.v308
  rw [step1_list]
  exact step_read c arg1 harg1 arg2 harg2 arg3 harg3 arg5 harg5 arg6 harg6 arg7 harg7 arg8 harg8 arg9 harg9 arg10 harg10 arg11 harg11 arg12 harg12 arg13 harg13 arg14 harg14 arg15 harg15 arg19 arg20 x0 x1 x2 x4 x5 x6 x7 x8 x9 x10 x11 x12 x13 x14 arg18 (kernelRun0_A.sl.v119 c arg4 harg4 arg17 x3) [] r q

/-- The second state buffer after the four tile stores of step 2: four more tiles on top of the earlier ones. -/
theorem step2_list : kernelRun0_A.sl.HS1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14
    = ⟨Rect.unit (s := S16x512) ![0, 384] S16x128.size inb_S16x512_S16x128_0_384, tileStep ![0, 384] slices_S16x512_o0_384_S16x128 (kernelRun0_A.sl.v312 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 384] S512x128.size inb_S512x512_S512x128_0_384).toLoadRect (harg9.unread x8)) (View.readAt (Elt Ideal) arg10.view (Rect.unit (s := S512x512) ![0, 384] S512x128.size inb_S512x512_S512x128_0_384).toLoadRect (harg10.unread x9)) (View.readAt (Elt Ideal) arg11.view (Rect.unit (s := S512x512) ![0, 384] S512x128.size inb_S512x512_S512x128_0_384).toLoadRect (harg11.unread x10)) (View.readAt (Elt Ideal) arg12.view (Rect.unit (s := S512x512) ![0, 384] S512x128.size inb_S512x512_S512x128_0_384).toLoadRect (harg12.unread x11)) (kernelRun0_A.sl.v281 c arg1 harg1 arg2 harg2 arg3 harg3 arg5 harg5 arg6 harg6 arg7 harg7 arg8 harg8 arg19 x0 x1 x2 x4 x5 x6 x7) (kernelRun0_A.sl.v284 c arg1 harg1 arg2 harg2 arg3 harg3 arg5 harg5 arg6 harg6 arg7 harg7 arg20 x0 x1 x2 x4 x5 x6) (View.readAt (Elt Ideal) arg15.view (Rect.unit (s := S512) ![384] S128.size inb_S512_S128_384).toLoadRect (harg15.unread x14)) (View.readAt (Elt Ideal) arg14.view (Rect.unit (s := S512) ![384] S128.size inb_S512_S128_384).toLoadRect (harg14.unread x13)) (View.readAt (Elt Ideal) arg13.view (Rect.unit (s := S512) ![384] S128.size inb_S512_S128_384).toLoadRect (harg13.unread x12))⟩ ::
      ⟨Rect.unit (s := S16x512) ![0, 256] S16x128.size inb_S16x512_S16x128_0_256, tileStep ![0, 256] slices_S16x512_o0_256_S16x128 (kernelRun0_A.sl.v312 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 256] S512x128.size inb_S512x512_S512x128_0_256).toLoadRect (harg9.unread x8)) (View.readAt (Elt Ideal) arg10.view (Rect.unit (s := S512x512) ![0, 256] S512x128.size inb_S512x512_S512x128_0_256).toLoadRect (harg10.unread x9)) (View.readAt (Elt Ideal) arg11.view (Rect.unit (s := S512x512) ![0, 256] S512x128.size inb_S512x512_S512x128_0_256).toLoadRect (harg11.unread x10)) (View.readAt (Elt Ideal) arg12.view (Rect.unit (s := S512x512) ![0, 256] S512x128.size inb_S512x512_S512x128_0_256).toLoadRect (harg12.unread x11)) (kernelRun0_A.sl.v234 c arg1 harg1 arg2 harg2 arg3 harg3 arg5 harg5 arg6 harg6 arg7 harg7 arg8 harg8 arg19 x0 x1 x2 x4 x5 x6 x7) (kernelRun0_A.sl.v237 c arg1 harg1 arg2 harg2 arg3 harg3 arg5 harg5 arg6 harg6 arg7 harg7 arg20 x0 x1 x2 x4 x5 x6) (View.readAt (Elt Ideal) arg15.view (Rect.unit (s := S512) ![256] S128.size inb_S512_S128_256).toLoadRect (harg15.unread x14)) (View.readAt (Elt Ideal) arg14.view (Rect.unit (s := S512) ![256] S128.size inb_S512_S128_256).toLoadRect (harg14.unread x13)) (View.readAt (Elt Ideal) arg13.view (Rect.unit (s := S512) ![256] S128.size inb_S512_S128_256).toLoadRect (harg13.unread x12))⟩ ::
      ⟨Rect.unit (s := S16x512) ![0, 128] S16x128.size inb_S16x512_S16x128_0_128, tileStep ![0, 128] slices_S16x512_o0_128_S16x128 (kernelRun0_A.sl.v312 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 128] S512x128.size inb_S512x512_S512x128_0_128).toLoadRect (harg9.unread x8)) (View.readAt (Elt Ideal) arg10.view (Rect.unit (s := S512x512) ![0, 128] S512x128.size inb_S512x512_S512x128_0_128).toLoadRect (harg10.unread x9)) (View.readAt (Elt Ideal) arg11.view (Rect.unit (s := S512x512) ![0, 128] S512x128.size inb_S512x512_S512x128_0_128).toLoadRect (harg11.unread x10)) (View.readAt (Elt Ideal) arg12.view (Rect.unit (s := S512x512) ![0, 128] S512x128.size inb_S512x512_S512x128_0_128).toLoadRect (harg12.unread x11)) (kernelRun0_A.sl.v187 c arg1 harg1 arg2 harg2 arg3 harg3 arg5 harg5 arg6 harg6 arg7 harg7 arg8 harg8 arg19 x0 x1 x2 x4 x5 x6 x7) (kernelRun0_A.sl.v190 c arg1 harg1 arg2 harg2 arg3 harg3 arg5 harg5 arg6 harg6 arg7 harg7 arg20 x0 x1 x2 x4 x5 x6) (View.readAt (Elt Ideal) arg15.view (Rect.unit (s := S512) ![128] S128.size inb_S512_S128_128).toLoadRect (harg15.unread x14)) (View.readAt (Elt Ideal) arg14.view (Rect.unit (s := S512) ![128] S128.size inb_S512_S128_128).toLoadRect (harg14.unread x13)) (View.readAt (Elt Ideal) arg13.view (Rect.unit (s := S512) ![128] S128.size inb_S512_S128_128).toLoadRect (harg13.unread x12))⟩ ::
      ⟨Rect.unit (s := S16x512) ![0, 0] S16x128.size inb_S16x512_S16x128_0_0, tileStep ![0, 0] slices_S16x512_o0_0_S16x128 (kernelRun0_A.sl.v312 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 0] S512x128.size inb_S512x512_S512x128_0_0).toLoadRect (harg9.unread x8)) (View.readAt (Elt Ideal) arg10.view (Rect.unit (s := S512x512) ![0, 0] S512x128.size inb_S512x512_S512x128_0_0).toLoadRect (harg10.unread x9)) (View.readAt (Elt Ideal) arg11.view (Rect.unit (s := S512x512) ![0, 0] S512x128.size inb_S512x512_S512x128_0_0).toLoadRect (harg11.unread x10)) (View.readAt (Elt Ideal) arg12.view (Rect.unit (s := S512x512) ![0, 0] S512x128.size inb_S512x512_S512x128_0_0).toLoadRect (harg12.unread x11)) (kernelRun0_A.sl.v140 c arg1 harg1 arg2 harg2 arg3 harg3 arg5 harg5 arg6 harg6 arg7 harg7 arg8 harg8 arg19 x0 x1 x2 x4 x5 x6 x7) (kernelRun0_A.sl.v143 c arg1 harg1 arg2 harg2 arg3 harg3 arg5 harg5 arg6 harg6 arg7 harg7 arg20 x0 x1 x2 x4 x5 x6) (View.readAt (Elt Ideal) arg15.view (Rect.unit (s := S512) ![0] S128.size inb_S512_S128_0).toLoadRect (harg15.unread x14)) (View.readAt (Elt Ideal) arg14.view (Rect.unit (s := S512) ![0] S128.size inb_S512_S128_0).toLoadRect (harg14.unread x13)) (View.readAt (Elt Ideal) arg13.view (Rect.unit (s := S512) ![0] S128.size inb_S512_S128_0).toLoadRect (harg13.unread x12))⟩ ::
      kernelRun0_A.sl.HS1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg19 arg20 x0 x1 x2 x3 x4 x5 x6 x7 x8 x9 x10 x11 x12 x13 x14 := rfl

/-- After round 2 the state buffer holds, in row `r`, one step of row `r` of what it held before the round. -/
theorem state2 (r : Fin 16) (q : Fin 512) :
    (kernelRun0_A.sl.v505 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r q)
      = step (recOfK x8 x9 x10 x11 x12 x13 x14) (sensNum (sensOfK x4 x5 x6 x7) (rowInK x0 x1 x2 r)) (sensDen (sensOfK x4 x5 x6 x7) (rowInK x0 x1 x2 r)) (fun j => (kernelRun0_A.sl.v312 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r j)) q := by
  unfold kernelRun0_A.sl.v505 kernelRun0_A.sl.HS0_3
  rw [View.readCov_cons_toLoadRect]
  refine (congrFun (shapeCast_self (kernelRun0_A.sl.v501 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) shapeCasts_S16x512_S16x512) (ix2 r q)).trans ?_
  unfold kernelRun0_A.sl.v501
  rw [step2_list]
  exact step_read c arg1 harg1 arg2 harg2 arg3 harg3 arg5 harg5 arg6 harg6 arg7 harg7 arg8 harg8 arg9 harg9 arg10 harg10 arg11 harg11 arg12 harg12 arg13 harg13 arg14 harg14 arg15 harg15 arg19 arg20 x0 x1 x2 x4 x5 x6 x7 x8 x9 x10 x11 x12 x13 x14 arg18 (kernelRun0_A.sl.v312 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (kernelRun0_A.sl.HS1_4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg19 arg20 x0 x1 x2 x3 x4 x5 x6 x7 x8 x9 x10 x11 x12 x13 x14) r q

/-- The second state buffer after the four tile stores of step 3: four more tiles on top of the earlier ones. -/
theorem step3_list : kernelRun0_A.sl.HS1_12 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14
    = ⟨Rect.unit (s := S16x512) ![0, 384] S16x128.size inb_S16x512_S16x128_0_384, tileStep ![0, 384] slices_S16x512_o0_384_S16x128 (kernelRun0_A.sl.v505 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 384] S512x128.size inb_S512x512_S512x128_0_384).toLoadRect (harg9.unread x8)) (View.readAt (Elt Ideal) arg10.view (Rect.unit (s := S512x512) ![0, 384] S512x128.size inb_S512x512_S512x128_0_384).toLoadRect (harg10.unread x9)) (View.readAt (Elt Ideal) arg11.view (Rect.unit (s := S512x512) ![0, 384] S512x128.size inb_S512x512_S512x128_0_384).toLoadRect (harg11.unread x10)) (View.readAt (Elt Ideal) arg12.view (Rect.unit (s := S512x512) ![0, 384] S512x128.size inb_S512x512_S512x128_0_384).toLoadRect (harg12.unread x11)) (kernelRun0_A.sl.v281 c arg1 harg1 arg2 harg2 arg3 harg3 arg5 harg5 arg6 harg6 arg7 harg7 arg8 harg8 arg19 x0 x1 x2 x4 x5 x6 x7) (kernelRun0_A.sl.v284 c arg1 harg1 arg2 harg2 arg3 harg3 arg5 harg5 arg6 harg6 arg7 harg7 arg20 x0 x1 x2 x4 x5 x6) (View.readAt (Elt Ideal) arg15.view (Rect.unit (s := S512) ![384] S128.size inb_S512_S128_384).toLoadRect (harg15.unread x14)) (View.readAt (Elt Ideal) arg14.view (Rect.unit (s := S512) ![384] S128.size inb_S512_S128_384).toLoadRect (harg14.unread x13)) (View.readAt (Elt Ideal) arg13.view (Rect.unit (s := S512) ![384] S128.size inb_S512_S128_384).toLoadRect (harg13.unread x12))⟩ ::
      ⟨Rect.unit (s := S16x512) ![0, 256] S16x128.size inb_S16x512_S16x128_0_256, tileStep ![0, 256] slices_S16x512_o0_256_S16x128 (kernelRun0_A.sl.v505 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 256] S512x128.size inb_S512x512_S512x128_0_256).toLoadRect (harg9.unread x8)) (View.readAt (Elt Ideal) arg10.view (Rect.unit (s := S512x512) ![0, 256] S512x128.size inb_S512x512_S512x128_0_256).toLoadRect (harg10.unread x9)) (View.readAt (Elt Ideal) arg11.view (Rect.unit (s := S512x512) ![0, 256] S512x128.size inb_S512x512_S512x128_0_256).toLoadRect (harg11.unread x10)) (View.readAt (Elt Ideal) arg12.view (Rect.unit (s := S512x512) ![0, 256] S512x128.size inb_S512x512_S512x128_0_256).toLoadRect (harg12.unread x11)) (kernelRun0_A.sl.v234 c arg1 harg1 arg2 harg2 arg3 harg3 arg5 harg5 arg6 harg6 arg7 harg7 arg8 harg8 arg19 x0 x1 x2 x4 x5 x6 x7) (kernelRun0_A.sl.v237 c arg1 harg1 arg2 harg2 arg3 harg3 arg5 harg5 arg6 harg6 arg7 harg7 arg20 x0 x1 x2 x4 x5 x6) (View.readAt (Elt Ideal) arg15.view (Rect.unit (s := S512) ![256] S128.size inb_S512_S128_256).toLoadRect (harg15.unread x14)) (View.readAt (Elt Ideal) arg14.view (Rect.unit (s := S512) ![256] S128.size inb_S512_S128_256).toLoadRect (harg14.unread x13)) (View.readAt (Elt Ideal) arg13.view (Rect.unit (s := S512) ![256] S128.size inb_S512_S128_256).toLoadRect (harg13.unread x12))⟩ ::
      ⟨Rect.unit (s := S16x512) ![0, 128] S16x128.size inb_S16x512_S16x128_0_128, tileStep ![0, 128] slices_S16x512_o0_128_S16x128 (kernelRun0_A.sl.v505 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 128] S512x128.size inb_S512x512_S512x128_0_128).toLoadRect (harg9.unread x8)) (View.readAt (Elt Ideal) arg10.view (Rect.unit (s := S512x512) ![0, 128] S512x128.size inb_S512x512_S512x128_0_128).toLoadRect (harg10.unread x9)) (View.readAt (Elt Ideal) arg11.view (Rect.unit (s := S512x512) ![0, 128] S512x128.size inb_S512x512_S512x128_0_128).toLoadRect (harg11.unread x10)) (View.readAt (Elt Ideal) arg12.view (Rect.unit (s := S512x512) ![0, 128] S512x128.size inb_S512x512_S512x128_0_128).toLoadRect (harg12.unread x11)) (kernelRun0_A.sl.v187 c arg1 harg1 arg2 harg2 arg3 harg3 arg5 harg5 arg6 harg6 arg7 harg7 arg8 harg8 arg19 x0 x1 x2 x4 x5 x6 x7) (kernelRun0_A.sl.v190 c arg1 harg1 arg2 harg2 arg3 harg3 arg5 harg5 arg6 harg6 arg7 harg7 arg20 x0 x1 x2 x4 x5 x6) (View.readAt (Elt Ideal) arg15.view (Rect.unit (s := S512) ![128] S128.size inb_S512_S128_128).toLoadRect (harg15.unread x14)) (View.readAt (Elt Ideal) arg14.view (Rect.unit (s := S512) ![128] S128.size inb_S512_S128_128).toLoadRect (harg14.unread x13)) (View.readAt (Elt Ideal) arg13.view (Rect.unit (s := S512) ![128] S128.size inb_S512_S128_128).toLoadRect (harg13.unread x12))⟩ ::
      ⟨Rect.unit (s := S16x512) ![0, 0] S16x128.size inb_S16x512_S16x128_0_0, tileStep ![0, 0] slices_S16x512_o0_0_S16x128 (kernelRun0_A.sl.v505 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 0] S512x128.size inb_S512x512_S512x128_0_0).toLoadRect (harg9.unread x8)) (View.readAt (Elt Ideal) arg10.view (Rect.unit (s := S512x512) ![0, 0] S512x128.size inb_S512x512_S512x128_0_0).toLoadRect (harg10.unread x9)) (View.readAt (Elt Ideal) arg11.view (Rect.unit (s := S512x512) ![0, 0] S512x128.size inb_S512x512_S512x128_0_0).toLoadRect (harg11.unread x10)) (View.readAt (Elt Ideal) arg12.view (Rect.unit (s := S512x512) ![0, 0] S512x128.size inb_S512x512_S512x128_0_0).toLoadRect (harg12.unread x11)) (kernelRun0_A.sl.v140 c arg1 harg1 arg2 harg2 arg3 harg3 arg5 harg5 arg6 harg6 arg7 harg7 arg8 harg8 arg19 x0 x1 x2 x4 x5 x6 x7) (kernelRun0_A.sl.v143 c arg1 harg1 arg2 harg2 arg3 harg3 arg5 harg5 arg6 harg6 arg7 harg7 arg20 x0 x1 x2 x4 x5 x6) (View.readAt (Elt Ideal) arg15.view (Rect.unit (s := S512) ![0] S128.size inb_S512_S128_0).toLoadRect (harg15.unread x14)) (View.readAt (Elt Ideal) arg14.view (Rect.unit (s := S512) ![0] S128.size inb_S512_S128_0).toLoadRect (harg14.unread x13)) (View.readAt (Elt Ideal) arg13.view (Rect.unit (s := S512) ![0] S128.size inb_S512_S128_0).toLoadRect (harg13.unread x12))⟩ ::
      kernelRun0_A.sl.HS1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 := rfl

/-- After round 3 the state buffer holds, in row `r`, one step of row `r` of what it held before the round. -/
theorem state3 (r : Fin 16) (q : Fin 512) :
    (kernelRun0_A.sl.v698 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r q)
      = step (recOfK x8 x9 x10 x11 x12 x13 x14) (sensNum (sensOfK x4 x5 x6 x7) (rowInK x0 x1 x2 r)) (sensDen (sensOfK x4 x5 x6 x7) (rowInK x0 x1 x2 r)) (fun j => (kernelRun0_A.sl.v505 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r j)) q := by
  unfold kernelRun0_A.sl.v698 kernelRun0_A.sl.HS0_4
  rw [View.readCov_cons_toLoadRect]
  refine (congrFun (shapeCast_self (kernelRun0_A.sl.v694 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) shapeCasts_S16x512_S16x512) (ix2 r q)).trans ?_
  unfold kernelRun0_A.sl.v694
  rw [step3_list]
  exact step_read c arg1 harg1 arg2 harg2 arg3 harg3 arg5 harg5 arg6 harg6 arg7 harg7 arg8 harg8 arg9 harg9 arg10 harg10 arg11 harg11 arg12 harg12 arg13 harg13 arg14 harg14 arg15 harg15 arg19 arg20 x0 x1 x2 x4 x5 x6 x7 x8 x9 x10 x11 x12 x13 x14 arg18 (kernelRun0_A.sl.v505 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (kernelRun0_A.sl.HS1_8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) r q

/-- The second state buffer after the four tile stores of step 4: four more tiles on top of the earlier ones. -/
theorem step4_list : kernelRun0_A.sl.HS1_16 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14
    = ⟨Rect.unit (s := S16x512) ![0, 384] S16x128.size inb_S16x512_S16x128_0_384, tileStep ![0, 384] slices_S16x512_o0_384_S16x128 (kernelRun0_A.sl.v698 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 384] S512x128.size inb_S512x512_S512x128_0_384).toLoadRect (harg9.unread x8)) (View.readAt (Elt Ideal) arg10.view (Rect.unit (s := S512x512) ![0, 384] S512x128.size inb_S512x512_S512x128_0_384).toLoadRect (harg10.unread x9)) (View.readAt (Elt Ideal) arg11.view (Rect.unit (s := S512x512) ![0, 384] S512x128.size inb_S512x512_S512x128_0_384).toLoadRect (harg11.unread x10)) (View.readAt (Elt Ideal) arg12.view (Rect.unit (s := S512x512) ![0, 384] S512x128.size inb_S512x512_S512x128_0_384).toLoadRect (harg12.unread x11)) (kernelRun0_A.sl.v281 c arg1 harg1 arg2 harg2 arg3 harg3 arg5 harg5 arg6 harg6 arg7 harg7 arg8 harg8 arg19 x0 x1 x2 x4 x5 x6 x7) (kernelRun0_A.sl.v284 c arg1 harg1 arg2 harg2 arg3 harg3 arg5 harg5 arg6 harg6 arg7 harg7 arg20 x0 x1 x2 x4 x5 x6) (View.readAt (Elt Ideal) arg15.view (Rect.unit (s := S512) ![384] S128.size inb_S512_S128_384).toLoadRect (harg15.unread x14)) (View.readAt (Elt Ideal) arg14.view (Rect.unit (s := S512) ![384] S128.size inb_S512_S128_384).toLoadRect (harg14.unread x13)) (View.readAt (Elt Ideal) arg13.view (Rect.unit (s := S512) ![384] S128.size inb_S512_S128_384).toLoadRect (harg13.unread x12))⟩ ::
      ⟨Rect.unit (s := S16x512) ![0, 256] S16x128.size inb_S16x512_S16x128_0_256, tileStep ![0, 256] slices_S16x512_o0_256_S16x128 (kernelRun0_A.sl.v698 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 256] S512x128.size inb_S512x512_S512x128_0_256).toLoadRect (harg9.unread x8)) (View.readAt (Elt Ideal) arg10.view (Rect.unit (s := S512x512) ![0, 256] S512x128.size inb_S512x512_S512x128_0_256).toLoadRect (harg10.unread x9)) (View.readAt (Elt Ideal) arg11.view (Rect.unit (s := S512x512) ![0, 256] S512x128.size inb_S512x512_S512x128_0_256).toLoadRect (harg11.unread x10)) (View.readAt (Elt Ideal) arg12.view (Rect.unit (s := S512x512) ![0, 256] S512x128.size inb_S512x512_S512x128_0_256).toLoadRect (harg12.unread x11)) (kernelRun0_A.sl.v234 c arg1 harg1 arg2 harg2 arg3 harg3 arg5 harg5 arg6 harg6 arg7 harg7 arg8 harg8 arg19 x0 x1 x2 x4 x5 x6 x7) (kernelRun0_A.sl.v237 c arg1 harg1 arg2 harg2 arg3 harg3 arg5 harg5 arg6 harg6 arg7 harg7 arg20 x0 x1 x2 x4 x5 x6) (View.readAt (Elt Ideal) arg15.view (Rect.unit (s := S512) ![256] S128.size inb_S512_S128_256).toLoadRect (harg15.unread x14)) (View.readAt (Elt Ideal) arg14.view (Rect.unit (s := S512) ![256] S128.size inb_S512_S128_256).toLoadRect (harg14.unread x13)) (View.readAt (Elt Ideal) arg13.view (Rect.unit (s := S512) ![256] S128.size inb_S512_S128_256).toLoadRect (harg13.unread x12))⟩ ::
      ⟨Rect.unit (s := S16x512) ![0, 128] S16x128.size inb_S16x512_S16x128_0_128, tileStep ![0, 128] slices_S16x512_o0_128_S16x128 (kernelRun0_A.sl.v698 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 128] S512x128.size inb_S512x512_S512x128_0_128).toLoadRect (harg9.unread x8)) (View.readAt (Elt Ideal) arg10.view (Rect.unit (s := S512x512) ![0, 128] S512x128.size inb_S512x512_S512x128_0_128).toLoadRect (harg10.unread x9)) (View.readAt (Elt Ideal) arg11.view (Rect.unit (s := S512x512) ![0, 128] S512x128.size inb_S512x512_S512x128_0_128).toLoadRect (harg11.unread x10)) (View.readAt (Elt Ideal) arg12.view (Rect.unit (s := S512x512) ![0, 128] S512x128.size inb_S512x512_S512x128_0_128).toLoadRect (harg12.unread x11)) (kernelRun0_A.sl.v187 c arg1 harg1 arg2 harg2 arg3 harg3 arg5 harg5 arg6 harg6 arg7 harg7 arg8 harg8 arg19 x0 x1 x2 x4 x5 x6 x7) (kernelRun0_A.sl.v190 c arg1 harg1 arg2 harg2 arg3 harg3 arg5 harg5 arg6 harg6 arg7 harg7 arg20 x0 x1 x2 x4 x5 x6) (View.readAt (Elt Ideal) arg15.view (Rect.unit (s := S512) ![128] S128.size inb_S512_S128_128).toLoadRect (harg15.unread x14)) (View.readAt (Elt Ideal) arg14.view (Rect.unit (s := S512) ![128] S128.size inb_S512_S128_128).toLoadRect (harg14.unread x13)) (View.readAt (Elt Ideal) arg13.view (Rect.unit (s := S512) ![128] S128.size inb_S512_S128_128).toLoadRect (harg13.unread x12))⟩ ::
      ⟨Rect.unit (s := S16x512) ![0, 0] S16x128.size inb_S16x512_S16x128_0_0, tileStep ![0, 0] slices_S16x512_o0_0_S16x128 (kernelRun0_A.sl.v698 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 0] S512x128.size inb_S512x512_S512x128_0_0).toLoadRect (harg9.unread x8)) (View.readAt (Elt Ideal) arg10.view (Rect.unit (s := S512x512) ![0, 0] S512x128.size inb_S512x512_S512x128_0_0).toLoadRect (harg10.unread x9)) (View.readAt (Elt Ideal) arg11.view (Rect.unit (s := S512x512) ![0, 0] S512x128.size inb_S512x512_S512x128_0_0).toLoadRect (harg11.unread x10)) (View.readAt (Elt Ideal) arg12.view (Rect.unit (s := S512x512) ![0, 0] S512x128.size inb_S512x512_S512x128_0_0).toLoadRect (harg12.unread x11)) (kernelRun0_A.sl.v140 c arg1 harg1 arg2 harg2 arg3 harg3 arg5 harg5 arg6 harg6 arg7 harg7 arg8 harg8 arg19 x0 x1 x2 x4 x5 x6 x7) (kernelRun0_A.sl.v143 c arg1 harg1 arg2 harg2 arg3 harg3 arg5 harg5 arg6 harg6 arg7 harg7 arg20 x0 x1 x2 x4 x5 x6) (View.readAt (Elt Ideal) arg15.view (Rect.unit (s := S512) ![0] S128.size inb_S512_S128_0).toLoadRect (harg15.unread x14)) (View.readAt (Elt Ideal) arg14.view (Rect.unit (s := S512) ![0] S128.size inb_S512_S128_0).toLoadRect (harg14.unread x13)) (View.readAt (Elt Ideal) arg13.view (Rect.unit (s := S512) ![0] S128.size inb_S512_S128_0).toLoadRect (harg13.unread x12))⟩ ::
      kernelRun0_A.sl.HS1_12 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 := rfl

/-- After round 4 the state buffer holds, in row `r`, one step of row `r` of what it held before the round. -/
theorem state4 (r : Fin 16) (q : Fin 512) :
    (kernelRun0_A.sl.v891 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r q)
      = step (recOfK x8 x9 x10 x11 x12 x13 x14) (sensNum (sensOfK x4 x5 x6 x7) (rowInK x0 x1 x2 r)) (sensDen (sensOfK x4 x5 x6 x7) (rowInK x0 x1 x2 r)) (fun j => (kernelRun0_A.sl.v698 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r j)) q := by
  unfold kernelRun0_A.sl.v891 kernelRun0_A.sl.HS0_5
  rw [View.readCov_cons_toLoadRect]
  refine (congrFun (shapeCast_self (kernelRun0_A.sl.v887 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) shapeCasts_S16x512_S16x512) (ix2 r q)).trans ?_
  unfold kernelRun0_A.sl.v887
  rw [step4_list]
  exact step_read c arg1 harg1 arg2 harg2 arg3 harg3 arg5 harg5 arg6 harg6 arg7 harg7 arg8 harg8 arg9 harg9 arg10 harg10 arg11 harg11 arg12 harg12 arg13 harg13 arg14 harg14 arg15 harg15 arg19 arg20 x0 x1 x2 x4 x5 x6 x7 x8 x9 x10 x11 x12 x13 x14 arg18 (kernelRun0_A.sl.v698 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (kernelRun0_A.sl.HS1_12 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) r q

/-- The second state buffer after the four tile stores of step 5: four more tiles on top of the earlier ones. -/
theorem step5_list : kernelRun0_A.sl.HS1_20 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14
    = ⟨Rect.unit (s := S16x512) ![0, 384] S16x128.size inb_S16x512_S16x128_0_384, tileStep ![0, 384] slices_S16x512_o0_384_S16x128 (kernelRun0_A.sl.v891 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 384] S512x128.size inb_S512x512_S512x128_0_384).toLoadRect (harg9.unread x8)) (View.readAt (Elt Ideal) arg10.view (Rect.unit (s := S512x512) ![0, 384] S512x128.size inb_S512x512_S512x128_0_384).toLoadRect (harg10.unread x9)) (View.readAt (Elt Ideal) arg11.view (Rect.unit (s := S512x512) ![0, 384] S512x128.size inb_S512x512_S512x128_0_384).toLoadRect (harg11.unread x10)) (View.readAt (Elt Ideal) arg12.view (Rect.unit (s := S512x512) ![0, 384] S512x128.size inb_S512x512_S512x128_0_384).toLoadRect (harg12.unread x11)) (kernelRun0_A.sl.v281 c arg1 harg1 arg2 harg2 arg3 harg3 arg5 harg5 arg6 harg6 arg7 harg7 arg8 harg8 arg19 x0 x1 x2 x4 x5 x6 x7) (kernelRun0_A.sl.v284 c arg1 harg1 arg2 harg2 arg3 harg3 arg5 harg5 arg6 harg6 arg7 harg7 arg20 x0 x1 x2 x4 x5 x6) (View.readAt (Elt Ideal) arg15.view (Rect.unit (s := S512) ![384] S128.size inb_S512_S128_384).toLoadRect (harg15.unread x14)) (View.readAt (Elt Ideal) arg14.view (Rect.unit (s := S512) ![384] S128.size inb_S512_S128_384).toLoadRect (harg14.unread x13)) (View.readAt (Elt Ideal) arg13.view (Rect.unit (s := S512) ![384] S128.size inb_S512_S128_384).toLoadRect (harg13.unread x12))⟩ ::
      ⟨Rect.unit (s := S16x512) ![0, 256] S16x128.size inb_S16x512_S16x128_0_256, tileStep ![0, 256] slices_S16x512_o0_256_S16x128 (kernelRun0_A.sl.v891 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 256] S512x128.size inb_S512x512_S512x128_0_256).toLoadRect (harg9.unread x8)) (View.readAt (Elt Ideal) arg10.view (Rect.unit (s := S512x512) ![0, 256] S512x128.size inb_S512x512_S512x128_0_256).toLoadRect (harg10.unread x9)) (View.readAt (Elt Ideal) arg11.view (Rect.unit (s := S512x512) ![0, 256] S512x128.size inb_S512x512_S512x128_0_256).toLoadRect (harg11.unread x10)) (View.readAt (Elt Ideal) arg12.view (Rect.unit (s := S512x512) ![0, 256] S512x128.size inb_S512x512_S512x128_0_256).toLoadRect (harg12.unread x11)) (kernelRun0_A.sl.v234 c arg1 harg1 arg2 harg2 arg3 harg3 arg5 harg5 arg6 harg6 arg7 harg7 arg8 harg8 arg19 x0 x1 x2 x4 x5 x6 x7) (kernelRun0_A.sl.v237 c arg1 harg1 arg2 harg2 arg3 harg3 arg5 harg5 arg6 harg6 arg7 harg7 arg20 x0 x1 x2 x4 x5 x6) (View.readAt (Elt Ideal) arg15.view (Rect.unit (s := S512) ![256] S128.size inb_S512_S128_256).toLoadRect (harg15.unread x14)) (View.readAt (Elt Ideal) arg14.view (Rect.unit (s := S512) ![256] S128.size inb_S512_S128_256).toLoadRect (harg14.unread x13)) (View.readAt (Elt Ideal) arg13.view (Rect.unit (s := S512) ![256] S128.size inb_S512_S128_256).toLoadRect (harg13.unread x12))⟩ ::
      ⟨Rect.unit (s := S16x512) ![0, 128] S16x128.size inb_S16x512_S16x128_0_128, tileStep ![0, 128] slices_S16x512_o0_128_S16x128 (kernelRun0_A.sl.v891 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 128] S512x128.size inb_S512x512_S512x128_0_128).toLoadRect (harg9.unread x8)) (View.readAt (Elt Ideal) arg10.view (Rect.unit (s := S512x512) ![0, 128] S512x128.size inb_S512x512_S512x128_0_128).toLoadRect (harg10.unread x9)) (View.readAt (Elt Ideal) arg11.view (Rect.unit (s := S512x512) ![0, 128] S512x128.size inb_S512x512_S512x128_0_128).toLoadRect (harg11.unread x10)) (View.readAt (Elt Ideal) arg12.view (Rect.unit (s := S512x512) ![0, 128] S512x128.size inb_S512x512_S512x128_0_128).toLoadRect (harg12.unread x11)) (kernelRun0_A.sl.v187 c arg1 harg1 arg2 harg2 arg3 harg3 arg5 harg5 arg6 harg6 arg7 harg7 arg8 harg8 arg19 x0 x1 x2 x4 x5 x6 x7) (kernelRun0_A.sl.v190 c arg1 harg1 arg2 harg2 arg3 harg3 arg5 harg5 arg6 harg6 arg7 harg7 arg20 x0 x1 x2 x4 x5 x6) (View.readAt (Elt Ideal) arg15.view (Rect.unit (s := S512) ![128] S128.size inb_S512_S128_128).toLoadRect (harg15.unread x14)) (View.readAt (Elt Ideal) arg14.view (Rect.unit (s := S512) ![128] S128.size inb_S512_S128_128).toLoadRect (harg14.unread x13)) (View.readAt (Elt Ideal) arg13.view (Rect.unit (s := S512) ![128] S128.size inb_S512_S128_128).toLoadRect (harg13.unread x12))⟩ ::
      ⟨Rect.unit (s := S16x512) ![0, 0] S16x128.size inb_S16x512_S16x128_0_0, tileStep ![0, 0] slices_S16x512_o0_0_S16x128 (kernelRun0_A.sl.v891 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 0] S512x128.size inb_S512x512_S512x128_0_0).toLoadRect (harg9.unread x8)) (View.readAt (Elt Ideal) arg10.view (Rect.unit (s := S512x512) ![0, 0] S512x128.size inb_S512x512_S512x128_0_0).toLoadRect (harg10.unread x9)) (View.readAt (Elt Ideal) arg11.view (Rect.unit (s := S512x512) ![0, 0] S512x128.size inb_S512x512_S512x128_0_0).toLoadRect (harg11.unread x10)) (View.readAt (Elt Ideal) arg12.view (Rect.unit (s := S512x512) ![0, 0] S512x128.size inb_S512x512_S512x128_0_0).toLoadRect (harg12.unread x11)) (kernelRun0_A.sl.v140 c arg1 harg1 arg2 harg2 arg3 harg3 arg5 harg5 arg6 harg6 arg7 harg7 arg8 harg8 arg19 x0 x1 x2 x4 x5 x6 x7) (kernelRun0_A.sl.v143 c arg1 harg1 arg2 harg2 arg3 harg3 arg5 harg5 arg6 harg6 arg7 harg7 arg20 x0 x1 x2 x4 x5 x6) (View.readAt (Elt Ideal) arg15.view (Rect.unit (s := S512) ![0] S128.size inb_S512_S128_0).toLoadRect (harg15.unread x14)) (View.readAt (Elt Ideal) arg14.view (Rect.unit (s := S512) ![0] S128.size inb_S512_S128_0).toLoadRect (harg14.unread x13)) (View.readAt (Elt Ideal) arg13.view (Rect.unit (s := S512) ![0] S128.size inb_S512_S128_0).toLoadRect (harg13.unread x12))⟩ ::
      kernelRun0_A.sl.HS1_16 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 := rfl

/-- After round 5 the state buffer holds, in row `r`, one step of row `r` of what it held before the round. -/
theorem state5 (r : Fin 16) (q : Fin 512) :
    (kernelRun0_A.sl.v1084 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r q)
      = step (recOfK x8 x9 x10 x11 x12 x13 x14) (sensNum (sensOfK x4 x5 x6 x7) (rowInK x0 x1 x2 r)) (sensDen (sensOfK x4 x5 x6 x7) (rowInK x0 x1 x2 r)) (fun j => (kernelRun0_A.sl.v891 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r j)) q := by
  unfold kernelRun0_A.sl.v1084 kernelRun0_A.sl.HS0_6
  rw [View.readCov_cons_toLoadRect]
  refine (congrFun (shapeCast_self (kernelRun0_A.sl.v1080 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) shapeCasts_S16x512_S16x512) (ix2 r q)).trans ?_
  unfold kernelRun0_A.sl.v1080
  rw [step5_list]
  exact step_read c arg1 harg1 arg2 harg2 arg3 harg3 arg5 harg5 arg6 harg6 arg7 harg7 arg8 harg8 arg9 harg9 arg10 harg10 arg11 harg11 arg12 harg12 arg13 harg13 arg14 harg14 arg15 harg15 arg19 arg20 x0 x1 x2 x4 x5 x6 x7 x8 x9 x10 x11 x12 x13 x14 arg18 (kernelRun0_A.sl.v891 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (kernelRun0_A.sl.HS1_16 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) r q

/-- The second state buffer after the four tile stores of step 6: four more tiles on top of the earlier ones. -/
theorem step6_list : kernelRun0_A.sl.HS1_24 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14
    = ⟨Rect.unit (s := S16x512) ![0, 384] S16x128.size inb_S16x512_S16x128_0_384, tileStep ![0, 384] slices_S16x512_o0_384_S16x128 (kernelRun0_A.sl.v1084 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 384] S512x128.size inb_S512x512_S512x128_0_384).toLoadRect (harg9.unread x8)) (View.readAt (Elt Ideal) arg10.view (Rect.unit (s := S512x512) ![0, 384] S512x128.size inb_S512x512_S512x128_0_384).toLoadRect (harg10.unread x9)) (View.readAt (Elt Ideal) arg11.view (Rect.unit (s := S512x512) ![0, 384] S512x128.size inb_S512x512_S512x128_0_384).toLoadRect (harg11.unread x10)) (View.readAt (Elt Ideal) arg12.view (Rect.unit (s := S512x512) ![0, 384] S512x128.size inb_S512x512_S512x128_0_384).toLoadRect (harg12.unread x11)) (kernelRun0_A.sl.v281 c arg1 harg1 arg2 harg2 arg3 harg3 arg5 harg5 arg6 harg6 arg7 harg7 arg8 harg8 arg19 x0 x1 x2 x4 x5 x6 x7) (kernelRun0_A.sl.v284 c arg1 harg1 arg2 harg2 arg3 harg3 arg5 harg5 arg6 harg6 arg7 harg7 arg20 x0 x1 x2 x4 x5 x6) (View.readAt (Elt Ideal) arg15.view (Rect.unit (s := S512) ![384] S128.size inb_S512_S128_384).toLoadRect (harg15.unread x14)) (View.readAt (Elt Ideal) arg14.view (Rect.unit (s := S512) ![384] S128.size inb_S512_S128_384).toLoadRect (harg14.unread x13)) (View.readAt (Elt Ideal) arg13.view (Rect.unit (s := S512) ![384] S128.size inb_S512_S128_384).toLoadRect (harg13.unread x12))⟩ ::
      ⟨Rect.unit (s := S16x512) ![0, 256] S16x128.size inb_S16x512_S16x128_0_256, tileStep ![0, 256] slices_S16x512_o0_256_S16x128 (kernelRun0_A.sl.v1084 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 256] S512x128.size inb_S512x512_S512x128_0_256).toLoadRect (harg9.unread x8)) (View.readAt (Elt Ideal) arg10.view (Rect.unit (s := S512x512) ![0, 256] S512x128.size inb_S512x512_S512x128_0_256).toLoadRect (harg10.unread x9)) (View.readAt (Elt Ideal) arg11.view (Rect.unit (s := S512x512) ![0, 256] S512x128.size inb_S512x512_S512x128_0_256).toLoadRect (harg11.unread x10)) (View.readAt (Elt Ideal) arg12.view (Rect.unit (s := S512x512) ![0, 256] S512x128.size inb_S512x512_S512x128_0_256).toLoadRect (harg12.unread x11)) (kernelRun0_A.sl.v234 c arg1 harg1 arg2 harg2 arg3 harg3 arg5 harg5 arg6 harg6 arg7 harg7 arg8 harg8 arg19 x0 x1 x2 x4 x5 x6 x7) (kernelRun0_A.sl.v237 c arg1 harg1 arg2 harg2 arg3 harg3 arg5 harg5 arg6 harg6 arg7 harg7 arg20 x0 x1 x2 x4 x5 x6) (View.readAt (Elt Ideal) arg15.view (Rect.unit (s := S512) ![256] S128.size inb_S512_S128_256).toLoadRect (harg15.unread x14)) (View.readAt (Elt Ideal) arg14.view (Rect.unit (s := S512) ![256] S128.size inb_S512_S128_256).toLoadRect (harg14.unread x13)) (View.readAt (Elt Ideal) arg13.view (Rect.unit (s := S512) ![256] S128.size inb_S512_S128_256).toLoadRect (harg13.unread x12))⟩ ::
      ⟨Rect.unit (s := S16x512) ![0, 128] S16x128.size inb_S16x512_S16x128_0_128, tileStep ![0, 128] slices_S16x512_o0_128_S16x128 (kernelRun0_A.sl.v1084 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 128] S512x128.size inb_S512x512_S512x128_0_128).toLoadRect (harg9.unread x8)) (View.readAt (Elt Ideal) arg10.view (Rect.unit (s := S512x512) ![0, 128] S512x128.size inb_S512x512_S512x128_0_128).toLoadRect (harg10.unread x9)) (View.readAt (Elt Ideal) arg11.view (Rect.unit (s := S512x512) ![0, 128] S512x128.size inb_S512x512_S512x128_0_128).toLoadRect (harg11.unread x10)) (View.readAt (Elt Ideal) arg12.view (Rect.unit (s := S512x512) ![0, 128] S512x128.size inb_S512x512_S512x128_0_128).toLoadRect (harg12.unread x11)) (kernelRun0_A.sl.v187 c arg1 harg1 arg2 harg2 arg3 harg3 arg5 harg5 arg6 harg6 arg7 harg7 arg8 harg8 arg19 x0 x1 x2 x4 x5 x6 x7) (kernelRun0_A.sl.v190 c arg1 harg1 arg2 harg2 arg3 harg3 arg5 harg5 arg6 harg6 arg7 harg7 arg20 x0 x1 x2 x4 x5 x6) (View.readAt (Elt Ideal) arg15.view (Rect.unit (s := S512) ![128] S128.size inb_S512_S128_128).toLoadRect (harg15.unread x14)) (View.readAt (Elt Ideal) arg14.view (Rect.unit (s := S512) ![128] S128.size inb_S512_S128_128).toLoadRect (harg14.unread x13)) (View.readAt (Elt Ideal) arg13.view (Rect.unit (s := S512) ![128] S128.size inb_S512_S128_128).toLoadRect (harg13.unread x12))⟩ ::
      ⟨Rect.unit (s := S16x512) ![0, 0] S16x128.size inb_S16x512_S16x128_0_0, tileStep ![0, 0] slices_S16x512_o0_0_S16x128 (kernelRun0_A.sl.v1084 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (View.readAt (Elt Ideal) arg9.view (Rect.unit (s := S512x512) ![0, 0] S512x128.size inb_S512x512_S512x128_0_0).toLoadRect (harg9.unread x8)) (View.readAt (Elt Ideal) arg10.view (Rect.unit (s := S512x512) ![0, 0] S512x128.size inb_S512x512_S512x128_0_0).toLoadRect (harg10.unread x9)) (View.readAt (Elt Ideal) arg11.view (Rect.unit (s := S512x512) ![0, 0] S512x128.size inb_S512x512_S512x128_0_0).toLoadRect (harg11.unread x10)) (View.readAt (Elt Ideal) arg12.view (Rect.unit (s := S512x512) ![0, 0] S512x128.size inb_S512x512_S512x128_0_0).toLoadRect (harg12.unread x11)) (kernelRun0_A.sl.v140 c arg1 harg1 arg2 harg2 arg3 harg3 arg5 harg5 arg6 harg6 arg7 harg7 arg8 harg8 arg19 x0 x1 x2 x4 x5 x6 x7) (kernelRun0_A.sl.v143 c arg1 harg1 arg2 harg2 arg3 harg3 arg5 harg5 arg6 harg6 arg7 harg7 arg20 x0 x1 x2 x4 x5 x6) (View.readAt (Elt Ideal) arg15.view (Rect.unit (s := S512) ![0] S128.size inb_S512_S128_0).toLoadRect (harg15.unread x14)) (View.readAt (Elt Ideal) arg14.view (Rect.unit (s := S512) ![0] S128.size inb_S512_S128_0).toLoadRect (harg14.unread x13)) (View.readAt (Elt Ideal) arg13.view (Rect.unit (s := S512) ![0] S128.size inb_S512_S128_0).toLoadRect (harg13.unread x12))⟩ ::
      kernelRun0_A.sl.HS1_20 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 := rfl

/-- After round 6 the state buffer holds, in row `r`, one step of row `r` of what it held before the round. -/
theorem state6 (r : Fin 16) (q : Fin 512) :
    (kernelRun0_A.sl.v1277 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r q)
      = step (recOfK x8 x9 x10 x11 x12 x13 x14) (sensNum (sensOfK x4 x5 x6 x7) (rowInK x0 x1 x2 r)) (sensDen (sensOfK x4 x5 x6 x7) (rowInK x0 x1 x2 r)) (fun j => (kernelRun0_A.sl.v1084 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r j)) q := by
  unfold kernelRun0_A.sl.v1277 kernelRun0_A.sl.HS0_7
  rw [View.readCov_cons_toLoadRect]
  refine (congrFun (shapeCast_self (kernelRun0_A.sl.v1273 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) shapeCasts_S16x512_S16x512) (ix2 r q)).trans ?_
  unfold kernelRun0_A.sl.v1273
  rw [step6_list]
  exact step_read c arg1 harg1 arg2 harg2 arg3 harg3 arg5 harg5 arg6 harg6 arg7 harg7 arg8 harg8 arg9 harg9 arg10 harg10 arg11 harg11 arg12 harg12 arg13 harg13 arg14 harg14 arg15 harg15 arg19 arg20 x0 x1 x2 x4 x5 x6 x7 x8 x9 x10 x11 x12 x13 x14 arg18 (kernelRun0_A.sl.v1084 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (kernelRun0_A.sl.HS1_20 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) r q

/-- Before the first round the state buffer holds the initial state in every row. -/
theorem state0 (r : Fin 16) (q : Fin 512) : (kernelRun0_A.sl.v119 c arg4 harg4 arg17 x3) (ix2 r q) = x3 (ix1 q) := by
  unfold kernelRun0_A.sl.v119 kernelRun0_A.sl.HS0_1
  rw [View.readCov_cons_toLoadRect]
  refine (stateRows_apply (View.readAt (Elt Ideal) arg4.view (Rect.unit (s := S512) ![0] S512.size inb_S512_S512_0).toLoadRect (harg4.unread x3)) r q).trans ?_
  exact ld_state arg4 harg4 x3 _ q

/-- The output block: row `r`, target `q` is the cell of row `r`'s mapped input and the initial state, at `q`. -/
theorem block_apply (r : Fin 16) (q : Fin 512) :
    (kernelRun0_A.sl.v1277 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14) (ix2 r q)
      = cell (sensOfK x4 x5 x6 x7) (recOfK x8 x9 x10 x11 x12 x13 x14) (rowInK x0 x1 x2 r) (fun j => x3 (ix1 j)) q := by
  have e0 : (fun j => (kernelRun0_A.sl.v119 c arg4 harg4 arg17 x3) (ix2 r j)) = fun j => x3 (ix1 j) := funext fun j => state0 c arg4 harg4 arg17 x3 r j
  have e1 := funext fun j => state1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 r j
  have e2 := funext fun j => state2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 r j
  have e3 := funext fun j => state3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 r j
  have e4 := funext fun j => state4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 r j
  have e5 := funext fun j => state5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 r j
  rw [state6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 r q, e5, e4, e3, e2, e1, e0]
  rfl

end Point

end Cert.KernelIdeal.KValue

end
-- ==== Proof.KArray.lean ====
/-
  From the blocks to the whole array.

  The grid has eight points; point `t` holds rows `16 t … 16 t + 15` of the three batch inputs and of the output, and the
  whole of every parameter array and of the initial state.  What point `t` writes back is therefore block `t` of ONE function of
  the argument arrays: at (row `ρ`, target `u`) the cell of row `ρ`'s mapped input and the initial state, at `u` — the rows of a
  block are rows of the arrays (row `r` of block `t` is row `16 t + r`), and a block of a parameter array is the array.  The
  eight blocks tile the 128 rows, so after the run the output array holds that function everywhere.
-/
import proofs.«157048_j60730837565793_1_alg».proof.Proof.Gen.KernelIdeal.Value
import proofs.«157048_j60730837565793_1_alg».proof.Proof.KRun

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem Cert.Ltc
open Idealize.ShloMosaic.Pipeline (Dat)

theorem zero_offsets : (![0, 0] : Fin 2 → ℕ) = fun _ => 0 := funext fun a => by fin_cases a <;> rfl

/-- The output block a point computes, at (row `r`, target `q`): the cell of row `r`'s mapped input. -/
theorem out_block_apply (c : Dev nD) (i : grid0.Coords) (arg1 : Memref sig .tc .vmem S16x128 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S16x512 .f32) (harg16 : arg16.IsWhole) (arg17 : Memref sig .tc .vmem S16x512 .f32) (harg17 : arg17.IsWhole) (arg18 : Memref sig .tc .vmem S16x512 .f32) (harg18 : arg18.IsWhole) (arg19 : Memref sig .tc .vmem S16x512 .f32) (harg19 : arg19.IsWhole) (arg20 : Memref sig .tc .vmem S16x512 .f32) (harg20 : arg20.IsWhole)
    (x0 : Vec Ideal S16x128 .f32) (x1 : Vec Ideal S16x128 .f32) (x2 : Vec Ideal S16x128 .f32) (x3 : Vec Ideal S512 .f32) (x4 : Vec Ideal S128x512 .f32) (x5 : Vec Ideal S128x512 .f32) (x6 : Vec Ideal S128x512 .f32) (x7 : Vec Ideal S128x512 .f32) (x8 : Vec Ideal S512x512 .f32) (x9 : Vec Ideal S512x512 .f32) (x10 : Vec Ideal S512x512 .f32) (x11 : Vec Ideal S512x512 .f32) (x12 : Vec Ideal S512 .f32) (x13 : Vec Ideal S512 .f32) (x14 : Vec Ideal S512 .f32) (r : Fin 16) (q : Fin 512) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 (ix2 r q)
      = cell (sensOfK x4 x5 x6 x7) (recOfK x8 x9 x10 x11 x12 x13 x14) (rowInK x0 x1 x2 r) (fun j => x3 (ix1 j)) q := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14)]
  unfold kernelRun0_A
  dsimp only
  rw [View.canon_unit_zero zero_offsets]
  exact block_apply c arg1 harg1 arg2 harg2 arg3 harg3 arg4 harg4 arg5 harg5 arg6 harg6 arg7 harg7 arg8 harg8 arg9 harg9 arg10 harg10 arg11 harg11 arg12 harg12 arg13 harg13 arg14 harg14 arg15 harg15 arg17 arg18 arg19 arg20 x0 x1 x2 x3 x4 x5 x6 x7 x8 x9 x10 x11 x12 x13 x14 r q

/-! ## The whole array -/

/-- Row `ρ` of the mapped input, from the three whole input arrays. -/
def rowInA (A0 A2 A3 : Vec Ideal S128x128 .f32) (ρ : Fin 128) : Fin 128 → EReal :=
  affine (fun i => A0 (ix2 ρ i)) (fun i => A2 (ix2 ρ i)) (fun i => A3 (ix2 ρ i))

/-- What the output array holds after the run, as one function of the fifteen argument arrays. -/
def cellArr (A0 : Vec Ideal S128x128 .f32) (A1 : Vec Ideal S512 .f32) (A2 A3 : Vec Ideal S128x128 .f32)
    (A4 A5 A6 A7 : Vec Ideal S128x512 .f32) (A8 A9 A10 A11 : Vec Ideal S512x512 .f32) (A12 A13 A14 : Vec Ideal S512 .f32) :
    Vec Ideal S128x512 .f32 :=
  fun y => cell (sensOfK A4 A5 A6 A7) (recOfK A8 A9 A10 A11 A12 A13 A14) (rowInA A0 A2 A3 (y 0)) (fun j => A1 (ix1 j)) (y 1)

/-- The index maps, decided over the eight points: the three batch inputs move with the output along the rows; every
    other window stays at block zero; the output's row block is at most 7. -/
theorem idx_facts : ∀ t : Fin cfg0.N, win0_0.index t (0 : Fin 2) = win0_15.index t (0 : Fin 2)
    ∧ win0_0.index t (1 : Fin 2) = 0
    ∧ win0_1.index t (0 : Fin 2) = win0_15.index t (0 : Fin 2)
    ∧ win0_1.index t (1 : Fin 2) = 0
    ∧ win0_2.index t (0 : Fin 2) = win0_15.index t (0 : Fin 2)
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 1) = 0
    ∧ win0_13.index t (0 : Fin 1) = 0
    ∧ win0_14.index t (0 : Fin 1) = 0
    ∧ win0_15.index t (1 : Fin 2) = 0
    ∧ win0_15.index t (0 : Fin 2) ≤ 7 :=
  (by decide +kernel : ∀ t : Fin grid0.N, _)

/-- Every one of the eight row blocks is some point's. -/
theorem idx_onto : ∀ q0 : Fin 8, ∃ t : Fin cfg0.N, win0_15.index t = ![q0.val, 0] :=
  (by decide +kernel : ∀ q0 : Fin 8, ∃ t : Fin grid0.N, win0_15.index t = ![q0.val, 0])

variable (m : (ℓ : Loc nD τ sig) → Buf (Elt Ideal) ℓ) (ρ : Dev nD → PrngReg)

/-- What point `t` writes back is block `t` of `cellArr` of the argument arrays. -/
theorem flushed_eq (c : Dev nD) (t : Fin cfg0.N) :
    (dats m 0 c).flushed 15 t = ((cfg0.win 15).blk t).view.read (Elt Ideal) (cellArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14)) := by
  rw [Value.flushed15_A]
  obtain ⟨f0, f1, f2, f3, f4, f5, f6, f7, f8, f9, f10, f11, f12, f13, f14, f15, f16, f17, f18, f19, f20, f21, f22, f23, f24, f25, f26, f27⟩ := idx_facts t
  funext j
  obtain ⟨r, q, rfl⟩ : ∃ (r : Fin 16) (q : Fin 512), j = ix2 r q := ⟨j 0, j 1, eq_ix2 j⟩
  show out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r q)
    = cellArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (((cfg0.win 15).blk t).view.emb (ix2 r q))
  rw [out_block_apply]
  have hr'lt : win0_15.index t (0 : Fin 2) * 16 + r.val < 128 := by have := r.isLt; omega
  let r' : Fin 128 := ⟨win0_15.index t (0 : Fin 2) * 16 + r.val, hr'lt⟩
  have hb3 : iblk m c 3 t = V m c main_arg1 := funext fun y => by
    show V m c main_arg1 (((cfg0.win 3).blk t).view.emb y) = V m c main_arg1 y
    refine congrArg _ (funext fun a => Fin.ext ?_)
    match a with
    | ⟨0, _⟩ => show win0_3.index t (0 : Fin 1) * 512 + 1 * (y 0).val = (y 0).val; omega
  have hb4 : iblk m c 4 t = V m c main_arg4 := funext fun y => by
    show V m c main_arg4 (((cfg0.win 4).blk t).view.emb y) = V m c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 512 + 1 * (y 1).val = (y 1).val; omega
  have hb5 : iblk m c 5 t = V m c main_arg5 := funext fun y => by
    show V m c main_arg5 (((cfg0.win 5).blk t).view.emb y) = V m c main_arg5 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 512 + 1 * (y 1).val = (y 1).val; omega
  have hb6 : iblk m c 6 t = V m c main_arg6 := funext fun y => by
    show V m c main_arg6 (((cfg0.win 6).blk t).view.emb y) = V m c main_arg6 y
    refine congrArg _ (funext fun a => Fin.ext ?_)
    match a with
    | ⟨0, _⟩ => show win0_6.index t (0 : Fin 2) * 128 + 1 * (y 0).val = (y 0).val; omega
    | ⟨1, _⟩ => show win0_6.index t (1 : Fin 2) * 512 + 1 * (y 1).val = (y 1).val; omega
  have hb7 : iblk m c 7 t = V m c main_arg7 := funext fun y => by
    show V m c main_arg7 (((cfg0.win 7).blk t).view.emb y) = V m c main_arg7 y
    refine congrArg _ (funext fun a => Fin.ext ?_)
    match a with
    | ⟨0, _⟩ => show win0_7.index t (0 : Fin 2) * 128 + 1 * (y 0).val = (y 0).val; omega
    | ⟨1, _⟩ => show win0_7.index t (1 : Fin 2) * 512 + 1 * (y 1).val = (y 1).val; omega
  have hb8 : iblk m c 8 t = V m c main_arg8 := funext fun y => by
    show V m c main_arg8 (((cfg0.win 8).blk t).view.emb y) = V m c main_arg8 y
    refine congrArg _ (funext fun a => Fin.ext ?_)
    match a with
    | ⟨0, _⟩ => show win0_8.index t (0 : Fin 2) * 512 + 1 * (y 0).val = (y 0).val; omega
    | ⟨1, _⟩ => show win0_8.index t (1 : Fin 2) * 512 + 1 * (y 1).val = (y 1).val; omega
  have hb9 : iblk m c 9 t = V m c main_arg9 := funext fun y => by
    show V m c main_arg9 (((cfg0.win 9).blk t).view.emb y) = V m c main_arg9 y
    refine congrArg _ (funext fun a => Fin.ext ?_)
    match a with
    | ⟨0, _⟩ => show win0_9.index t (0 : Fin 2) * 512 + 1 * (y 0).val = (y 0).val; omega
    | ⟨1, _⟩ => show win0_9.index t (1 : Fin 2) * 512 + 1 * (y 1).val = (y 1).val; omega
  have hb10 : iblk m c 10 t = V m c main_arg10 := funext fun y => by
    show V m c main_arg10 (((cfg0.win 10).blk t).view.emb y) = V m c main_arg10 y
    refine congrArg _ (funext fun a => Fin.ext ?_)
    match a with
    | ⟨0, _⟩ => show win0_10.index t (0 : Fin 2) * 512 + 1 * (y 0).val = (y 0).val; omega
    | ⟨1, _⟩ => show win0_10.index t (1 : Fin 2) * 512 + 1 * (y 1).val = (y 1).val; omega
  have hb11 : iblk m c 11 t = V m c main_arg11 := funext fun y => by
    show V m c main_arg11 (((cfg0.win 11).blk t).view.emb y) = V m c main_arg11 y
    refine congrArg _ (funext fun a => Fin.ext ?_)
    match a with
    | ⟨0, _⟩ => show win0_11.index t (0 : Fin 2) * 512 + 1 * (y 0).val = (y 0).val; omega
    | ⟨1, _⟩ => show win0_11.index t (1 : Fin 2) * 512 + 1 * (y 1).val = (y 1).val; omega
  have hb12 : iblk m c 12 t = V m c main_arg12 := funext fun y => by
    show V m c main_arg12 (((cfg0.win 12).blk t).view.emb y) = V m c main_arg12 y
    refine congrArg _ (funext fun a => Fin.ext ?_)
    match a with
    | ⟨0, _⟩ => show win0_12.index t (0 : Fin 1) * 512 + 1 * (y 0).val = (y 0).val; omega
  have hb13 : iblk m c 13 t = V m c main_arg13 := funext fun y => by
    show V m c main_arg13 (((cfg0.win 13).blk t).view.emb y) = V m c main_arg13 y
    refine congrArg _ (funext fun a => Fin.ext ?_)
    match a with
    | ⟨0, _⟩ => show win0_13.index t (0 : Fin 1) * 512 + 1 * (y 0).val = (y 0).val; omega
  have hb14 : iblk m c 14 t = V m c main_arg14 := funext fun y => by
    show V m c main_arg14 (((cfg0.win 14).blk t).view.emb y) = V m c main_arg14 y
    refine congrArg _ (funext fun a => Fin.ext ?_)
    match a with
    | ⟨0, _⟩ => show win0_14.index t (0 : Fin 1) * 512 + 1 * (y 0).val = (y 0).val; omega
  have hr0 : ∀ i : Fin 128, iblk m c 0 t (ix2 r i) = V m c main_arg0 (ix2 r' i) := fun i => by
    show V m c main_arg0 (((cfg0.win 0).blk t).view.emb (ix2 r i)) = V m c main_arg0 (ix2 r' i)
    refine congrArg _ (funext fun a => Fin.ext ?_)
    match a with
    | ⟨0, _⟩ => show win0_0.index t (0 : Fin 2) * 16 + 1 * r.val = win0_15.index t (0 : Fin 2) * 16 + r.val; omega
    | ⟨1, _⟩ => show win0_0.index t (1 : Fin 2) * 128 + 1 * i.val = i.val; omega
  have hr1 : ∀ i : Fin 128, iblk m c 1 t (ix2 r i) = V m c main_arg2 (ix2 r' i) := fun i => by
    show V m c main_arg2 (((cfg0.win 1).blk t).view.emb (ix2 r i)) = V m c main_arg2 (ix2 r' i)
    refine congrArg _ (funext fun a => Fin.ext ?_)
    match a with
    | ⟨0, _⟩ => show win0_1.index t (0 : Fin 2) * 16 + 1 * r.val = win0_15.index t (0 : Fin 2) * 16 + r.val; omega
    | ⟨1, _⟩ => show win0_1.index t (1 : Fin 2) * 128 + 1 * i.val = i.val; omega
  have hr2 : ∀ i : Fin 128, iblk m c 2 t (ix2 r i) = V m c main_arg3 (ix2 r' i) := fun i => by
    show V m c main_arg3 (((cfg0.win 2).blk t).view.emb (ix2 r i)) = V m c main_arg3 (ix2 r' i)
    refine congrArg _ (funext fun a => Fin.ext ?_)
    match a with
    | ⟨0, _⟩ => show win0_2.index t (0 : Fin 2) * 16 + 1 * r.val = win0_15.index t (0 : Fin 2) * 16 + r.val; omega
    | ⟨1, _⟩ => show win0_2.index t (1 : Fin 2) * 128 + 1 * i.val = i.val; omega
  have hemb : ((cfg0.win 15).blk t).view.emb (ix2 r q) = ix2 r' q := funext fun a => Fin.ext (by
    match a with
    | ⟨0, _⟩ => show win0_15.index t (0 : Fin 2) * 16 + 1 * r.val = win0_15.index t (0 : Fin 2) * 16 + r.val; omega
    | ⟨1, _⟩ => show win0_15.index t (1 : Fin 2) * 512 + 1 * q.val = q.val; omega)
  rw [hemb]
  show cell (sensOfK (iblk m c 4 t) (iblk m c 5 t) (iblk m c 6 t) (iblk m c 7 t)) (recOfK (iblk m c 8 t) (iblk m c 9 t) (iblk m c 10 t) (iblk m c 11 t) (iblk m c 12 t) (iblk m c 13 t) (iblk m c 14 t))
      (rowInK (iblk m c 0 t) (iblk m c 1 t) (iblk m c 2 t) r) (fun j => (iblk m c 3 t) (ix1 j)) q
    = cell (sensOfK (V m c main_arg4) (V m c main_arg5) (V m c main_arg6) (V m c main_arg7)) (recOfK (V m c main_arg8) (V m c main_arg9) (V m c main_arg10) (V m c main_arg11) (V m c main_arg12) (V m c main_arg13) (V m c main_arg14))
      (rowInA (V m c main_arg0) (V m c main_arg2) (V m c main_arg3) r') (fun j => (V m c main_arg1) (ix1 j)) q
  have hrow : rowInK (iblk m c 0 t) (iblk m c 1 t) (iblk m c 2 t) r = rowInA (V m c main_arg0) (V m c main_arg2) (V m c main_arg3) r' := by
    unfold rowInK rowInA
    rw [funext hr0, funext hr1, funext hr2]
  rw [hrow, hb3, hb4, hb5, hb6, hb7, hb8, hb9, hb10, hb11, hb12, hb13, hb14]

/-- An index of the output array is in point `t`'s block iff each coordinate is in the block's range on its axis. -/
theorem mem_blk (t : Fin cfg0.N) (i : S128x512.Idx) :
    i ∈ ((cfg0.win 15).blk t).view.set ↔ ∀ a : Fin 2, win0_15.index t a * S16x512.size a ≤ (i a).val ∧ (i a).val < win0_15.index t a * S16x512.size a + S16x512.size a := by
  show i ∈ ((View.whole main_v0).slice (win0_15.rect t)).set ↔ _
  rw [View.set_slice_whole, Rect.mem_set_unit]
  exact Iff.rfl

/-- The eight blocks cover the output array: row `ρ` is in the block of the point whose row block is `ρ / 16`. -/
theorem cover (i : S128x512.Idx) : ∃ t : Fin cfg0.N, (cfg0.win 15).flush t = true ∧ i ∈ ((cfg0.win 15).blk t).view.set := by
  have hi0 : (i 0).val < 128 := (i 0).isLt
  have hi1 : (i 1).val < 512 := (i 1).isLt
  obtain ⟨t, ht⟩ := idx_onto ⟨(i 0).val / 16, by omega⟩
  have q0 : win0_15.index t (0 : Fin 2) = (i 0).val / 16 := congrFun ht 0
  have q1 : win0_15.index t (1 : Fin 2) = 0 := congrFun ht 1
  refine ⟨t, flush0_15 t, ?_⟩
  rw [mem_blk]
  intro a
  match a with
  | ⟨0, _⟩ => show win0_15.index t (0 : Fin 2) * 16 ≤ (i 0).val ∧ (i 0).val < win0_15.index t (0 : Fin 2) * 16 + 16; omega
  | ⟨1, _⟩ => show win0_15.index t (1 : Fin 2) * 512 ≤ (i 1).val ∧ (i 1).val < win0_15.index t (1 : Fin 2) * 512 + 512; omega

/-- The output array after the run is `cellArr` of the argument arrays. -/
theorem final (c : Dev nD) : (dats m 0 c).arrAt 15 cfg0.N = cellArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) :=
  (dats m 0 c).arrAt_eq_of_cover 15 (cellArr (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14)) (fun t _ => flushed_eq m c t) cover

/-- The kernel's run: every weakly fair execution ends with the output array at `cellArr` of the argument arrays, the
    arguments unchanged. -/
theorem run : θ_run defs (onTc (τ := τ) (main (F := Ideal))) ⟨m, fun _ => 0, ρ⟩ fun r => ∀ c : Dev nD,
      r.2.mem ((c : Thread nD τ).loc main_v0) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.KValue

end
-- ==== Proof.RefOps.lean ====
/-
  The host program's arrays, read at an entry.

  The host program works on all 128 batch rows at once.  Its sensory activation is the three-axis array
  `a (r, i, u) = W_iu · (1 / (1 + e^(-(σ_iu · (x_ri - μ_iu)))))` with `x = in · w + b`, its recurrent activation
  `a (r, j, u) = W_ju · (1 / (1 + e^(-(σ_ju · (v_rj - μ_ju)))))`, and one step of the state
  `v' (r, u) = (cm_u · v_ru + gleak_u · vleak_u + ((0 + Σ_j a_rju · E_ju) + ns_ru)) / (cm_u + gleak_u + ((0 + Σ_j a_rju) + ds_ru))`:
  matrices and vectors are first repeated to the common shape, the logistic function is spelled out by its four
  operations, and each sum starts from the initial value zero.  Read at row `r` these are the row functions of the
  specification: the spelled-out logistic is the logistic function, and `0 + s = s`.  The six steps compose, row by row.
-/
import proofs.«157048_j60730837565793_1_alg».proof.Proof.Gen.ReferenceIdeal
import proofs.«157048_j60730837565793_1_alg».proof.Proof.Spec
import proofs.«157048_j60730837565793_1_alg».proof.Proof.Sigmoid
import proofs.«157048_j60730837565793_1_alg».proof.Proof.Layout

noncomputable section

namespace Cert.ReferenceIdeal.RefValue

open Cert.ReferenceIdeal Cert.ReferenceIdeal.Gen Idealize.ShloMosaic Idealize.ShloMosaic.ValueIdx Cert.Ltc

/-! ## The parameters of the specification, from the argument arrays -/

/-- The sensory parameters as functions of (source, target). -/
def sensOf (μ σ W E : FVec Ideal S128x512 .f32) : Sensory :=
  ⟨fun i u => μ (ix2 i u), fun i u => σ (ix2 i u), fun i u => W (ix2 i u), fun i u => E (ix2 i u)⟩

/-- The recurrent parameters as functions of (source, target), and the per-neuron vectors. -/
def recOf (μ σ W E : FVec Ideal S512x512 .f32) (vleak gleak cm : FVec Ideal S512 .f32) : Recurrent :=
  ⟨fun j u => μ (ix2 j u), fun j u => σ (ix2 j u), fun j u => W (ix2 j u), fun j u => E (ix2 j u),
   fun u => vleak (ix1 u), fun u => gleak (ix1 u), fun u => cm (ix1 u)⟩

/-- Row `r` of the affinely mapped input. -/
def rowIn (inp w b : FVec Ideal S128x128 .f32) (r : Fin 128) : Fin 128 → EReal :=
  affine (fun i => inp (ix2 r i)) (fun i => w (ix2 r i)) (fun i => b (ix2 r i))

/-! ## The host program's spellings of the re-layings

The same facts as in the layout module, stated at the extents and in the spelling this program uses. -/

/-- A sensory parameter matrix repeated over the rows: `(r, i, u) ↦ p (i, u)`. -/
theorem sens_mat_apply (p : FVec Ideal S128x512 .f32) (h₁ : S128x512.BroadcastsInDim S1x128x512 ![1, 2])
    (h₂ : S1x128x512.BroadcastsInDim S128x128x512 ![0, 1, 2]) (r i : Fin 128) (u : Fin 512) :
    broadcastInDim S128x128x512 ![0, 1, 2] h₂ (broadcastInDim S1x128x512 ![1, 2] h₁ p) (ix3 r i u) = p (ix2 i u) :=
  (bid_1bc_abc_apply _ _ r i u).trans (bid_bc_1bc_apply p _ 0 i u)

/-- The mapped input repeated over the targets: `(r, i, u) ↦ x (r, i)`. -/
theorem sens_col_apply (x : FVec Ideal S128x128 .f32) (h₁ : S128x128.BroadcastsInDim S128x128x1 ![0, 1])
    (h₂ : S128x128x1.BroadcastsInDim S128x128x512 ![0, 1, 2]) (r i : Fin 128) (u : Fin 512) :
    broadcastInDim S128x128x512 ![0, 1, 2] h₂ (broadcastInDim S128x128x1 ![0, 1] h₁ x) (ix3 r i u) = x (ix2 r i) :=
  (bid_ab1_abc_apply _ _ r i u).trans (bid_ab_ab1_apply x _ r i 0)

/-- A scalar repeated to the sensory shape. -/
theorem sens_scalar_apply (x : FVec Ideal S_ .f32) (h : S_.BroadcastsInDim S128x128x512 ![]) (j : S128x128x512.Idx) :
    broadcastInDim S128x128x512 ![] h x j = x ix0 := bid_scalar_apply x h j

/-- A recurrent parameter matrix repeated over the rows: `(r, j, u) ↦ p (j, u)`. -/
theorem rec_mat_apply (p : FVec Ideal S512x512 .f32) (h₁ : S512x512.BroadcastsInDim S1x512x512 ![1, 2])
    (h₂ : S1x512x512.BroadcastsInDim S128x512x512 ![0, 1, 2]) (r : Fin 128) (j u : Fin 512) :
    broadcastInDim S128x512x512 ![0, 1, 2] h₂ (broadcastInDim S1x512x512 ![1, 2] h₁ p) (ix3 r j u) = p (ix2 j u) :=
  (bid_1bc_abc_apply _ _ r j u).trans (bid_bc_1bc_apply p _ 0 j u)

/-- The state repeated over the targets: `(r, j, u) ↦ v (r, j)`. -/
theorem rec_col_apply (v : FVec Ideal S128x512 .f32) (h₁ : S128x512.BroadcastsInDim S128x512x1 ![0, 1])
    (h₂ : S128x512x1.BroadcastsInDim S128x512x512 ![0, 1, 2]) (r : Fin 128) (j u : Fin 512) :
    broadcastInDim S128x512x512 ![0, 1, 2] h₂ (broadcastInDim S128x512x1 ![0, 1] h₁ v) (ix3 r j u) = v (ix2 r j) :=
  (bid_ab1_abc_apply _ _ r j u).trans (bid_ab_ab1_apply v _ r j 0)

/-- A scalar repeated to the recurrent shape. -/
theorem rec_scalar_apply (x : FVec Ideal S_ .f32) (h : S_.BroadcastsInDim S128x512x512 ![]) (j : S128x512x512.Idx) :
    broadcastInDim S128x512x512 ![] h x j = x ix0 := bid_scalar_apply x h j

/-- A per-neuron vector laid as a row and repeated over the rows: `(r, u) ↦ q u`. -/
theorem vec_rows_apply (q : FVec Ideal S512 .f32) (h₁ : S512.BroadcastsInDim S1x512 ![1])
    (h₂ : S1x512.BroadcastsInDim S128x512 ![0, 1]) (r : Fin 128) (u : Fin 512) :
    broadcastInDim S128x512 ![0, 1] h₂ (broadcastInDim S1x512 ![1] h₁ q) (ix2 r u) = q (ix1 u) :=
  (bid_1c_ac_apply _ _ r u).trans (bid_c_1c_apply q _ 0 u)

/-- The initial state repeated over the rows: `(r, u) ↦ q u`. -/
theorem state_rows_apply (q : FVec Ideal S512 .f32) (h : S512.BroadcastsInDim S128x512 ![1]) (r : Fin 128) (u : Fin 512) :
    broadcastInDim S128x512 ![1] h q (ix2 r u) = q (ix1 u) := bid_c_ac_apply q h r u

/-! ## The sensory activation -/

/-- The sensory activation over all rows, in the host program's operations. -/
def hostSensAct (μ σ W : FVec Ideal S128x512 .f32) (inp w b : FVec Ideal S128x128 .f32) : FVec Ideal S128x128x512 .f32 :=
  mulf (broadcastInDim S128x128x512 ![0, 1, 2] bcast_S1x128x512_S128x128x512_0_1_2 (broadcastInDim S1x128x512 ![1, 2] bcast_S128x512_S1x128x512_1_2 W)) (Host.divf (broadcastInDim S128x128x512 ![] bcast_S_S128x128x512 (constant (F := Ideal) S_ .f32 0x3F800000#32)) (addf (broadcastInDim S128x128x512 ![] bcast_S_S128x128x512 (constant (F := Ideal) S_ .f32 0x3F800000#32)) (Host.exp (Host.negf (mulf (broadcastInDim S128x128x512 ![0, 1, 2] bcast_S1x128x512_S128x128x512_0_1_2 (broadcastInDim S1x128x512 ![1, 2] bcast_S128x512_S1x128x512_1_2 σ)) (subf (broadcastInDim S128x128x512 ![0, 1, 2] bcast_S128x128x1_S128x128x512_0_1_2 (broadcastInDim S128x128x1 ![0, 1] bcast_S128x128_S128x128x1_0_1 (addf (mulf inp w) b))) (broadcastInDim S128x128x512 ![0, 1, 2] bcast_S1x128x512_S128x128x512_0_1_2 (broadcastInDim S1x128x512 ![1, 2] bcast_S128x512_S1x128x512_1_2 μ))))))))

/-- At (row `r`, source `i`, target `u`) it is the synapse's activation at the row's mapped input. -/
theorem hostSensAct_apply (μ σ W : FVec Ideal S128x512 .f32) (inp w b : FVec Ideal S128x128 .f32)
    (r : Fin 128) (i : Fin 128) (u : Fin 512) :
    hostSensAct μ σ W inp w b (ix3 r i u)
      = syn (W (ix2 i u)) (σ (ix2 i u)) (μ (ix2 i u)) (rowIn inp w b r i) := by
  unfold hostSensAct
  simp only [mulf_apply, addf_apply, subf_apply, Host.divf, Host.exp, Host.negf, syn, rowIn, affine, logistic_eq,
    Ideal.hostDivf_def, Ideal.hostUnary_exp_def, Ideal.hostNegf_def, Ideal.negf_def]
  rw [sens_mat_apply W, sens_mat_apply σ, sens_mat_apply μ, sens_col_apply, sens_scalar_apply]
  simp only [mulf_apply, addf_apply, constant_apply, ofBits_one]

/-- The sensory numerator over all rows: the activation times the reversal potentials, summed over the sources. -/
def hostSensNum (μ σ W E : FVec Ideal S128x512 .f32) (inp w b : FVec Ideal S128x128 .f32) : FVec Ideal S128x512 .f32 :=
  Host.reduceAdd (mulf (hostSensAct μ σ W inp w b) (broadcastInDim S128x128x512 ![0, 1, 2] bcast_S1x128x512_S128x128x512_0_1_2 (broadcastInDim S1x128x512 ![1, 2] bcast_S128x512_S1x128x512_1_2 E))) (constant (F := Ideal) S_ .f32 0x00000000#32) reducesTo_S128x128x512_S128x512_d1 h_S_

/-- The sensory denominator over all rows: the activation summed over the sources. -/
def hostSensDen (μ σ W : FVec Ideal S128x512 .f32) (inp w b : FVec Ideal S128x128 .f32) : FVec Ideal S128x512 .f32 :=
  Host.reduceAdd (hostSensAct μ σ W inp w b) (constant (F := Ideal) S_ .f32 0x00000000#32) reducesTo_S128x128x512_S128x512_d1 h_S_

theorem reduces_sens : S128x128x512.Reduces [1] S128x512 := by decide
theorem reduces_rec : S128x512x512.Reduces [1] S128x512 := by decide

theorem hostSensNum_apply (μ σ W E : FVec Ideal S128x512 .f32) (inp w b : FVec Ideal S128x128 .f32) (r : Fin 128) (u : Fin 512) :
    hostSensNum μ σ W E inp w b (ix2 r u) = sensNum (sensOf μ σ W E) (rowIn inp w b r) u := by
  unfold hostSensNum Host.reduceAdd
  rw [Ideal.hostReduceAdd_def, host_sum_mid_apply _ _ _ reduces_sens]
  simp only [constant_apply, Ideal.ofBits_zero_f32, zero_add, sensNum, sensOf]
  refine Finset.sum_congr rfl fun i _ => ?_
  rw [mulf_apply, hostSensAct_apply, sens_mat_apply]

theorem hostSensDen_apply (μ σ W : FVec Ideal S128x512 .f32) (E : FVec Ideal S128x512 .f32) (inp w b : FVec Ideal S128x128 .f32) (r : Fin 128) (u : Fin 512) :
    hostSensDen μ σ W inp w b (ix2 r u) = sensDen (sensOf μ σ W E) (rowIn inp w b r) u := by
  unfold hostSensDen Host.reduceAdd
  rw [Ideal.hostReduceAdd_def, host_sum_mid_apply _ _ _ reduces_sens]
  simp only [hostSensAct_apply, constant_apply, Ideal.ofBits_zero_f32, zero_add, sensDen, sensOf]

/-! ## One step of the state -/

/-- The recurrent activation over all rows, in the host program's operations. -/
def hostAct (μ σ W : FVec Ideal S512x512 .f32) (v : FVec Ideal S128x512 .f32) : FVec Ideal S128x512x512 .f32 :=
  mulf (broadcastInDim S128x512x512 ![0, 1, 2] bcast_S1x512x512_S128x512x512_0_1_2 (broadcastInDim S1x512x512 ![1, 2] bcast_S512x512_S1x512x512_1_2 W)) (Host.divf (broadcastInDim S128x512x512 ![] bcast_S_S128x512x512 (constant (F := Ideal) S_ .f32 0x3F800000#32)) (addf (broadcastInDim S128x512x512 ![] bcast_S_S128x512x512 (constant (F := Ideal) S_ .f32 0x3F800000#32)) (Host.exp (Host.negf (mulf (broadcastInDim S128x512x512 ![0, 1, 2] bcast_S1x512x512_S128x512x512_0_1_2 (broadcastInDim S1x512x512 ![1, 2] bcast_S512x512_S1x512x512_1_2 σ)) (subf (broadcastInDim S128x512x512 ![0, 1, 2] bcast_S128x512x1_S128x512x512_0_1_2 (broadcastInDim S128x512x1 ![0, 1] bcast_S128x512_S128x512x1_0_1 v)) (broadcastInDim S128x512x512 ![0, 1, 2] bcast_S1x512x512_S128x512x512_0_1_2 (broadcastInDim S1x512x512 ![1, 2] bcast_S512x512_S1x512x512_1_2 μ))))))))

/-- At (row `r`, source `j`, target `u`) it is the synapse's activation at the row's state. -/
theorem hostAct_apply (μ σ W : FVec Ideal S512x512 .f32) (v : FVec Ideal S128x512 .f32) (r : Fin 128) (j u : Fin 512) :
    hostAct μ σ W v (ix3 r j u) = syn (W (ix2 j u)) (σ (ix2 j u)) (μ (ix2 j u)) (v (ix2 r j)) := by
  unfold hostAct
  simp only [mulf_apply, addf_apply, subf_apply, Host.divf, Host.exp, Host.negf, syn, logistic_eq,
    Ideal.hostDivf_def, Ideal.hostUnary_exp_def, Ideal.hostNegf_def, Ideal.negf_def]
  rw [rec_mat_apply W, rec_mat_apply σ, rec_mat_apply μ, rec_col_apply, rec_scalar_apply]
  simp only [constant_apply, ofBits_one]

/-- One step of the state over all rows, in the host program's operations. -/
def hostStep (μ σ W E : FVec Ideal S512x512 .f32) (vleak gleak cm : FVec Ideal S512 .f32) (ns ds : FVec Ideal S128x512 .f32)
    (v : FVec Ideal S128x512 .f32) : FVec Ideal S128x512 .f32 :=
  Host.divf (addf (addf (mulf (broadcastInDim S128x512 ![0, 1] bcast_S1x512_S128x512_0_1 (broadcastInDim S1x512 ![1] bcast_S512_S1x512_1 cm)) v) (broadcastInDim S128x512 ![0, 1] bcast_S1x512_S128x512_0_1 (broadcastInDim S1x512 ![1] bcast_S512_S1x512_1 (mulf gleak vleak)))) (addf (Host.reduceAdd (mulf (hostAct μ σ W v) (broadcastInDim S128x512x512 ![0, 1, 2] bcast_S1x512x512_S128x512x512_0_1_2 (broadcastInDim S1x512x512 ![1, 2] bcast_S512x512_S1x512x512_1_2 E))) (constant (F := Ideal) S_ .f32 0x00000000#32) reducesTo_S128x512x512_S128x512_d1 h_S_) ns)) (addf (broadcastInDim S128x512 ![0, 1] bcast_S1x512_S128x512_0_1 (broadcastInDim S1x512 ![1] bcast_S512_S1x512_1 (addf cm gleak))) (addf (Host.reduceAdd (hostAct μ σ W v) (constant (F := Ideal) S_ .f32 0x00000000#32) reducesTo_S128x512x512_S128x512_d1 h_S_) ds))

/-- Row `r` of a step is the specification's step of row `r`. -/
theorem hostStep_apply (μ σ W E : FVec Ideal S512x512 .f32) (vleak gleak cm : FVec Ideal S512 .f32) (ns ds : FVec Ideal S128x512 .f32)
    (v : FVec Ideal S128x512 .f32) (r : Fin 128) (u : Fin 512) :
    hostStep μ σ W E vleak gleak cm ns ds v (ix2 r u)
      = step (recOf μ σ W E vleak gleak cm) (fun u => ns (ix2 r u)) (fun u => ds (ix2 r u)) (fun j => v (ix2 r j)) u := by
  unfold hostStep Host.reduceAdd Host.divf
  simp only [Ideal.hostReduceAdd_def, addf_apply, mulf_apply, host_sum_mid_apply _ _ _ reduces_rec, hostAct_apply,
    constant_apply, Ideal.ofBits_zero_f32, zero_add, Ideal.hostDivf_def, step, recOf]
  rw [vec_rows_apply cm, vec_rows_apply (mulf gleak vleak), vec_rows_apply (addf cm gleak), mulf_apply, addf_apply]
  congr 3
  refine Finset.sum_congr rfl fun j _ => ?_
  rw [rec_mat_apply]

/-- … so a whole row of a step is the specification's step of the row. -/
theorem hostStep_row (μ σ W E : FVec Ideal S512x512 .f32) (vleak gleak cm : FVec Ideal S512 .f32) (ns ds : FVec Ideal S128x512 .f32)
    (v : FVec Ideal S128x512 .f32) (r : Fin 128) :
    (fun u => hostStep μ σ W E vleak gleak cm ns ds v (ix2 r u))
      = step (recOf μ σ W E vleak gleak cm) (fun u => ns (ix2 r u)) (fun u => ds (ix2 r u)) (fun j => v (ix2 r j)) :=
  funext fun u => hostStep_apply μ σ W E vleak gleak cm ns ds v r u

end Cert.ReferenceIdeal.RefValue

end
-- ==== Proof.RefRun.lean ====
/-
  The host program's result is the cell, row by row.

  The host program's run ends with its result array at the composed term of its operations.  That term is the six-fold
  composition of one step function, applied to the initial state repeated over the rows, with the sensory numerator and
  denominator computed once; each intermediate array the run names is one more application of the step.  Row `r`, target
  `u` of the result is therefore `cell` of row `r`'s mapped input and the initial state at `u`.
-/
import proofs.«157048_j60730837565793_1_alg».proof.Proof.Gen.ReferenceIdeal.Run
import proofs.«157048_j60730837565793_1_alg».proof.Proof.RefOps

noncomputable section

namespace Cert.ReferenceIdeal.RefValue

open Cert.ReferenceIdeal Cert.ReferenceIdeal.Gen Cert.ReferenceIdeal.Value Idealize.ShloMosaic Idealize.ShloMosaic.ValueIdx
open Idealize.ShloMosaic.StableHlo Cert.Ltc

/-- The host program's cell over all 128 rows: six steps from the initial state repeated over the rows. -/
def hostCell (inp : FVec Ideal S128x128 .f32) (state : FVec Ideal S512 .f32) (w b : FVec Ideal S128x128 .f32)
    (sμ sσ sW sE : FVec Ideal S128x512 .f32) (μ σ W E : FVec Ideal S512x512 .f32) (vleak gleak cm : FVec Ideal S512 .f32) :
    FVec Ideal S128x512 .f32 :=
  let st := hostStep μ σ W E vleak gleak cm (hostSensNum sμ sσ sW sE inp w b) (hostSensDen sμ sσ sW inp w b)
  st (st (st (st (st (st (broadcastInDim S128x512 ![1] bcast_S512_S128x512_1 state))))))

/-- Row `r`, target `u` of the host program's cell is the specification's cell of row `r`. -/
theorem hostCell_apply (inp : FVec Ideal S128x128 .f32) (state : FVec Ideal S512 .f32) (w b : FVec Ideal S128x128 .f32)
    (sμ sσ sW sE : FVec Ideal S128x512 .f32) (μ σ W E : FVec Ideal S512x512 .f32) (vleak gleak cm : FVec Ideal S512 .f32)
    (r : Fin 128) (u : Fin 512) :
    hostCell inp state w b sμ sσ sW sE μ σ W E vleak gleak cm (ix2 r u)
      = cell (sensOf sμ sσ sW sE) (recOf μ σ W E vleak gleak cm) (rowIn inp w b r) (fun q => state (ix1 q)) u := by
  have hns : (fun q => hostSensNum sμ sσ sW sE inp w b (ix2 r q)) = sensNum (sensOf sμ sσ sW sE) (rowIn inp w b r) :=
    funext fun q => hostSensNum_apply sμ sσ sW sE inp w b r q
  have hds : (fun q => hostSensDen sμ sσ sW inp w b (ix2 r q)) = sensDen (sensOf sμ sσ sW sE) (rowIn inp w b r) :=
    funext fun q => hostSensDen_apply sμ sσ sW sE inp w b r q
  have h0 : (fun q => broadcastInDim S128x512 ![1] bcast_S512_S128x512_1 state (ix2 r q)) = fun q => state (ix1 q) :=
    funext fun q => state_rows_apply state _ r q
  unfold hostCell cell
  simp only []
  rw [hostStep_apply, hostStep_row, hostStep_row, hostStep_row, hostStep_row, hostStep_row, hns, hds, h0]

/-! ## The run's named arrays are the steps -/

variable (V0 : Valuation τ sig (Elt Ideal))

theorem sensAct_eq : res_main_v18 V0 = hostSensAct (V0 (Proc.devRef .tc main_arg4)) (V0 (Proc.devRef .tc main_arg5)) (V0 (Proc.devRef .tc main_arg6)) (V0 (Proc.devRef .tc main_arg0)) (V0 (Proc.devRef .tc main_arg2)) (V0 (Proc.devRef .tc main_arg3)) := rfl
theorem sensNum_eq : res_main_v22 V0 = hostSensNum (V0 (Proc.devRef .tc main_arg4)) (V0 (Proc.devRef .tc main_arg5)) (V0 (Proc.devRef .tc main_arg6)) (V0 (Proc.devRef .tc main_arg7)) (V0 (Proc.devRef .tc main_arg0)) (V0 (Proc.devRef .tc main_arg2)) (V0 (Proc.devRef .tc main_arg3)) := rfl
theorem sensDen_eq : res_main_v23 V0 = hostSensDen (V0 (Proc.devRef .tc main_arg4)) (V0 (Proc.devRef .tc main_arg5)) (V0 (Proc.devRef .tc main_arg6)) (V0 (Proc.devRef .tc main_arg0)) (V0 (Proc.devRef .tc main_arg2)) (V0 (Proc.devRef .tc main_arg3)) := rfl
theorem state0_eq : res_main_v24 V0 = broadcastInDim S128x512 ![1] bcast_S512_S128x512_1 (V0 (Proc.devRef .tc main_arg1)) := rfl
theorem act1_eq : res_main_v41 V0 = hostAct (V0 (Proc.devRef .tc main_arg8)) (V0 (Proc.devRef .tc main_arg9)) (V0 (Proc.devRef .tc main_arg10)) (res_main_v24 V0) := rfl
theorem step1_eq : res_main_v61 V0 = hostStep (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (res_main_v22 V0) (res_main_v23 V0) (res_main_v24 V0) := rfl
theorem act2_eq : res_main_v78 V0 = hostAct (V0 (Proc.devRef .tc main_arg8)) (V0 (Proc.devRef .tc main_arg9)) (V0 (Proc.devRef .tc main_arg10)) (res_main_v61 V0) := rfl
theorem step2_eq : res_main_v98 V0 = hostStep (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (res_main_v22 V0) (res_main_v23 V0) (res_main_v61 V0) := rfl
theorem act3_eq : res_main_v115 V0 = hostAct (V0 (Proc.devRef .tc main_arg8)) (V0 (Proc.devRef .tc main_arg9)) (V0 (Proc.devRef .tc main_arg10)) (res_main_v98 V0) := rfl
theorem step3_eq : res_main_v135 V0 = hostStep (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (res_main_v22 V0) (res_main_v23 V0) (res_main_v98 V0) := rfl
theorem act4_eq : res_main_v152 V0 = hostAct (V0 (Proc.devRef .tc main_arg8)) (V0 (Proc.devRef .tc main_arg9)) (V0 (Proc.devRef .tc main_arg10)) (res_main_v135 V0) := rfl
theorem step4_eq : res_main_v172 V0 = hostStep (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (res_main_v22 V0) (res_main_v23 V0) (res_main_v135 V0) := rfl
theorem act5_eq : res_main_v189 V0 = hostAct (V0 (Proc.devRef .tc main_arg8)) (V0 (Proc.devRef .tc main_arg9)) (V0 (Proc.devRef .tc main_arg10)) (res_main_v172 V0) := rfl
theorem step5_eq : res_main_v209 V0 = hostStep (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (res_main_v22 V0) (res_main_v23 V0) (res_main_v172 V0) := rfl
theorem act6_eq : res_main_v226 V0 = hostAct (V0 (Proc.devRef .tc main_arg8)) (V0 (Proc.devRef .tc main_arg9)) (V0 (Proc.devRef .tc main_arg10)) (res_main_v209 V0) := rfl

/-- The result buffer after the run is the sixth step. -/
theorem step6_eq : val5 V0 (no_index (Proc.devRef .tc main_v246)) = hostStep (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (res_main_v22 V0) (res_main_v23 V0) (res_main_v209 V0) :=
  (val5_main_v246 V0).trans rfl

/-- The result buffer after the run is the host program's cell of the argument arrays. -/
theorem result_eq : val5 V0 (no_index (Proc.devRef .tc main_v246))
    = hostCell (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  rw [step6_eq, step5_eq, step4_eq, step3_eq, step2_eq, step1_eq, state0_eq, sensNum_eq, sensDen_eq]
  rfl

end Cert.ReferenceIdeal.RefValue

end
-- ==== Proof.lean ====
/-
  The certificate of the liquid time-constant cell.

  Both programs compute, for each of 128 batch rows, the same function of the row's input and of the shared parameters: the
  sensory numerator and denominator of the row's affinely mapped input, and six semi-implicit steps of the state from the
  shared initial state (Proof/Spec.lean).  On the extended reals every operation is the exact one, the two spellings of the
  logistic function are one function (Proof/Sigmoid.lean), and the sums over the sources are sums in a commutative monoid,
  so nothing about the inputs' finiteness is used: the precondition is never opened.

  * The kernel holds sixteen rows per grid point and walks the targets in four tiles of 128; each tile of each step is the
    specification's step at the tile's targets (Proof/KTile.lean), the six rounds compose (Proof/KRun.lean), and the eight
    blocks tile the output array (Proof/KArray.lean).
  * The host program works on all rows at once; its composed term is the six-fold composition of one step function, and row
    `r` of it is the specification's cell of row `r` (Proof/RefOps.lean, Proof/RefRun.lean).

  The three frames are the generated ones (the host program's from its generated run), and the idealization rewrote
  nothing, so its conjunct is trivial.
-/
import proofs.«157048_j60730837565793_1_alg».proof.Defs
import proofs.«157048_j60730837565793_1_alg».proof.Proof.Gen.Kernel
import proofs.«157048_j60730837565793_1_alg».proof.Proof.Gen.Kernel.Skeleton
import proofs.«157048_j60730837565793_1_alg».proof.Proof.Gen.Kernel.Launch
import proofs.«157048_j60730837565793_1_alg».proof.Proof.Gen.Kernel.Points
import proofs.«157048_j60730837565793_1_alg».proof.Proof.Gen.Kernel.Frame
import proofs.«157048_j60730837565793_1_alg».proof.Proof.Gen.KernelIdeal
import proofs.«157048_j60730837565793_1_alg».proof.Proof.Gen.KernelIdeal.Skeleton
import proofs.«157048_j60730837565793_1_alg».proof.Proof.Gen.KernelIdeal.Launch
import proofs.«157048_j60730837565793_1_alg».proof.Proof.Gen.KernelIdeal.Points
import proofs.«157048_j60730837565793_1_alg».proof.Proof.Gen.KernelIdeal.Frame
import proofs.«157048_j60730837565793_1_alg».proof.Proof.Gen.ReferenceIdeal
import proofs.«157048_j60730837565793_1_alg».proof.Proof.Gen.Pre_finite_inputs
import proofs.«157048_j60730837565793_1_alg».proof.Proof.Gen.KernelIdeal.Value
import proofs.«157048_j60730837565793_1_alg».proof.Proof.Gen.ReferenceIdeal.Run
import proofs.«157048_j60730837565793_1_alg».proof.Proof.KArray
import proofs.«157048_j60730837565793_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Idealize.ShloMosaic.StableHlo

/-- The host program's cell of the argument arrays is the kernel's whole-array function of them: at (row `r`, target `u`)
    both are the specification's cell of row `r`. -/
theorem cells_agree (A0 : FVec Ideal Cert.ReferenceIdeal.S128x128 .f32) (A1 : FVec Ideal Cert.ReferenceIdeal.S512 .f32)
    (A2 A3 : FVec Ideal Cert.ReferenceIdeal.S128x128 .f32) (A4 A5 A6 A7 : FVec Ideal Cert.ReferenceIdeal.S128x512 .f32)
    (A8 A9 A10 A11 : FVec Ideal Cert.ReferenceIdeal.S512x512 .f32) (A12 A13 A14 : FVec Ideal Cert.ReferenceIdeal.S512 .f32) :
    Cert.ReferenceIdeal.RefValue.hostCell A0 A1 A2 A3 A4 A5 A6 A7 A8 A9 A10 A11 A12 A13 A14
      = Cert.KernelIdeal.KValue.cellArr A0 A1 A2 A3 A4 A5 A6 A7 A8 A9 A10 A11 A12 A13 A14 := by
  funext y
  obtain ⟨r, u, rfl⟩ : ∃ (r : Fin 128) (u : Fin 512), y = ix2 r u := ⟨y 0, y 1, eq_ix2 y⟩
  rw [Cert.ReferenceIdeal.RefValue.hostCell_apply]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At `Ideal` the kernel's output array ends at the whole-array cell of its arguments and the host program's result at its
    cell of arguments that agree: one function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Value.val5_main_v246 (launchContents m' c)).symm.trans
    (Cert.ReferenceIdeal.RefValue.result_eq (launchContents m' c))).trans ?_
  have h0 : (launchContents m' c (Proc.devRef .tc Cert.ReferenceIdeal.main_arg0)) = (m ((c.tc : Thread Cert.KernelIdeal.nD Cert.KernelIdeal.τ).loc Cert.KernelIdeal.main_arg0)) := (hagree c).1
  have h1 : (launchContents m' c (Proc.devRef .tc Cert.ReferenceIdeal.main_arg1)) = (m ((c.tc : Thread Cert.KernelIdeal.nD Cert.KernelIdeal.τ).loc Cert.KernelIdeal.main_arg1)) := (hagree c).2.1
  have h2 : (launchContents m' c (Proc.devRef .tc Cert.ReferenceIdeal.main_arg2)) = (m ((c.tc : Thread Cert.KernelIdeal.nD Cert.KernelIdeal.τ).loc Cert.KernelIdeal.main_arg2)) := (hagree c).2.2.1
  have h3 : (launchContents m' c (Proc.devRef .tc Cert.ReferenceIdeal.main_arg3)) = (m ((c.tc : Thread Cert.KernelIdeal.nD Cert.KernelIdeal.τ).loc Cert.KernelIdeal.main_arg3)) := (hagree c).2.2.2.1
  have h4 : (launchContents m' c (Proc.devRef .tc Cert.ReferenceIdeal.main_arg4)) = (m ((c.tc : Thread Cert.KernelIdeal.nD Cert.KernelIdeal.τ).loc Cert.KernelIdeal.main_arg4)) := (hagree c).2.2.2.2.1
  have h5 : (launchContents m' c (Proc.devRef .tc Cert.ReferenceIdeal.main_arg5)) = (m ((c.tc : Thread Cert.KernelIdeal.nD Cert.KernelIdeal.τ).loc Cert.KernelIdeal.main_arg5)) := (hagree c).2.2.2.2.2.1
  have h6 : (launchContents m' c (Proc.devRef .tc Cert.ReferenceIdeal.main_arg6)) = (m ((c.tc : Thread Cert.KernelIdeal.nD Cert.KernelIdeal.τ).loc Cert.KernelIdeal.main_arg6)) := (hagree c).2.2.2.2.2.2.1
  have h7 : (launchContents m' c (Proc.devRef .tc Cert.ReferenceIdeal.main_arg7)) = (m ((c.tc : Thread Cert.KernelIdeal.nD Cert.KernelIdeal.τ).loc Cert.KernelIdeal.main_arg7)) := (hagree c).2.2.2.2.2.2.2.1
  have h8 : (launchContents m' c (Proc.devRef .tc Cert.ReferenceIdeal.main_arg8)) = (m ((c.tc : Thread Cert.KernelIdeal.nD Cert.KernelIdeal.τ).loc Cert.KernelIdeal.main_arg8)) := (hagree c).2.2.2.2.2.2.2.2.1
  have h9 : (launchContents m' c (Proc.devRef .tc Cert.ReferenceIdeal.main_arg9)) = (m ((c.tc : Thread Cert.KernelIdeal.nD Cert.KernelIdeal.τ).loc Cert.KernelIdeal.main_arg9)) := (hagree c).2.2.2.2.2.2.2.2.2.1
  have h10 : (launchContents m' c (Proc.devRef .tc Cert.ReferenceIdeal.main_arg10)) = (m ((c.tc : Thread Cert.KernelIdeal.nD Cert.KernelIdeal.τ).loc Cert.KernelIdeal.main_arg10)) := (hagree c).2.2.2.2.2.2.2.2.2.2.1
  have h11 : (launchContents m' c (Proc.devRef .tc Cert.ReferenceIdeal.main_arg11)) = (m ((c.tc : Thread Cert.KernelIdeal.nD Cert.KernelIdeal.τ).loc Cert.KernelIdeal.main_arg11)) := (hagree c).2.2.2.2.2.2.2.2.2.2.2.1
  have h12 : (launchContents m' c (Proc.devRef .tc Cert.ReferenceIdeal.main_arg12)) = (m ((c.tc : Thread Cert.KernelIdeal.nD Cert.KernelIdeal.τ).loc Cert.KernelIdeal.main_arg12)) := (hagree c).2.2.2.2.2.2.2.2.2.2.2.2.1
  have h13 : (launchContents m' c (Proc.devRef .tc Cert.ReferenceIdeal.main_arg13)) = (m ((c.tc : Thread Cert.KernelIdeal.nD Cert.KernelIdeal.τ).loc Cert.KernelIdeal.main_arg13)) := (hagree c).2.2.2.2.2.2.2.2.2.2.2.2.2.1
  have h14 : (launchContents m' c (Proc.devRef .tc Cert.ReferenceIdeal.main_arg14)) = (m ((c.tc : Thread Cert.KernelIdeal.nD Cert.KernelIdeal.τ).loc Cert.KernelIdeal.main_arg14)) := (hagree c).2.2.2.2.2.2.2.2.2.2.2.2.2.2
  rw [h0, h1, h2, h3, h4, h5, h6, h7, h8, h9, h10, h11, h12, h13, h14]
  exact cells_agree _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
